-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 91
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S512, .f32⟩
  | .hbm, ⟨78, _⟩ => ⟨S100000x1, .i32⟩
  | .hbm, ⟨79, _⟩ => ⟨S512, .f32⟩
  | .hbm, ⟨80, _⟩ => ⟨S_, .f32⟩
  | .hbm, ⟨81, _⟩ => ⟨S512x128, .f32⟩
  | .hbm, ⟨82, _⟩ => ⟨S100000x1, .i32⟩
  | .hbm, ⟨83, _⟩ => ⟨S512x128, .f32⟩
  | .hbm, ⟨84, _⟩ => ⟨S_, .f32⟩
  | .hbm, ⟨85, _⟩ => ⟨S512, .f32⟩
  | .hbm, ⟨86, _⟩ => ⟨S512, .f32⟩
  | .hbm, ⟨87, _⟩ => ⟨S512x1, .f32⟩
  | .hbm, ⟨88, _⟩ => ⟨S512x128, .f32⟩
  | .hbm, ⟨89, _⟩ => ⟨S512x128, .f32⟩
  | .hbm, ⟨90, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S512x128, .f32⟩
  | .local _ .vmem, ⟨49, _⟩ => ⟨S128x10, .f32⟩
  | .local _ .vmem, ⟨50, _⟩ => ⟨S10, .f32⟩
  | .local _ .vmem, ⟨51, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem1_0 : DmaSem sig := 49
abbrev cc6_sem2_0 : DmaSem sig := 50
abbrev cc6_sem3_0 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S10.size a ≤ S10.size a
  hwx6_2 : ∀ i : grid6.Coords, EltTy.bits .f32 = 32 ∨ (Rect.block (s := S10) S10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x10.size a ≤ S512x10.size a
  hwx6_3 : ∀ i : grid6.Coords, EltTy.bits .f32 = 32 ∨ (Rect.block (s := S512x10) S512x10.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v13) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v61) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S512x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512 : Shape := ⟨1, ![512]⟩
abbrev S100000x1 : Shape := ⟨2, ![100000, 1]⟩
abbrev S512x128 : Shape := ⟨2, ![512, 128]⟩
abbrev S512x1 : Shape := ⟨2, ![512, 1]⟩
abbrev S512x10 : Shape := ⟨2, ![512, 10]⟩
abbrev S1x10 : Shape := ⟨2, ![1, 10]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x1, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S100000, .f32⟩
  | 118 => ⟨S_, .f32⟩
  | 119 => ⟨S512, .f32⟩
  | 120 => ⟨S100000x1, .i32⟩
  | 121 => ⟨S512, .f32⟩
  | 122 => ⟨S_, .f32⟩
  | 123 => ⟨S512x128, .f32⟩
  | 124 => ⟨S100000x1, .i32⟩
  | 125 => ⟨S512x128, .f32⟩
  | 126 => ⟨S_, .f32⟩
  | 127 => ⟨S512, .f32⟩
  | _ => ⟨S100000x128, .f32⟩

abbrev hbmTy0_1 (i : Nat) : BufTy := match i % 128 with
  | 0 => ⟨S512, .f32⟩
  | 1 => ⟨S512x1, .f32⟩
  | 2 => ⟨S512x128, .f32⟩
  | 3 => ⟨S512x128, .f32⟩
  | 4 => ⟨S512x10, .f32⟩
  | 5 => ⟨S1x10, .f32⟩
  | 6 => ⟨S512x10, .f32⟩
  | 7 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_17 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512 : S_.BroadcastsInDim S512 (![] : Fin 0 → Fin S512.rank)
  bcast_S100000_S100000x1_0 : S100000.BroadcastsInDim S100000x1 (![0] : Fin 1 → Fin S100000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The three dense stages of the graph network as whole-array functions over the extended reals.

  A node-feature array has 100000 rows (nodes) and 128 columns (features).  One layer first
  multiplies the features by a 128×128 weight matrix and scales row `n` by the node's
  normalisation factor `dinv n` (`matScale`); the edge aggregation happens between the two dense
  stages; then the aggregated rows and the node's own scaled row are added, scaled by `dinv n`
  once more, shifted by the bias and clipped below at zero (`combine`).  The classifier head is a
  512×128 by 128×10 product plus a bias row (`classify`).
-/
import Idealize.ShloMosaic.PureOps.Ideal
import Idealize.ShloMosaic.Lib.ValueIdx

noncomputable section

namespace Cert.Gcn

open Idealize.ShloMosaic Idealize.ShloMosaic.ValueIdx

/-- node features: 100000 × 128 -/
abbrev SNF : Shape := ⟨2, ![100000, 128]⟩
/-- a layer's weights: 128 × 128 -/
abbrev SFF : Shape := ⟨2, ![128, 128]⟩
/-- the per-node factor as a column: 100000 × 1 -/
abbrev SN1 : Shape := ⟨2, ![100000, 1]⟩
/-- a bias row: 128 -/
abbrev SF : Shape := ⟨1, ![128]⟩
/-- pooled graph features: 512 × 128 -/
abbrev SGF : Shape := ⟨2, ![512, 128]⟩
/-- the head's weights: 128 × 10 -/
abbrev SFC : Shape := ⟨2, ![128, 10]⟩
/-- the head's bias: 10 -/
abbrev SC : Shape := ⟨1, ![10]⟩
/-- the logits: 512 × 10 -/
abbrev SGC : Shape := ⟨2, ![512, 10]⟩

/-- `(h · W)[n, f] · dinv[n]`: the product's entry is the sum over the contracted
    coordinate, then scaled by the node's factor. -/
def matScale (h : SNF.Idx → EReal) (W : SFF.Idx → EReal) (dinv : SN1.Idx → EReal) : SNF.Idx → EReal :=
  fun i => (∑ k : Fin 128, h (ix2 (i 0) k) * W (ix2 k (i 1))) * dinv (ix2 (i 0) 0)

/-- `max ((S[n, f] + hs[n, f]) · dinv[n] + b[f]) 0`. -/
def combine (S hs : SNF.Idx → EReal) (dinv : SN1.Idx → EReal) (b : SF.Idx → EReal) : SNF.Idx → EReal :=
  fun i => max ((S i + hs i) * dinv (ix2 (i 0) 0) + b (ix1 (i 1))) 0

/-- `(p · W)[g, c] + b[c]`. -/
def classify (p : SGF.Idx → EReal) (W : SFC.Idx → EReal) (b : SC.Idx → EReal) : SGC.Idx → EReal :=
  fun i => (∑ k : Fin 128, p (ix2 (i 0) k) * W (ix2 k (i 1))) + b (ix1 (i 1))

end Cert.Gcn

end
-- ==== Proof.RegMatPay.lean ====
/-
  The arithmetic of the four dense kernels, entry by entry, over the extended reals.

  Three of the kernels multiply a block of 5000 feature rows by a 128×128 weight matrix and scale row p by that node's
  factor; the fourth multiplies the 512 pooled rows by a 128×10 matrix and adds a bias row.  Here each body's result is
  read at one entry (p, q) of its block: the product's entry is the sum over the contracted coordinate k of
  left(p, k) · right(k, q) (the accumulator starts at zero and the change of float format is the identity), the factor
  column [5000, 1] spread over the columns reads its row p, and the bias [10] viewed as [1, 10] and spread over the rows
  reads its entry q.
-/
import proofs.«170848_j50586124812352_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

/-- The zero offsets of a whole-block access are the constant function 0 (rank 2, and rank 1 for the bias row). -/
theorem hz : (![0, 0] : Fin 2 → Nat) = fun _ => 0 := funext fun a => by fin_cases a <;> rfl
theorem hz1 : (![0] : Fin 1 → Nat) = fun _ => 0 := funext fun a => by fin_cases a; rfl

theorem lhsRows_0 (i : S5000x128.Idx) (u : dot_S5000x128_S128x128_S5000x128_1_0_0_1_n_n.contr.Idx) : (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsRows_1 (i : S5000x128.Idx) (u : dot_S5000x128_S128x128_S5000x128_1_0_0_1_n_n.contr.Idx) : (dot_S5000x128_S128x128_S5000x128_1_0_0_1_n_n.lhsIdx i u 1).val = (u ⟨0, by decide⟩).val :=
  dot_S5000x128_S128x128_S5000x128_1_0_0_1_n_n.lhsIdx_val_of_single rfl i u
theorem rhsRows_0 (i : S5000x128.Idx) (u : dot_S5000x128_S128x128_S5000x128_1_0_0_1_n_n.contr.Idx) : (dot_S5000x128_S128x128_S5000x128_1_0_0_1_n_n.rhsIdx i u 0).val = (u ⟨0, by decide⟩).val :=
  dot_S5000x128_S128x128_S5000x128_1_0_0_1_n_n.rhsIdx_val_of_single rfl i u
theorem rhsRows_1 (i : S5000x128.Idx) (u : dot_S5000x128_S128x128_S5000x128_1_0_0_1_n_n.contr.Idx) : (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The 5000×128 by 128×128 product into a zero accumulator, entry (p, q): the sum over the contracted coordinate
    of row p of the left factor times column q of the right one. -/
theorem matmulRows_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRows_0 _ _
    | ⟨1, _⟩ => exact (lhsRows_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRows_0 _ _).trans hk
    | ⟨1, _⟩ => exact rhsRows_1 _ _)
  rw [el, er]

/-- The per-row factor, a 5000×1 column spread over the 128 columns, read at (p, q): the column's row p. -/
theorem spread_col (d : FVec Ideal S5000x1 .f32) (p : Fin 5000) (q : Fin 128) :
    broadcastTo S5000x128 (shapeCast S5000x1 d shapeCasts_S5000x1_S5000x1) broadcasts_S5000x1_S5000x128 (ix2 p q) = d (ix2 p 0) := by
  rw [shapeCast_self]
  refine broadcastTo_apply d _ (ix2 p q) (ix2 p 0) fun a => ?_
  match a with
  | ⟨0, _⟩ => rfl
  | ⟨1, _⟩ => rfl

/-- The body's arithmetic at entry (p, q) of a block: the product's entry scaled by the row's factor. -/
theorem pay0_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p 0) := by
  unfold k0_pay1
  rw [mulf_apply, matmulRows_apply, spread_col]
  rfl

/-- The second product region's arithmetic at entry (p, q) of a block (its left operand passes through a shape cast to
    its own shape first): the product's entry scaled by the row's factor. -/
theorem pay2_apply (x0 : Vec Ideal S5000x128 .f32) (x1 : Vec Ideal S128x128 .f32) (x2 : Vec Ideal S5000x1 .f32) (p : Fin 5000) (q : Fin 128) :
    k2_pay1 (F := Ideal) x0 x1 x2 (ix2 p q) = (∑ k : Fin 128, x0 (ix2 p k) * x1 (ix2 k q)) * x2 (ix2 p 0) := by
  unfold k2_pay1
  rw [mulf_apply, matmulRows_apply, spread_col, shapeCast_self]
  rfl

/-- The third product region's arithmetic at entry (p, q) of a block. -/
theorem pay4_apply (x0 : Vec Ideal S5000x128 .f32) (x1 : Vec Ideal S128x128 .f32) (x2 : Vec Ideal S5000x1 .f32) (p : Fin 5000) (q : Fin 128) :
    k4_pay1 (F := Ideal) x0 x1 x2 (ix2 p q) = (∑ k : Fin 128, x0 (ix2 p k) * x1 (ix2 k q)) * x2 (ix2 p 0) := by
  unfold k4_pay1
  rw [mulf_apply, matmulRows_apply, spread_col, shapeCast_self]
  rfl

theorem lhsHead_0 (i : S512x10.Idx) (u : dot_S512x128_S128x10_S512x10_1_0_0_1_n_n.contr.Idx) : (dot_S512x128_S128x10_S512x10_1_0_0_1_n_n.lhsIdx i u 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem lhsHead_1 (i : S512x10.Idx) (u : dot_S512x128_S128x10_S512x10_1_0_0_1_n_n.contr.Idx) : (dot_S512x128_S128x10_S512x10_1_0_0_1_n_n.lhsIdx i u 1).val = (u ⟨0, by decide⟩).val :=
  dot_S512x128_S128x10_S512x10_1_0_0_1_n_n.lhsIdx_val_of_single rfl i u
theorem rhsHead_0 (i : S512x10.Idx) (u : dot_S512x128_S128x10_S512x10_1_0_0_1_n_n.contr.Idx) : (dot_S512x128_S128x10_S512x10_1_0_0_1_n_n.rhsIdx i u 0).val = (u ⟨0, by decide⟩).val :=
  dot_S512x128_S128x10_S512x10_1_0_0_1_n_n.rhsIdx_val_of_single rfl i u
theorem rhsHead_1 (i : S512x10.Idx) (u : dot_S512x128_S128x10_S512x10_1_0_0_1_n_n.contr.Idx) : (dot_S512x128_S128x10_S512x10_1_0_0_1_n_n.rhsIdx i u 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The 512×128 by 128×10 product into a zero accumulator, entry (p, q): the sum over the contracted coordinate
    of row p of the left factor times column q of the right one. -/
theorem matmulHead_apply (l : FVec Ideal S512x128 .bf16) (r : FVec Ideal S128x10 .bf16) (p : Fin 512) (q : Fin 10) :
    matmul dot_S512x128_S128x10_S512x10_1_0_0_1_n_n none l r (constant S512x10 .f32 0x00000000#32) (ix2 p q)
      = ∑ k : Fin 128, l (ix2 p k) * r (ix2 k q) := by
  refine (Ideal.matmul_constant_zero_apply dot_S512x128_S128x10_S512x10_1_0_0_1_n_n none l r (ix2 p q)).trans ?_
  rw [← Equiv.sum_comp (contrEquiv1 dot_S512x128_S128x10_S512x10_1_0_0_1_n_n 128 rfl rfl).symm]
  refine Finset.sum_congr rfl fun k _ => ?_
  have hk := contrEquiv1_symm_val dot_S512x128_S128x10_S512x10_1_0_0_1_n_n 128 rfl rfl k
  have el : dot_S512x128_S128x10_S512x10_1_0_0_1_n_n.lhsIdx (ix2 p q) ((contrEquiv1 dot_S512x128_S128x10_S512x10_1_0_0_1_n_n 128 rfl rfl).symm k) = ix2 p k := funext fun a => Fin.ext (by
    match a with
    | ⟨0, _⟩ => exact lhsHead_0 _ _
    | ⟨1, _⟩ => exact (lhsHead_1 _ _).trans hk)
  have er : dot_S512x128_S128x10_S512x10_1_0_0_1_n_n.rhsIdx (ix2 p q) ((contrEquiv1 dot_S512x128_S128x10_S512x10_1_0_0_1_n_n 128 rfl rfl).symm k) = ix2 k q := funext fun a => Fin.ext (by
    match a with
    | ⟨0, _⟩ => exact (rhsHead_0 _ _).trans hk
    | ⟨1, _⟩ => exact rhsHead_1 _ _)
  rw [el, er]

/-- The bias, a row of 10 viewed as 1×10 and spread over the 512 rows, read at (p, q): the row's entry q. -/
theorem spread_row (b : FVec Ideal S10 .f32) (p : Fin 512) (q : Fin 10) :
    broadcastTo S512x10 (shapeCast S1x10 b shapeCasts_S10_S1x10) broadcasts_S1x10_S512x10 (ix2 p q) = b (ix1 q) := by
  have e : broadcastTo S512x10 (shapeCast S1x10 b shapeCasts_S10_S1x10) broadcasts_S1x10_S512x10 (ix2 p q)
      = shapeCast S1x10 b shapeCasts_S10_S1x10 (ix2 0 q) := by
    refine broadcastTo_apply _ _ (ix2 p q) (ix2 0 q) fun a => ?_
    match a with
    | ⟨0, _⟩ => rfl
    | ⟨1, _⟩ => rfl
  rw [e]
  refine shapeCast_apply b _ (ix2 0 q) (ix1 q) ?_
  rw [Shape.rowMajor_val_one, Shape.rowMajor_val_two]
  show q.val = 0 * 10 + q.val
  omega

/-- The classifier's arithmetic at entry (p, q): the product's entry plus the bias of column q. -/
theorem pay6_apply (x0 : Vec Ideal S512x128 .f32) (x1 : Vec Ideal S128x10 .f32) (x2 : Vec Ideal S10 .f32) (p : Fin 512) (q : Fin 10) :
    k6_pay1 (F := Ideal) x0 x1 x2 (ix2 p q) = (∑ k : Fin 128, x0 (ix2 p k) * x1 (ix2 k q)) + x2 (ix1 q) := by
  unfold k6_pay1
  rw [addf_apply, matmulHead_apply, spread_row, shapeCast_self]
  rfl

end Cert.KernelIdeal.Val

end
-- ==== Proof.RegMat0.lean ====
/-
  The first product-and-scale region as one whole-array function.

  The region's grid has 20 points; point t handles rows 5000 t … 5000 t + 4999.  At point t the body reads block t of the
  feature array and of the factor column and the whole weight matrix, and writes block t of the result.  So entry
  (n, f) of the result array after the region is computed by the point n / 5000 from row n of the features, column f of the
  weights and the factor of node n: it is `matScale` of the three arrays as the region finds them.
-/
import proofs.«170848_j50586124812352_1_alg».proof.Proof.Gen.KernelIdeal.Frame
import proofs.«170848_j50586124812352_1_alg».proof.Proof.Spec
import proofs.«170848_j50586124812352_1_alg».proof.Proof.RegMatPay

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on blocks that are pieces of whole arrays: if row (j 0) of the left block is row (i 0) of the
    array h, column (j 1) of the weight block is column (i 1) of W, and the factor block's row (j 0) is d's row (i 0), the
    entry j of the body's result is entry i of the whole-array function. -/
theorem pay0_matScale (x0 : Vec Ideal S5000x128 .f32) (x1 : Vec Ideal S128x128 .f32) (x2 : Vec Ideal S5000x1 .f32)
    (h : Cert.Gcn.SNF.Idx → EReal) (W : Cert.Gcn.SFF.Idx → EReal) (d : Cert.Gcn.SN1.Idx → EReal)
    (j : S5000x128.Idx) (i : Cert.Gcn.SNF.Idx)
    (h0 : ∀ k : Fin 128, x0 (ix2 (j 0) k) = h (ix2 (i 0) k))
    (h1 : ∀ k : Fin 128, x1 (ix2 k (j 1)) = W (ix2 k (i 1)))
    (h2 : x2 (ix2 (j 0) 0) = d (ix2 (i 0) 0)) :
    k0_pay1 (F := Ideal) x0 x1 x2 j = Cert.Gcn.matScale h W d i := by
  obtain ⟨p, q, rfl⟩ : ∃ (p : Fin 5000) (q : Fin 128), j = ix2 p q := ⟨j 0, j 1, eq_ix2 j⟩
  rw [pay0_apply]
  unfold Cert.Gcn.matScale
  have e0 : ∀ k : Fin 128, x0 (ix2 p k) = h (ix2 (i 0) k) := h0
  have e1 : ∀ k : Fin 128, x1 (ix2 k q) = W (ix2 k (i 1)) := h1
  have e2 : x2 (ix2 p 0) = d (ix2 (i 0) 0) := h2
  rw [e2]
  exact congrArg (· * d (ix2 (i 0) 0)) (Finset.sum_congr rfl fun k _ => by rw [e0 k, e1 k])

/-- The region's index maps, decided over the 20 grid points: the feature, factor and result windows sit at row block t
    and column block 0; the weight window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's result on the three input blocks of point t, read off the arrays as the region finds them, is block t
    (rows 5000 t … 5000 t + 4999) of the whole-array function: each input block's entry is the array's entry at the row
    the result block's entry sits in. -/
theorem block0_eq (c : Dev nD) (t : Fin cfg0.N) :
    (cfg0.win 3).cut (grid0.coords t)
        (k0_pay1 (F := Ideal) (((cfg0.win 0).blk t).view.read (Elt Ideal) (V c (Pipeline.arrRef spec0 0)))
          (((cfg0.win 1).blk t).view.read (Elt Ideal) (V c (Pipeline.arrRef spec0 1)))
          (((cfg0.win 2).blk t).view.read (Elt Ideal) (V c (Pipeline.arrRef spec0 2))))
      = ((cfg0.win 3).blk t).view.read (Elt Ideal) (Cert.Gcn.matScale (V c main_arg0) (V c main_arg3) (V c main_v13)) := by
  obtain ⟨a0, a1, b0, b1, d0, d1, o0, o1⟩ := idx_facts0 t
  funext j
  show k0_pay1 (F := Ideal) _ _ _ j = Cert.Gcn.matScale (V c main_arg0) (V c main_arg3) (V c main_v13) (((cfg0.win 3).blk t).view.emb j)
  refine pay0_matScale _ _ _ _ _ _ j _ (fun k => ?_) (fun k => ?_) ?_
  · show V c main_arg0 (((cfg0.win 0).blk t).view.emb (ix2 (j 0) k)) = V c main_arg0 _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v13 (((cfg0.win 2).blk t).view.emb (ix2 (j 0) 0)) = V c main_v13 _
    refine congrArg _ (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Row n of the result array lies in the block of grid point n / 5000, and every point writes its block back. -/
theorem cover0 (i : S100000x128.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, o0, o1⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- What point t writes back to the result array is block t of the whole-array function. -/
theorem flushed0_eq (c : Dev nD) (t : Fin cfg0.N) :
    (dat0 (F := Ideal) V c).flushed 3 t
      = ((cfg0.win 3).blk t).view.read (Elt Ideal) (Cert.Gcn.matScale (V c main_arg0) (V c main_arg3) (V c main_v13)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  unfold iblk0
  exact block0_eq V c t

/-- The result array after the region: the feature array times the weights, each row scaled by its node's factor. -/
theorem out0 (c : Dev nD) :
    (dat0 (F := Ideal) V c).arrAt 3 cfg0.N = Cert.Gcn.matScale (V c main_arg0) (V c main_arg3) (V c main_v13) :=
  (dat0 (F := Ideal) V c).arrAt_eq_of_cover 3 _ (fun t _ => flushed0_eq V c t) cover0

end Cert.KernelIdeal.Val

end
-- ==== Proof.RegMat2.lean ====
/-
  The second product-and-scale region as one whole-array function.

  The region's grid has 20 points; point t handles rows 5000 t … 5000 t + 4999.  At point t the body reads block t of the
  feature array and of the factor column and the whole weight matrix, and writes block t of the result.  So entry
  (n, f) of the result array after the region is computed by the point n / 5000 from row n of the features, column f of the
  weights and the factor of node n: it is `matScale` of the three arrays as the region finds them.
-/
import proofs.«170848_j50586124812352_1_alg».proof.Proof.Gen.KernelIdeal.Frame
import proofs.«170848_j50586124812352_1_alg».proof.Proof.Spec
import proofs.«170848_j50586124812352_1_alg».proof.Proof.RegMatPay

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on blocks that are pieces of whole arrays: if row (j 0) of the left block is row (i 0) of the
    array h, column (j 1) of the weight block is column (i 1) of W, and the factor block's row (j 0) is d's row (i 0), the
    entry j of the body's result is entry i of the whole-array function. -/
theorem pay2_matScale (x0 : Vec Ideal S5000x128 .f32) (x1 : Vec Ideal S128x128 .f32) (x2 : Vec Ideal S5000x1 .f32)
    (h : Cert.Gcn.SNF.Idx → EReal) (W : Cert.Gcn.SFF.Idx → EReal) (d : Cert.Gcn.SN1.Idx → EReal)
    (j : S5000x128.Idx) (i : Cert.Gcn.SNF.Idx)
    (h0 : ∀ k : Fin 128, x0 (ix2 (j 0) k) = h (ix2 (i 0) k))
    (h1 : ∀ k : Fin 128, x1 (ix2 k (j 1)) = W (ix2 k (i 1)))
    (h2 : x2 (ix2 (j 0) 0) = d (ix2 (i 0) 0)) :
    k2_pay1 (F := Ideal) x0 x1 x2 j = Cert.Gcn.matScale h W d i := by
  obtain ⟨p, q, rfl⟩ : ∃ (p : Fin 5000) (q : Fin 128), j = ix2 p q := ⟨j 0, j 1, eq_ix2 j⟩
  rw [pay2_apply]
  unfold Cert.Gcn.matScale
  have e0 : ∀ k : Fin 128, x0 (ix2 p k) = h (ix2 (i 0) k) := h0
  have e1 : ∀ k : Fin 128, x1 (ix2 k q) = W (ix2 k (i 1)) := h1
  have e2 : x2 (ix2 p 0) = d (ix2 (i 0) 0) := h2
  rw [e2]
  exact congrArg (· * d (ix2 (i 0) 0)) (Finset.sum_congr rfl fun k _ => by rw [e0 k, e1 k])

/-- The region's index maps, decided over the 20 grid points: the feature, factor and result windows sit at row block t
    and column block 0; the weight window stays at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's result on the three input blocks of point t, read off the arrays as the region finds them, is block t
    (rows 5000 t … 5000 t + 4999) of the whole-array function: each input block's entry is the array's entry at the row
    the result block's entry sits in. -/
theorem block2_eq (c : Dev nD) (t : Fin cfg2.N) :
    (cfg2.win 3).cut (grid2.coords t)
        (k2_pay1 (F := Ideal) (((cfg2.win 0).blk t).view.read (Elt Ideal) (V c (Pipeline.arrRef spec2 0)))
          (((cfg2.win 1).blk t).view.read (Elt Ideal) (V c (Pipeline.arrRef spec2 1)))
          (((cfg2.win 2).blk t).view.read (Elt Ideal) (V c (Pipeline.arrRef spec2 2))))
      = ((cfg2.win 3).blk t).view.read (Elt Ideal) (Cert.Gcn.matScale (V c main_v25) (V c main_arg5) (V c main_v13)) := by
  obtain ⟨a0, a1, b0, b1, d0, d1, o0, o1⟩ := idx_facts2 t
  funext j
  show k2_pay1 (F := Ideal) _ _ _ j = Cert.Gcn.matScale (V c main_v25) (V c main_arg5) (V c main_v13) (((cfg2.win 3).blk t).view.emb j)
  refine pay2_matScale _ _ _ _ _ _ j _ (fun k => ?_) (fun k => ?_) ?_
  · show V c main_v25 (((cfg2.win 0).blk t).view.emb (ix2 (j 0) k)) = V c main_v25 _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_arg5 (((cfg2.win 1).blk t).view.emb (ix2 k (j 1))) = V c main_arg5 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  · show V c main_v13 (((cfg2.win 2).blk t).view.emb (ix2 (j 0) 0)) = V c main_v13 _
    refine congrArg _ (funext fun a => Fin.ext ?_)
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega

/-- An index of the result array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v26).slice (win2_3.rect t)).set ↔ _
  rw [View.set_slice_whole, Rect.mem_set_unit]
  exact Iff.rfl

/-- Row n of the result array lies in the block of grid point n / 5000, and every point writes its block back. -/
theorem cover2 (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, -, -, o0, o1⟩ := idx_facts2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- What point t writes back to the result array is block t of the whole-array function. -/
theorem flushed2_eq (c : Dev nD) (t : Fin cfg2.N) :
    (dat2 (F := Ideal) V c).flushed 3 t
      = ((cfg2.win 3).blk t).view.read (Elt Ideal) (Cert.Gcn.matScale (V c main_v25) (V c main_arg5) (V c main_v13)) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x128) hz, View.ld_unit_zero (S := S5000x1) hz]
  unfold iblk2
  exact block2_eq V c t

/-- The result array after the region: the feature array times the weights, each row scaled by its node's factor. -/
theorem out2 (c : Dev nD) :
    (dat2 (F := Ideal) V c).arrAt 3 cfg2.N = Cert.Gcn.matScale (V c main_v25) (V c main_arg5) (V c main_v13) :=
  (dat2 (F := Ideal) V c).arrAt_eq_of_cover 3 _ (fun t _ => flushed2_eq V c t) cover2

end Cert.KernelIdeal.Val

end
-- ==== Proof.RegMat4.lean ====
/-
  The third product-and-scale region as one whole-array function.

  The region's grid has 20 points; point t handles rows 5000 t … 5000 t + 4999.  At point t the body reads block t of the
  feature array and of the factor column and the whole weight matrix, and writes block t of the result.  So entry
  (n, f) of the result array after the region is computed by the point n / 5000 from row n of the features, column f of the
  weights and the factor of node n: it is `matScale` of the three arrays as the region finds them.
-/
import proofs.«170848_j50586124812352_1_alg».proof.Proof.Gen.KernelIdeal.Frame
import proofs.«170848_j50586124812352_1_alg».proof.Proof.Spec
import proofs.«170848_j50586124812352_1_alg».proof.Proof.RegMatPay

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on blocks that are pieces of whole arrays: if row (j 0) of the left block is row (i 0) of the
    array h, column (j 1) of the weight block is column (i 1) of W, and the factor block's row (j 0) is d's row (i 0), the
    entry j of the body's result is entry i of the whole-array function. -/
theorem pay4_matScale (x0 : Vec Ideal S5000x128 .f32) (x1 : Vec Ideal S128x128 .f32) (x2 : Vec Ideal S5000x1 .f32)
    (h : Cert.Gcn.SNF.Idx → EReal) (W : Cert.Gcn.SFF.Idx → EReal) (d : Cert.Gcn.SN1.Idx → EReal)
    (j : S5000x128.Idx) (i : Cert.Gcn.SNF.Idx)
    (h0 : ∀ k : Fin 128, x0 (ix2 (j 0) k) = h (ix2 (i 0) k))
    (h1 : ∀ k : Fin 128, x1 (ix2 k (j 1)) = W (ix2 k (i 1)))
    (h2 : x2 (ix2 (j 0) 0) = d (ix2 (i 0) 0)) :
    k4_pay1 (F := Ideal) x0 x1 x2 j = Cert.Gcn.matScale h W d i := by
  obtain ⟨p, q, rfl⟩ : ∃ (p : Fin 5000) (q : Fin 128), j = ix2 p q := ⟨j 0, j 1, eq_ix2 j⟩
  rw [pay4_apply]
  unfold Cert.Gcn.matScale
  have e0 : ∀ k : Fin 128, x0 (ix2 p k) = h (ix2 (i 0) k) := h0
  have e1 : ∀ k : Fin 128, x1 (ix2 k q) = W (ix2 k (i 1)) := h1
  have e2 : x2 (ix2 p 0) = d (ix2 (i 0) 0) := h2
  rw [e2]
  exact congrArg (· * d (ix2 (i 0) 0)) (Finset.sum_congr rfl fun k _ => by rw [e0 k, e1 k])

/-- The region's index maps, decided over the 20 grid points: the feature, factor and result windows sit at row block t
    and column block 0; the weight window stays at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The body's result on the three input blocks of point t, read off the arrays as the region finds them, is block t
    (rows 5000 t … 5000 t + 4999) of the whole-array function: each input block's entry is the array's entry at the row
    the result block's entry sits in. -/
theorem block4_eq (c : Dev nD) (t : Fin cfg4.N) :
    (cfg4.win 3).cut (grid4.coords t)
        (k4_pay1 (F := Ideal) (((cfg4.win 0).blk t).view.read (Elt Ideal) (V c (Pipeline.arrRef spec4 0)))
          (((cfg4.win 1).blk t).view.read (Elt Ideal) (V c (Pipeline.arrRef spec4 1)))
          (((cfg4.win 2).blk t).view.read (Elt Ideal) (V c (Pipeline.arrRef spec4 2))))
      = ((cfg4.win 3).blk t).view.read (Elt Ideal) (Cert.Gcn.matScale (V c main_v37) (V c main_arg7) (V c main_v13)) := by
  obtain ⟨a0, a1, b0, b1, d0, d1, o0, o1⟩ := idx_facts4 t
  funext j
  show k4_pay1 (F := Ideal) _ _ _ j = Cert.Gcn.matScale (V c main_v37) (V c main_arg7) (V c main_v13) (((cfg4.win 3).blk t).view.emb j)
  refine pay4_matScale _ _ _ _ _ _ j _ (fun k => ?_) (fun k => ?_) ?_
  · show V c main_v37 (((cfg4.win 0).blk t).view.emb (ix2 (j 0) k)) = V c main_v37 _
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  · show V c main_arg7 (((cfg4.win 1).blk t).view.emb (ix2 k (j 1))) = V c main_arg7 _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_3.index t (1 : Fin 2) * 128 + 1 * (j 1).val; omega
  · show V c main_v13 (((cfg4.win 2).blk t).view.emb (ix2 (j 0) 0)) = V c main_v13 _
    refine congrArg _ (funext fun a => Fin.ext ?_)
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 1 + 1 * 0 = 0; omega

/-- An index of the result array is in point t's block iff each coordinate is in the block's range on its axis. -/
theorem mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v38).slice (win4_3.rect t)).set ↔ _
  rw [View.set_slice_whole, Rect.mem_set_unit]
  exact Iff.rfl

/-- Row n of the result array lies in the block of grid point n / 5000, and every point writes its block back. -/
theorem cover4 (i : S100000x128.Idx) : ∃ t : Fin cfg4.N, (cfg4.win 3).flush t = true ∧ i ∈ ((cfg4.win 3).blk t).view.set := by
  have hN : cfg4.N = 20 := N_4
  have hi0 : (i 0).val < 100000 := (i 0).isLt
  have hi1 : (i 1).val < 128 := (i 1).isLt
  let t : Fin cfg4.N := ⟨(i 0).val / 5000, by rw [hN]; omega⟩
  obtain ⟨-, -, -, -, -, -, o0, o1⟩ := idx_facts4 t
  have ht : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- What point t writes back to the result array is block t of the whole-array function. -/
theorem flushed4_eq (c : Dev nD) (t : Fin cfg4.N) :
    (dat4 (F := Ideal) V c).flushed 3 t
      = ((cfg4.win 3).blk t).view.read (Elt Ideal) (Cert.Gcn.matScale (V c main_v37) (V c main_arg7) (V c main_v13)) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S128x128) hz, View.ld_unit_zero (S := S5000x1) hz]
  unfold iblk4
  exact block4_eq V c t

/-- The result array after the region: the feature array times the weights, each row scaled by its node's factor. -/
theorem out4 (c : Dev nD) :
    (dat4 (F := Ideal) V c).arrAt 3 cfg4.N = Cert.Gcn.matScale (V c main_v37) (V c main_arg7) (V c main_v13) :=
  (dat4 (F := Ideal) V c).arrAt_eq_of_cover 3 _ (fun t _ => flushed4_eq V c t) cover4

end Cert.KernelIdeal.Val

end
-- ==== Proof.RegMat6.lean ====
/-
  The classifier region as one whole-array function.

  The region's grid has one point, and every window is its whole array: the 512 pooled rows, the 128×10 weights, the
  bias row of 10 and the 512×10 result.  So the result array after the region is the product of the pooled features by
  the weights plus the bias of each column: `classify` of the three arrays as the region finds them.
-/
import proofs.«170848_j50586124812352_1_alg».proof.Proof.Gen.KernelIdeal.Frame
import proofs.«170848_j50586124812352_1_alg».proof.Proof.Spec
import proofs.«170848_j50586124812352_1_alg».proof.Proof.RegMatPay

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on blocks that are pieces of whole arrays: if row (j 0) of the left block is row (i 0) of the
    array p, column (j 1) of the weight block is column (i 1) of W, and the bias block's entry (j 1) is b's entry (i 1), the
    entry j of the body's result is entry i of the whole-array function. -/
theorem pay6_classify (x0 : Vec Ideal S512x128 .f32) (x1 : Vec Ideal S128x10 .f32) (x2 : Vec Ideal S10 .f32)
    (p : Cert.Gcn.SGF.Idx → EReal) (W : Cert.Gcn.SFC.Idx → EReal) (b : Cert.Gcn.SC.Idx → EReal)
    (j : S512x10.Idx) (i : Cert.Gcn.SGC.Idx)
    (h0 : ∀ k : Fin 128, x0 (ix2 (j 0) k) = p (ix2 (i 0) k))
    (h1 : ∀ k : Fin 128, x1 (ix2 k (j 1)) = W (ix2 k (i 1)))
    (h2 : x2 (ix1 (j 1)) = b (ix1 (i 1))) :
    k6_pay1 (F := Ideal) x0 x1 x2 j = Cert.Gcn.classify p W b i := by
  obtain ⟨r, q, rfl⟩ : ∃ (r : Fin 512) (q : Fin 10), j = ix2 r q := ⟨j 0, j 1, eq_ix2 j⟩
  rw [pay6_apply]
  unfold Cert.Gcn.classify
  have e0 : ∀ k : Fin 128, x0 (ix2 r k) = p (ix2 (i 0) k) := h0
  have e1 : ∀ k : Fin 128, x1 (ix2 k q) = W (ix2 k (i 1)) := h1
  have e2 : x2 (ix1 q) = b (ix1 (i 1)) := h2
  rw [e2]
  exact congrArg (· + b (ix1 (i 1))) (Finset.sum_congr rfl fun k _ => by rw [e0 k, e1 k])

/-- The region's index maps at its one grid point: every window sits at block 0 on every axis. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0 :=
  (by decide +kernel : ∀ t : Fin grid6.N, _)

/-- The body's result on the three input blocks, read off the arrays as the region finds them, is the (one) block of the
    whole-array function. -/
theorem block6_eq (c : Dev nD) (t : Fin cfg6.N) :
    (cfg6.win 3).cut (grid6.coords t)
        (k6_pay1 (F := Ideal) (((cfg6.win 0).blk t).view.read (Elt Ideal) (V c (Pipeline.arrRef spec6 0)))
          (((cfg6.win 1).blk t).view.read (Elt Ideal) (V c (Pipeline.arrRef spec6 1)))
          (((cfg6.win 2).blk t).view.read (Elt Ideal) (V c (Pipeline.arrRef spec6 2))))
      = ((cfg6.win 3).blk t).view.read (Elt Ideal) (Cert.Gcn.classify (V c main_v61) (V c main_arg9) (V c main_arg10)) := by
  obtain ⟨a0, a1, b0, b1, d0, o0, o1⟩ := idx_facts6 t
  funext j
  show k6_pay1 (F := Ideal) _ _ _ j = Cert.Gcn.classify (V c main_v61) (V c main_arg9) (V c main_arg10) (((cfg6.win 3).blk t).view.emb j)
  refine pay6_classify _ _ _ _ _ _ j _ (fun k => ?_) (fun k => ?_) ?_
  · show V c main_v61 (((cfg6.win 0).blk t).view.emb (ix2 (j 0) k)) = V c main_v61 _
    refine congrArg _ (funext fun a => Fin.ext ?_)
    match a with
    | ⟨0, _⟩ => show win6_0.index t (0 : Fin 2) * 512 + 1 * (j 0).val = win6_3.index t (0 : Fin 2) * 512 + 1 * (j 0).val; omega
    | ⟨1, _⟩ => show win6_0.index t (1 : Fin 2) * 128 + 1 * k.val = k.val; omega
  · show V c main_arg9 (((cfg6.win 1).blk t).view.emb (ix2 k (j 1))) = V c main_arg9 _
    refine congrArg _ (funext fun a => Fin.ext ?_)
    match a with
    | ⟨0, _⟩ => show win6_1.index t (0 : Fin 2) * 128 + 1 * k.val = k.val; omega
    | ⟨1, _⟩ => show win6_1.index t (1 : Fin 2) * 10 + 1 * (j 1).val = win6_3.index t (1 : Fin 2) * 10 + 1 * (j 1).val; omega
  · show V c main_arg10 (((cfg6.win 2).blk t).view.emb (ix1 (j 1))) = V c main_arg10 _
    refine congrArg _ (funext fun a => Fin.ext ?_)
    match a with
    | ⟨0, _⟩ => show win6_2.index t (0 : Fin 1) * 10 + 1 * (j 1).val = win6_3.index t (1 : Fin 2) * 10 + 1 * (j 1).val; omega

/-- An index of the result array is in point t's block iff each coordinate is in the block's range on its axis. -/
theorem mem_blk6 (t : Fin cfg6.N) (i : S512x10.Idx) :
    i ∈ ((cfg6.win 3).blk t).view.set ↔ ∀ a : Fin 2, win6_3.index t a * S512x10.size a ≤ (i a).val ∧ (i a).val < win6_3.index t a * S512x10.size a + S512x10.size a := by
  show i ∈ ((View.whole main_v62).slice (win6_3.rect t)).set ↔ _
  rw [View.set_slice_whole, Rect.mem_set_unit]
  exact Iff.rfl

/-- Every index of the result array lies in the block of the one grid point, which is written back. -/
theorem cover6 (i : S512x10.Idx) : ∃ t : Fin cfg6.N, (cfg6.win 3).flush t = true ∧ i ∈ ((cfg6.win 3).blk t).view.set := by
  have hN : cfg6.N = 1 := N_6
  have hi0 : (i 0).val < 512 := (i 0).isLt
  have hi1 : (i 1).val < 10 := (i 1).isLt
  let t : Fin cfg6.N := ⟨0, by rw [hN]; omega⟩
  obtain ⟨-, -, -, -, -, o0, o1⟩ := idx_facts6 t
  refine ⟨t, flush6_3 t, ?_⟩
  rw [mem_blk6]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 10 ≤ (i 1).val ∧ (i 1).val < win6_3.index t (1 : Fin 2) * 10 + 10; omega

/-- What the one point writes back to the result array is the (one) block of the whole-array function. -/
theorem flushed6_eq (c : Dev nD) (t : Fin cfg6.N) :
    (dat6 (F := Ideal) V c).flushed 3 t
      = ((cfg6.win 3).blk t).view.read (Elt Ideal) (Cert.Gcn.classify (V c main_v61) (V c main_arg9) (V c main_arg10)) := by
  show (cfg6.win 3).cut (grid6.coords t) ((dat6 (F := Ideal) V c).after 3 t) = _
  rw [after6_3]
  unfold out6_3
  rw [View.canon_unit_zero hz]
  simp only [View.ld_unit_zero (S := S512x128) hz, View.ld_unit_zero (S := S128x10) hz, View.ld_unit_zero (S := S10) hz1]
  unfold iblk6
  exact block6_eq V c t

/-- The result array after the region: the pooled features times the head's weights, plus the bias of each column. -/
theorem out6 (c : Dev nD) :
    (dat6 (F := Ideal) V c).arrAt 3 cfg6.N = Cert.Gcn.classify (V c main_v61) (V c main_arg9) (V c main_arg10) :=
  (dat6 (F := Ideal) V c).arrAt_eq_of_cover 3 _ (fun t _ => flushed6_eq V c t) cover6

end Cert.KernelIdeal.Val

end
-- ==== Proof.RegMat.lean ====
/-
  The four dense regions of the kernel program, each as one whole-array function of the arrays it reads:
  `out0`, `out2`, `out4` (a product by the layer's weights scaled by the node factor) and `out6` (the classifier head).
-/
import proofs.«170848_j50586124812352_1_alg».proof.Proof.RegMat0
import proofs.«170848_j50586124812352_1_alg».proof.Proof.RegMat2
import proofs.«170848_j50586124812352_1_alg».proof.Proof.RegMat4
import proofs.«170848_j50586124812352_1_alg».proof.Proof.RegMat6
-- ==== Proof.RegComb.lean ====
/-
  The combine stage of a layer, read off the kernel's run as one function of whole arrays.

  The region walks the 100000 node rows in 20 blocks of 5000 rows.  At each block the body adds the
  aggregated rows and the node's own scaled rows, multiplies row n by the node's factor, adds the bias
  of the feature, and clips below at zero.  Every operation is entry by entry, so block t of the
  result is block t of `Cert.Gcn.combine` of the four input arrays; the 20 blocks tile the rows, so the
  whole result array is `Cert.Gcn.combine` of the inputs.
-/
import proofs.«170848_j50586124812352_1_alg».proof.Proof.Gen.KernelIdeal.Frame
import proofs.«170848_j50586124812352_1_alg».proof.Proof.Spec
import Idealize.ShloMosaic.PureOps.Ideal.Laws
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a rank-2 block, as a constant function. -/
theorem zero_off2 : (![0, 0] : Fin 2 → Nat) = fun _ => 0 := funext fun a => by fin_cases a <;> rfl

/-- The zero offset of a rank-1 block, as a constant function. -/
theorem zero_off1 : (![0] : Fin 1 → Nat) = fun _ => 0 := funext fun a => by fin_cases a <;> rfl

/-- A column of per-row factors repeated along the feature axis reads, at row `p` and feature `q`, the
    factor of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Region 1 -/

/-- The body's result at row `p`, feature `q` of a block: the two row blocks added, times the row's factor,
    plus the feature's bias, clipped below at zero. -/
theorem pay1_apply (x0 x1 : Vec Ideal S5000x128 .f32) (x2 : Vec Ideal S5000x1 .f32) (x3 : Vec Ideal S128 .f32)
    (p : Fin 5000) (q : Fin 128) :
    k1_pay1 x0 x1 x2 x3 (ix2 p q) = max ((x0 (ix2 p q) + x1 (ix2 p q)) * x2 (ix2 p 0) + x3 (ix1 q)) 0 := by
  unfold k1_pay1
  simp only [maximumf_apply, addf_apply, mulf_apply, broadcast_apply, shapeCast_self]
  rw [broadcastTo_a1_ab_apply, broadcastTo_1b_ab_apply, shapeCast_a_1a_apply]
  rw [show (FloatOps.ofBits (F := Ideal) .f32 0x00000000#32) = 0 from Ideal.ofBits_zero_f32]

/-- If the four blocks hold, at block index `j`, the entries of whole arrays that entry `i` of the combined
    array depends on (same row and feature; the row's factor; the feature's bias), the body's result at `j` is
    the combined array at `i`. -/
theorem pay1_block (S hs : Cert.Gcn.SNF.Idx → EReal) (d : Cert.Gcn.SN1.Idx → EReal) (b : Cert.Gcn.SF.Idx → EReal)
    (x0 x1 : Vec Ideal S5000x128 .f32) (x2 : Vec Ideal S5000x1 .f32) (x3 : Vec Ideal S128 .f32)
    (j : S5000x128.Idx) (i : Cert.Gcn.SNF.Idx)
    (h0 : x0 j = S i) (h1 : x1 j = hs i) (h2 : x2 (ix2 (j 0) 0) = d (ix2 (i 0) 0)) (h3 : x3 (ix1 (j 1)) = b (ix1 (i 1))) :
    k1_pay1 x0 x1 x2 x3 j = Cert.Gcn.combine S hs d b i := by
  obtain ⟨p, q, rfl⟩ : ∃ (p : Fin 5000) (q : Fin 128), j = ix2 p q := ⟨j 0, j 1, eq_ix2 j⟩
  rw [pay1_apply, h0, h1]
  unfold Cert.Gcn.combine
  rw [← h2, ← h3]

/-- The index maps over the grid: at point `t` each row-blocked window is at row block `t`, column block 0, and
    the bias window at its only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of the combined array of the region's inputs. -/
theorem flushed1_eq (c : Dev nD) (t : Fin cfg1.N) :
    (dat1 (F := Ideal) V c).flushed 4 t = ((cfg1.win 4).blk t).view.read (Elt Ideal)
      (Cert.Gcn.combine (V c main_v24) (V c main_v14) (V c main_v13) (V c main_arg4)) := by
  show (cfg1.win 4).cut (grid1.coords t) ((dat1 V c).after 4 t) = _
  rw [after1_4]
  unfold out1_4
  rw [View.canon_unit_zero zero_off2]
  simp only [View.ld_unit_zero (S := S5000x128) zero_off2, View.ld_unit_zero (S := S5000x1) zero_off2,
    View.ld_unit_zero (S := S128) zero_off1]
  obtain ⟨e0, e1, e2, e3, e4, e5, e6, e7, e8⟩ := idx_facts1 t
  funext j
  show k1_pay1 (iblk1 V c 0 t) (iblk1 V c 1 t) (iblk1 V c 2 t) (iblk1 V c 3 t) j
    = Cert.Gcn.combine (V c main_v24) (V c main_v14) (V c main_v13) (V c main_arg4) (((cfg1.win 4).blk t).view.emb j)
  have hj0 : (j 0).val < 5000 := (j 0).isLt
  have hj1 : (j 1).val < 128 := (j 1).isLt
  refine pay1_block (V c main_v24) (V c main_v14) (V c main_v13) (V c main_arg4)
    (iblk1 V c 0 t) (iblk1 V c 1 t) (iblk1 V c 2 t) (iblk1 V c 3 t) j (((cfg1.win 4).blk t).view.emb j) ?_ ?_ ?_ ?_
  · show V c main_v24 (((cfg1.win 0).blk t).view.emb j) = V c main_v24 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v14 (((cfg1.win 1).blk t).view.emb j) = V c main_v14 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v13 (((cfg1.win 2).blk t).view.emb (ix2 (j 0) 0))
      = V c main_v13 (ix2 ((((cfg1.win 4).blk t).view.emb j) 0) 0)
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_arg4 (((cfg1.win 3).blk t).view.emb (ix1 (j 1)))
      = V c main_arg4 (ix1 ((((cfg1.win 4).blk t).view.emb j) 1))
    refine congrArg _ (funext fun a => Fin.ext ?_)
    match a with
    | ⟨0, _⟩ => show win1_3.index t (0 : Fin 1) * 128 + 1 * (j 1).val = win1_4.index t (1 : Fin 2) * 128 + 1 * (j 1).val; omega

/-- An entry of the result array is in point `t`'s block iff each coordinate is in the block's range. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v25).slice (win1_4.rect t)).set ↔ _
  rw [View.set_slice_whole, Rect.mem_set_unit]
  exact Iff.rfl

/-- Row `r` of the result is written by point `r / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, e7, e8⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after region 1 is the combined array of the region's inputs. -/
theorem out1 (c : Dev nD) : (dat1 (F := Ideal) V c).arrAt 4 cfg1.N
    = Cert.Gcn.combine (V c main_v24) (V c main_v14) (V c main_v13) (V c main_arg4) :=
  (dat1 (F := Ideal) V c).arrAt_eq_of_cover 4 (Cert.Gcn.combine (V c main_v24) (V c main_v14) (V c main_v13) (V c main_arg4))
    (fun t _ => flushed1_eq V c t) cover1

/-! ## Region 3 -/

/-- The body's result at row `p`, feature `q` of a block: the two row blocks added, times the row's factor,
    plus the feature's bias, clipped below at zero. -/
theorem pay3_apply (x0 x1 : Vec Ideal S5000x128 .f32) (x2 : Vec Ideal S5000x1 .f32) (x3 : Vec Ideal S128 .f32)
    (p : Fin 5000) (q : Fin 128) :
    k3_pay1 x0 x1 x2 x3 (ix2 p q) = max ((x0 (ix2 p q) + x1 (ix2 p q)) * x2 (ix2 p 0) + x3 (ix1 q)) 0 := by
  unfold k3_pay1
  simp only [maximumf_apply, addf_apply, mulf_apply, broadcast_apply, shapeCast_self]
  rw [broadcastTo_a1_ab_apply, broadcastTo_1b_ab_apply, shapeCast_a_1a_apply]
  rw [show (FloatOps.ofBits (F := Ideal) .f32 0x00000000#32) = 0 from Ideal.ofBits_zero_f32]

/-- If the four blocks hold, at block index `j`, the entries of whole arrays that entry `i` of the combined
    array depends on (same row and feature; the row's factor; the feature's bias), the body's result at `j` is
    the combined array at `i`. -/
theorem pay3_block (S hs : Cert.Gcn.SNF.Idx → EReal) (d : Cert.Gcn.SN1.Idx → EReal) (b : Cert.Gcn.SF.Idx → EReal)
    (x0 x1 : Vec Ideal S5000x128 .f32) (x2 : Vec Ideal S5000x1 .f32) (x3 : Vec Ideal S128 .f32)
    (j : S5000x128.Idx) (i : Cert.Gcn.SNF.Idx)
    (h0 : x0 j = S i) (h1 : x1 j = hs i) (h2 : x2 (ix2 (j 0) 0) = d (ix2 (i 0) 0)) (h3 : x3 (ix1 (j 1)) = b (ix1 (i 1))) :
    k3_pay1 x0 x1 x2 x3 j = Cert.Gcn.combine S hs d b i := by
  obtain ⟨p, q, rfl⟩ : ∃ (p : Fin 5000) (q : Fin 128), j = ix2 p q := ⟨j 0, j 1, eq_ix2 j⟩
  rw [pay3_apply, h0, h1]
  unfold Cert.Gcn.combine
  rw [← h2, ← h3]

/-- The index maps over the grid: at point `t` each row-blocked window is at row block `t`, column block 0, and
    the bias window at its only block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point `t` writes back is block `t` of the combined array of the region's inputs. -/
theorem flushed3_eq (c : Dev nD) (t : Fin cfg3.N) :
    (dat3 (F := Ideal) V c).flushed 4 t = ((cfg3.win 4).blk t).view.read (Elt Ideal)
      (Cert.Gcn.combine (V c main_v36) (V c main_v26) (V c main_v13) (V c main_arg6)) := by
  show (cfg3.win 4).cut (grid3.coords t) ((dat3 V c).after 4 t) = _
  rw [after3_4]
  unfold out3_4
  rw [View.canon_unit_zero zero_off2]
  simp only [View.ld_unit_zero (S := S5000x128) zero_off2, View.ld_unit_zero (S := S5000x1) zero_off2,
    View.ld_unit_zero (S := S128) zero_off1]
  obtain ⟨e0, e1, e2, e3, e4, e5, e6, e7, e8⟩ := idx_facts3 t
  funext j
  show k3_pay1 (iblk3 V c 0 t) (iblk3 V c 1 t) (iblk3 V c 2 t) (iblk3 V c 3 t) j
    = Cert.Gcn.combine (V c main_v36) (V c main_v26) (V c main_v13) (V c main_arg6) (((cfg3.win 4).blk t).view.emb j)
  have hj0 : (j 0).val < 5000 := (j 0).isLt
  have hj1 : (j 1).val < 128 := (j 1).isLt
  refine pay3_block (V c main_v36) (V c main_v26) (V c main_v13) (V c main_arg6)
    (iblk3 V c 0 t) (iblk3 V c 1 t) (iblk3 V c 2 t) (iblk3 V c 3 t) j (((cfg3.win 4).blk t).view.emb j) ?_ ?_ ?_ ?_
  · show V c main_v36 (((cfg3.win 0).blk t).view.emb j) = V c main_v36 (((cfg3.win 4).blk t).view.emb j)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v26 (((cfg3.win 1).blk t).view.emb j) = V c main_v26 (((cfg3.win 4).blk t).view.emb j)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v13 (((cfg3.win 2).blk t).view.emb (ix2 (j 0) 0))
      = V c main_v13 (ix2 ((((cfg3.win 4).blk t).view.emb j) 0) 0)
    refine congrArg _ (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_arg6 (((cfg3.win 3).blk t).view.emb (ix1 (j 1)))
      = V c main_arg6 (ix1 ((((cfg3.win 4).blk t).view.emb j) 1))
    refine congrArg _ (funext fun a => Fin.ext ?_)
    match a with
    | ⟨0, _⟩ => show win3_3.index t (0 : Fin 1) * 128 + 1 * (j 1).val = win3_4.index t (1 : Fin 2) * 128 + 1 * (j 1).val; omega

/-- An entry of the result array is in point `t`'s block iff each coordinate is in the block's range. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v37).slice (win3_4.rect t)).set ↔ _
  rw [View.set_slice_whole, Rect.mem_set_unit]
  exact Iff.rfl

/-- Row `r` of the result is written by point `r / 5000`. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, e7, e8⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array after region 3 is the combined array of the region's inputs. -/
theorem out3 (c : Dev nD) : (dat3 (F := Ideal) V c).arrAt 4 cfg3.N
    = Cert.Gcn.combine (V c main_v36) (V c main_v26) (V c main_v13) (V c main_arg6) :=
  (dat3 (F := Ideal) V c).arrAt_eq_of_cover 4 (Cert.Gcn.combine (V c main_v36) (V c main_v26) (V c main_v13) (V c main_arg6))
    (fun t _ => flushed3_eq V c t) cover3

/-! ## Region 5 -/

/-- The body's result at row `p`, feature `q` of a block: the two row blocks added, times the row's factor,
    plus the feature's bias, clipped below at zero. -/
theorem pay5_apply (x0 x1 : Vec Ideal S5000x128 .f32) (x2 : Vec Ideal S5000x1 .f32) (x3 : Vec Ideal S128 .f32)
    (p : Fin 5000) (q : Fin 128) :
    k5_pay1 x0 x1 x2 x3 (ix2 p q) = max ((x0 (ix2 p q) + x1 (ix2 p q)) * x2 (ix2 p 0) + x3 (ix1 q)) 0 := by
  unfold k5_pay1
  simp only [maximumf_apply, addf_apply, mulf_apply, broadcast_apply, shapeCast_self]
  rw [broadcastTo_a1_ab_apply, broadcastTo_1b_ab_apply, shapeCast_a_1a_apply]
  rw [show (FloatOps.ofBits (F := Ideal) .f32 0x00000000#32) = 0 from Ideal.ofBits_zero_f32]

/-- If the four blocks hold, at block index `j`, the entries of whole arrays that entry `i` of the combined
    array depends on (same row and feature; the row's factor; the feature's bias), the body's result at `j` is
    the combined array at `i`. -/
theorem pay5_block (S hs : Cert.Gcn.SNF.Idx → EReal) (d : Cert.Gcn.SN1.Idx → EReal) (b : Cert.Gcn.SF.Idx → EReal)
    (x0 x1 : Vec Ideal S5000x128 .f32) (x2 : Vec Ideal S5000x1 .f32) (x3 : Vec Ideal S128 .f32)
    (j : S5000x128.Idx) (i : Cert.Gcn.SNF.Idx)
    (h0 : x0 j = S i) (h1 : x1 j = hs i) (h2 : x2 (ix2 (j 0) 0) = d (ix2 (i 0) 0)) (h3 : x3 (ix1 (j 1)) = b (ix1 (i 1))) :
    k5_pay1 x0 x1 x2 x3 j = Cert.Gcn.combine S hs d b i := by
  obtain ⟨p, q, rfl⟩ : ∃ (p : Fin 5000) (q : Fin 128), j = ix2 p q := ⟨j 0, j 1, eq_ix2 j⟩
  rw [pay5_apply, h0, h1]
  unfold Cert.Gcn.combine
  rw [← h2, ← h3]

/-- The index maps over the grid: at point `t` each row-blocked window is at row block `t`, column block 0, and
    the bias window at its only block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- What point `t` writes back is block `t` of the combined array of the region's inputs. -/
theorem flushed5_eq (c : Dev nD) (t : Fin cfg5.N) :
    (dat5 (F := Ideal) V c).flushed 4 t = ((cfg5.win 4).blk t).view.read (Elt Ideal)
      (Cert.Gcn.combine (V c main_v48) (V c main_v38) (V c main_v13) (V c main_arg8)) := by
  show (cfg5.win 4).cut (grid5.coords t) ((dat5 V c).after 4 t) = _
  rw [after5_4]
  unfold out5_4
  rw [View.canon_unit_zero zero_off2]
  simp only [View.ld_unit_zero (S := S5000x128) zero_off2, View.ld_unit_zero (S := S5000x1) zero_off2,
    View.ld_unit_zero (S := S128) zero_off1]
  obtain ⟨e0, e1, e2, e3, e4, e5, e6, e7, e8⟩ := idx_facts5 t
  funext j
  show k5_pay1 (iblk5 V c 0 t) (iblk5 V c 1 t) (iblk5 V c 2 t) (iblk5 V c 3 t) j
    = Cert.Gcn.combine (V c main_v48) (V c main_v38) (V c main_v13) (V c main_arg8) (((cfg5.win 4).blk t).view.emb j)
  have hj0 : (j 0).val < 5000 := (j 0).isLt
  have hj1 : (j 1).val < 128 := (j 1).isLt
  refine pay5_block (V c main_v48) (V c main_v38) (V c main_v13) (V c main_arg8)
    (iblk5 V c 0 t) (iblk5 V c 1 t) (iblk5 V c 2 t) (iblk5 V c 3 t) j (((cfg5.win 4).blk t).view.emb j) ?_ ?_ ?_ ?_
  · show V c main_v48 (((cfg5.win 0).blk t).view.emb j) = V c main_v48 (((cfg5.win 4).blk t).view.emb j)
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  · show V c main_v38 (((cfg5.win 1).blk t).view.emb j) = V c main_v38 (((cfg5.win 4).blk t).view.emb j)
    refine congrArg _ (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  · show V c main_v13 (((cfg5.win 2).blk t).view.emb (ix2 (j 0) 0))
      = V c main_v13 (ix2 ((((cfg5.win 4).blk t).view.emb j) 0) 0)
    refine congrArg _ (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  · show V c main_arg8 (((cfg5.win 3).blk t).view.emb (ix1 (j 1)))
      = V c main_arg8 (ix1 ((((cfg5.win 4).blk t).view.emb j) 1))
    refine congrArg _ (funext fun a => Fin.ext ?_)
    match a with
    | ⟨0, _⟩ => show win5_3.index t (0 : Fin 1) * 128 + 1 * (j 1).val = win5_4.index t (1 : Fin 2) * 128 + 1 * (j 1).val; omega

/-- An entry of the result array is in point `t`'s block iff each coordinate is in the block's range. -/
theorem mem_blk5 (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v49).slice (win5_4.rect t)).set ↔ _
  rw [View.set_slice_whole, Rect.mem_set_unit]
  exact Iff.rfl

/-- Row `r` of the result is written by point `r / 5000`. -/
theorem cover5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, e7, e8⟩ := idx_facts5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The result array after region 5 is the combined array of the region's inputs. -/
theorem out5 (c : Dev nD) : (dat5 (F := Ideal) V c).arrAt 4 cfg5.N
    = Cert.Gcn.combine (V c main_v48) (V c main_v38) (V c main_v13) (V c main_arg8) :=
  (dat5 (F := Ideal) V c).arrAt_eq_of_cover 4 (Cert.Gcn.combine (V c main_v48) (V c main_v38) (V c main_v13) (V c main_arg8))
    (fun t _ => flushed5_eq V c t) cover5

end Cert.KernelIdeal.Val

end
-- ==== Proof.KSpec.lean ====
/-
  The kernel program's result as one function of its eleven arguments.

  Between the dense stages the program works on the host: from the edge list it takes the source
  row and the target row, counts for every node the edges that end there, adds one for the node's
  own loop, and takes the reciprocal square root of that degree (never below one) as the node's
  factor `dinv`; per layer it gathers the scaled rows of the edges' sources and adds each onto the
  row of the edge's target (`agg`); at the end it averages node rows per graph (`pool`).
  One layer is `combine (agg (matScale h W dinv)) (matScale h W dinv) dinv b`.
-/
import proofs.«170848_j50586124812352_1_alg».proof.Proof.Gen.KernelIdeal
import proofs.«170848_j50586124812352_1_alg».proof.Proof.Spec

noncomputable section

namespace Cert.KernelIdeal.Val

open Cert.KernelIdeal Cert.KernelIdeal.Gen Idealize.ShloMosaic Idealize.ShloMosaic.TcCoe

section Host
variable {F : FTy → Type} [FloatOps F]

/-- the sources of the edges: row 0 of the edge list -/
def row (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- the targets of the edges: row 1 of the edge list -/
def col (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- a node's degree: the number of edges that end at it, plus one -/
def deg (x1 : (⟨S2x1600000, .i32⟩ : BufTy).Contents (Elt F)) : (⟨S100000, .f32⟩ : BufTy).Contents (Elt F) :=
  addf (Host.scatterAdd (F := F) scatter_S100000_S1600000x1_S1600000_n_0_0_1
      (broadcastInDim S100000 ![] bcast_S_S100000 (constant (F := F) S_ .f32 0x00000000#32))
      (broadcastInDim S1600000x1 ![0] bcast_S1600000_S1600000x1_0 (col (F := F) x1))
      (broadcastInDim S1600000 ![] bcast_S_S1600000 (constant (F := F) S_ .f32 0x3F800000#32)))
    (broadcastInDim S100000 ![] bcast_S_S100000 (constant (F := F) S_ .f32 0x3F800000#32))

/-- the node factor as a column: the reciprocal square root of the degree, the degree taken at least one -/
def dinv (x1 : (⟨S2x1600000, .i32⟩ : BufTy).Contents (Elt F)) : (⟨S100000x1, .f32⟩ : BufTy).Contents (Elt F) :=
  shapeCast _ (Host.rsqrt (F := F) (maximumf (deg (F := F) x1) (broadcastInDim S100000 ![] bcast_S_S100000 (constant (F := F) S_ .f32 0x3F800000#32))))
    shapeCasts_S100000_S100000x1

/-- the gather's start indices: a negative source index is shifted up by the number of nodes -/
def rowIdx (x1 : (⟨S2x1600000, .i32⟩ : BufTy).Contents (Elt F)) : (⟨S1600000x1, .i32⟩ : BufTy).Contents (Elt F) :=
  broadcastInDim S1600000x1 ![0] bcast_S1600000_S1600000x1_0
    (select (cmpi .slt (row (F := F) x1) (broadcastInDim S1600000 ![] bcast_S_S1600000 (constantI S_ 32 0#32)))
      (addi (row (F := F) x1) (broadcastInDim S1600000 ![] bcast_S_S1600000 (constantI S_ 32 100000#32))) (row (F := F) x1))

/-- the edge aggregation: every edge adds its source's row onto its target's row -/
def agg (x1 : (⟨S2x1600000, .i32⟩ : BufTy).Contents (Elt F)) (hs : (⟨S100000x128, .f32⟩ : BufTy).Contents (Elt F)) :
    (⟨S100000x128, .f32⟩ : BufTy).Contents (Elt F) :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 (col (F := F) x1))
    (Host.gather gather_S100000x128_S1600000x1_S1600000x128_1_0_n_n_0_1_1128 hs (rowIdx (F := F) x1))

/-- the mean of the node rows of every graph: the rows summed per graph, divided by the graph's node
    count taken at least one -/
def pool (x2 : (⟨S100000, .i32⟩ : BufTy).Contents (Elt F)) (h : (⟨S100000x128, .f32⟩ : BufTy).Contents (Elt F)) :
    (⟨S512x128, .f32⟩ : BufTy).Contents (Elt F) :=
  Host.divf (F := F)
    (Host.scatterAdd (F := F) scatter_S512x128_S100000x1_S100000x128_1_0_0_1
      (broadcastInDim S512x128 ![] bcast_S_S512x128 (constant (F := F) S_ .f32 0x00000000#32))
      (broadcastInDim S100000x1 ![0] bcast_S100000_S100000x1_0 x2) h)
    (broadcastInDim S512x128 ![0, 1] bcast_S512x1_S512x128_0_1
      (broadcastInDim S512x1 ![0] bcast_S512_S512x1_0
        (maximumf
          (Host.scatterAdd (F := F) scatter_S512_S100000x1_S100000_n_0_0_1
            (broadcastInDim S512 ![] bcast_S_S512 (constant (F := F) S_ .f32 0x00000000#32))
            (broadcastInDim S100000x1 ![0] bcast_S100000_S100000x1_0 x2)
            (broadcastInDim S100000 ![] bcast_S_S100000 (constant (F := F) S_ .f32 0x3F800000#32)))
          (broadcastInDim S512 ![] bcast_S_S512 (constant (F := F) S_ .f32 0x3F800000#32)))))

end Host

/-- one layer: the dense product scaled by the node factor, the edge aggregation, and the combine stage -/
def layer (x1 : (⟨S2x1600000, .i32⟩ : BufTy).Contents (Elt Ideal)) (h : (⟨S100000x128, .f32⟩ : BufTy).Contents (Elt Ideal))
    (W : (⟨S128x128, .f32⟩ : BufTy).Contents (Elt Ideal)) (b : (⟨S128, .f32⟩ : BufTy).Contents (Elt Ideal)) :
    (⟨S100000x128, .f32⟩ : BufTy).Contents (Elt Ideal) :=
  Cert.Gcn.combine (agg (F := Ideal) x1 (Cert.Gcn.matScale h W (dinv (F := Ideal) x1))) (Cert.Gcn.matScale h W (dinv (F := Ideal) x1)) (dinv (F := Ideal) x1) b

/-- the program's result: three layers, the per-graph mean, the classifier head -/
def out (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    (⟨S512x10, .f32⟩ : BufTy).Contents (Elt Ideal) :=
  Cert.Gcn.classify (pool (F := Ideal) x2 (layer x1 (layer x1 (layer x1 x0 x3 x4) x5 x6) x7 x8)) x9 x10

end Cert.KernelIdeal.Val

end
-- ==== Proof.KHost.lean ====
/-
  The host stretches of the kernel program, each from arbitrary buffer contents: what it writes into the buffers
  later stages read (the source row, the target row, the node factor, a layer's edge aggregation, the per-graph
  mean), and that it leaves every buffer it does not write.
-/
import proofs.«170848_j50586124812352_1_alg».proof.Proof.Gen.KernelIdeal.Frame
import proofs.«170848_j50586124812352_1_alg».proof.Proof.KSpec

set_option maxRecDepth 16384

noncomputable section

namespace Cert.KernelIdeal.Val

open Cert.KernelIdeal Cert.KernelIdeal.Gen
open Idealize.ShloMosaic Idealize.ShloMosaic.TcCoe Idealize.ShloMosaic.Tactic

/-! ## The stages respect equality of their operands -/

theorem matScale_congr {h h' : Cert.Gcn.SNF.Idx → EReal} {W W' : Cert.Gcn.SFF.Idx → EReal} {d d' : Cert.Gcn.SN1.Idx → EReal}
    (e1 : h = h') (e2 : W = W') (e3 : d = d') : Cert.Gcn.matScale h W d = Cert.Gcn.matScale h' W' d' := by
  subst e1 e2 e3; rfl
theorem combine_congr {S S' hs hs' : Cert.Gcn.SNF.Idx → EReal} {d d' : Cert.Gcn.SN1.Idx → EReal} {b b' : Cert.Gcn.SF.Idx → EReal}
    (e1 : S = S') (e2 : hs = hs') (e3 : d = d') (e4 : b = b') :
    Cert.Gcn.combine S hs d b = Cert.Gcn.combine S' hs' d' b' := by
  subst e1 e2 e3 e4; rfl
theorem classify_congr {p p' : Cert.Gcn.SGF.Idx → EReal} {W W' : Cert.Gcn.SFC.Idx → EReal} {b b' : Cert.Gcn.SC.Idx → EReal}
    (e1 : p = p') (e2 : W = W') (e3 : b = b') : Cert.Gcn.classify p W b = Cert.Gcn.classify p' W' b' := by
  subst e1 e2 e3; rfl

/-- The edge aggregation from the source row and the target row: `agg` with the two rows as operands. -/
def aggOf (r cl : (⟨S1600000, .i32⟩ : BufTy).Contents (Elt Ideal)) (hs : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 cl)
    (Host.gather gather_S100000x128_S1600000x1_S1600000x128_1_0_n_n_0_1_1128 hs
      (broadcastInDim S1600000x1 ![0] bcast_S1600000_S1600000x1_0
        (select (cmpi .slt r (broadcastInDim S1600000 ![] bcast_S_S1600000 (constantI S_ 32 0#32)))
          (addi r (broadcastInDim S1600000 ![] bcast_S_S1600000 (constantI S_ 32 100000#32))) r)))

theorem agg_eq (x1 : (⟨S2x1600000, .i32⟩ : BufTy).Contents (Elt Ideal)) (hs : (⟨S100000x128, .f32⟩ : BufTy).Contents (Elt Ideal)) :
    Val.agg (F := Ideal) x1 hs = aggOf (Val.row (F := Ideal) x1) (Val.col (F := Ideal) x1) hs := rfl

theorem aggOf_congr {r r' cl cl' : (⟨S1600000, .i32⟩ : BufTy).Contents (Elt Ideal)} {hs hs' : (⟨S100000x128, .f32⟩ : BufTy).Contents (Elt Ideal)}
    (e1 : r = r') (e2 : cl = cl') (e3 : hs = hs') : aggOf r cl hs = aggOf r' cl' hs' := by
  subst e1 e2 e3; rfl
theorem pool_congr {x2 x2' : (⟨S100000, .i32⟩ : BufTy).Contents (Elt Ideal)} {h h' : (⟨S100000x128, .f32⟩ : BufTy).Contents (Elt Ideal)}
    (e1 : x2 = x2') (e2 : h = h') : Val.pool (F := Ideal) x2 h = Val.pool (F := Ideal) x2' h' := by
  subst e1 e2; rfl

theorem layer_eq (x1 : (⟨S2x1600000, .i32⟩ : BufTy).Contents (Elt Ideal)) (h : (⟨S100000x128, .f32⟩ : BufTy).Contents (Elt Ideal))
    (W : (⟨S128x128, .f32⟩ : BufTy).Contents (Elt Ideal)) (b : (⟨S128, .f32⟩ : BufTy).Contents (Elt Ideal)) :
    Val.layer x1 h W b
      = Cert.Gcn.combine (Val.agg (F := Ideal) x1 (Cert.Gcn.matScale h W (Val.dinv (F := Ideal) x1))) (Cert.Gcn.matScale h W (Val.dinv (F := Ideal) x1)) (Val.dinv (F := Ideal) x1) b := rfl

/-! ## What a stretch of host operations writes, from any contents -/

set_option maxHeartbeats 1000000 in
theorem host0_v1 (V : Valuation τ sig (Elt Ideal)) :
    StableHlo.after (hostOps0 (F := Ideal)) V (Proc.devRef .tc main_v1) = Val.row (F := Ideal) (V (Proc.devRef .tc main_arg1)) := by
  after_results_simp; rfl
set_option maxHeartbeats 1000000 in
theorem host0_v3 (V : Valuation τ sig (Elt Ideal)) :
    StableHlo.after (hostOps0 (F := Ideal)) V (Proc.devRef .tc main_v3) = Val.col (F := Ideal) (V (Proc.devRef .tc main_arg1)) := by
  after_results_simp; rfl
set_option maxHeartbeats 1000000 in
theorem host0_v13 (V : Valuation τ sig (Elt Ideal)) :
    StableHlo.after (hostOps0 (F := Ideal)) V (Proc.devRef .tc main_v13) = Val.dinv (F := Ideal) (V (Proc.devRef .tc main_arg1)) := by
  after_results_simp; rfl
set_option maxHeartbeats 1000000 in
theorem host1_v24 (V : Valuation τ sig (Elt Ideal)) :
    StableHlo.after (hostOps1 (F := Ideal)) V (Proc.devRef .tc main_v24)
      = aggOf (V (Proc.devRef .tc main_v1)) (V (Proc.devRef .tc main_v3)) (V (Proc.devRef .tc main_v14)) := by
  after_results_simp; rfl
set_option maxHeartbeats 1000000 in
theorem host3_v36 (V : Valuation τ sig (Elt Ideal)) :
    StableHlo.after (hostOps3 (F := Ideal)) V (Proc.devRef .tc main_v36)
      = aggOf (V (Proc.devRef .tc main_v1)) (V (Proc.devRef .tc main_v3)) (V (Proc.devRef .tc main_v26)) := by
  after_results_simp; rfl
set_option maxHeartbeats 1000000 in
theorem host5_v48 (V : Valuation τ sig (Elt Ideal)) :
    StableHlo.after (hostOps5 (F := Ideal)) V (Proc.devRef .tc main_v48)
      = aggOf (V (Proc.devRef .tc main_v1)) (V (Proc.devRef .tc main_v3)) (V (Proc.devRef .tc main_v38)) := by
  after_results_simp; rfl
set_option maxHeartbeats 1000000 in
theorem host6_v61 (V : Valuation τ sig (Elt Ideal)) :
    StableHlo.after (hostOps6 (F := Ideal)) V (Proc.devRef .tc main_v61)
      = Val.pool (F := Ideal) (V (Proc.devRef .tc main_arg2)) (V (Proc.devRef .tc main_v49)) := by
  after_results_simp; rfl

/-! ## What a stretch of host operations leaves alone -/

/-- A buffer none of these host operations writes keeps its contents. -/
theorem host0_keep (V : Valuation τ sig (Elt Ideal)) (b : Ref sig .tc)
    (hb : b ∉ [main_v0, main_v1, main_v2, main_v3, main_cst, main_v4, main_cst_0, main_v5, main_v6, main_v7, main_cst_1, main_v8, main_v9, main_cst_2, main_v10, main_v11, main_v12, main_v13]) :
    StableHlo.after (hostOps0 (F := Ideal)) V (Proc.devRef .tc b) = V (Proc.devRef .tc b) :=
  StableHlo.after_of_writes_sub (hostOps0 (F := Ideal)) V (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb
/-- A buffer none of these host operations writes keeps its contents. -/
theorem host1_keep (V : Valuation τ sig (Elt Ideal)) (b : Ref sig .tc)
    (hb : b ∉ [main_c, main_v15, main_v16, main_c_3, main_v17, main_v18, main_v19, main_v20, main_v21, main_cst_4, main_v22, main_v23, main_v24]) :
    StableHlo.after (hostOps1 (F := Ideal)) V (Proc.devRef .tc b) = V (Proc.devRef .tc b) :=
  StableHlo.after_of_writes_sub (hostOps1 (F := Ideal)) V (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb
/-- A buffer none of these host operations writes keeps its contents. -/
theorem host3_keep (V : Valuation τ sig (Elt Ideal)) (b : Ref sig .tc)
    (hb : b ∉ [main_c_5, main_v27, main_v28, main_c_6, main_v29, main_v30, main_v31, main_v32, main_v33, main_cst_7, main_v34, main_v35, main_v36]) :
    StableHlo.after (hostOps3 (F := Ideal)) V (Proc.devRef .tc b) = V (Proc.devRef .tc b) :=
  StableHlo.after_of_writes_sub (hostOps3 (F := Ideal)) V (by
    simp only [hostOps3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb
/-- A buffer none of these host operations writes keeps its contents. -/
theorem host5_keep (V : Valuation τ sig (Elt Ideal)) (b : Ref sig .tc)
    (hb : b ∉ [main_c_8, main_v39, main_v40, main_c_9, main_v41, main_v42, main_v43, main_v44, main_v45, main_cst_10, main_v46, main_v47, main_v48]) :
    StableHlo.after (hostOps5 (F := Ideal)) V (Proc.devRef .tc b) = V (Proc.devRef .tc b) :=
  StableHlo.after_of_writes_sub (hostOps5 (F := Ideal)) V (by
    simp only [hostOps5, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb
/-- A buffer none of these host operations writes keeps its contents. -/
theorem host6_keep (V : Valuation τ sig (Elt Ideal)) (b : Ref sig .tc)
    (hb : b ∉ [main_cst_11, main_v50, main_cst_12, main_v51, main_v52, main_v53, main_cst_13, main_v54, main_v55, main_v56, main_cst_14, main_v57, main_v58, main_v59, main_v60, main_v61]) :
    StableHlo.after (hostOps6 (F := Ideal)) V (Proc.devRef .tc b) = V (Proc.devRef .tc b) :=
  StableHlo.after_of_writes_sub (hostOps6 (F := Ideal)) V (by
    simp only [hostOps6, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

end Cert.KernelIdeal.Val

end
-- ==== Proof.KChain1.lean ====
/-
  The buffers of the kernel program along the first half of its run.

  The program alternates stretches of host operations with the seven dense regions.  Walking forward from the
  launch memory, every buffer a later stage reads is written exactly once — by a host stretch or by a region — and
  is then only carried: a host stretch leaves every buffer it does not write, a region leaves its input arrays and
  every buffer that is not one of its arrays.  This file states the regions' closed forms as a hypothesis and
  follows the buffers through the first layer and the second layer's dense product and edge aggregation.
-/
import proofs.«170848_j50586124812352_1_alg».proof.Proof.Gen.KernelIdeal.Frame
import proofs.«170848_j50586124812352_1_alg».proof.Proof.KHost

set_option maxRecDepth 16384

noncomputable section

namespace Cert.KernelIdeal.Val

open Cert.KernelIdeal Cert.KernelIdeal.Gen
open Idealize.ShloMosaic Idealize.ShloMosaic.TcCoe Idealize.ShloMosaic.Tactic

/-! ## The regions' closed forms, as a hypothesis -/

/-- What each region leaves in its output array, as a function of the contents it is entered with: the dense
    stage of Spec.lean applied to the region's input arrays. -/
structure RegionOuts : Prop where
  out0 : ∀ (V : (c : Dev nD) → (b : Ref sig .tc) → Buf (Elt Ideal) ((c : Thread nD τ).loc b)) (c : Dev nD),
    (Gen.dat0 (F := Ideal) V c).arrAt 3 cfg0.N = Cert.Gcn.matScale (V c main_arg0) (V c main_arg3) (V c main_v13)
  out1 : ∀ (V : (c : Dev nD) → (b : Ref sig .tc) → Buf (Elt Ideal) ((c : Thread nD τ).loc b)) (c : Dev nD),
    (Gen.dat1 (F := Ideal) V c).arrAt 4 cfg1.N = Cert.Gcn.combine (V c main_v24) (V c main_v14) (V c main_v13) (V c main_arg4)
  out2 : ∀ (V : (c : Dev nD) → (b : Ref sig .tc) → Buf (Elt Ideal) ((c : Thread nD τ).loc b)) (c : Dev nD),
    (Gen.dat2 (F := Ideal) V c).arrAt 3 cfg2.N = Cert.Gcn.matScale (V c main_v25) (V c main_arg5) (V c main_v13)
  out3 : ∀ (V : (c : Dev nD) → (b : Ref sig .tc) → Buf (Elt Ideal) ((c : Thread nD τ).loc b)) (c : Dev nD),
    (Gen.dat3 (F := Ideal) V c).arrAt 4 cfg3.N = Cert.Gcn.combine (V c main_v36) (V c main_v26) (V c main_v13) (V c main_arg6)
  out4 : ∀ (V : (c : Dev nD) → (b : Ref sig .tc) → Buf (Elt Ideal) ((c : Thread nD τ).loc b)) (c : Dev nD),
    (Gen.dat4 (F := Ideal) V c).arrAt 3 cfg4.N = Cert.Gcn.matScale (V c main_v37) (V c main_arg7) (V c main_v13)
  out5 : ∀ (V : (c : Dev nD) → (b : Ref sig .tc) → Buf (Elt Ideal) ((c : Thread nD τ).loc b)) (c : Dev nD),
    (Gen.dat5 (F := Ideal) V c).arrAt 4 cfg5.N = Cert.Gcn.combine (V c main_v48) (V c main_v38) (V c main_v13) (V c main_arg8)
  out6 : ∀ (V : (c : Dev nD) → (b : Ref sig .tc) → Buf (Elt Ideal) ((c : Thread nD τ).loc b)) (c : Dev nD),
    (Gen.dat6 (F := Ideal) V c).arrAt 3 cfg6.N = Cert.Gcn.classify (V c main_v61) (V c main_arg9) (V c main_arg10)

/-! ## The buffers along the run

Boundary by boundary, the contents of exactly the buffers a later stage reads, as functions of the launch memory. -/

section Chain

variable (H : RegionOuts) (m : (ℓ : Loc nD τ sig) → Buf (Elt Ideal) ℓ) (ρ : Dev nD → PrngReg) (c : Dev nD)
include H

/-! ## The launch memory -/
theorem c0_arg0 : W0 m ρ c (Proc.devRef .tc main_arg0) = (m ((c.tc : Thread nD τ).loc main_arg0)) := rfl
theorem c0_arg1 : W0 m ρ c (Proc.devRef .tc main_arg1) = (m ((c.tc : Thread nD τ).loc main_arg1)) := rfl
theorem c0_arg2 : W0 m ρ c (Proc.devRef .tc main_arg2) = (m ((c.tc : Thread nD τ).loc main_arg2)) := rfl
theorem c0_arg3 : W0 m ρ c (Proc.devRef .tc main_arg3) = (m ((c.tc : Thread nD τ).loc main_arg3)) := rfl
theorem c0_arg4 : W0 m ρ c (Proc.devRef .tc main_arg4) = (m ((c.tc : Thread nD τ).loc main_arg4)) := rfl
theorem c0_arg5 : W0 m ρ c (Proc.devRef .tc main_arg5) = (m ((c.tc : Thread nD τ).loc main_arg5)) := rfl
theorem c0_arg6 : W0 m ρ c (Proc.devRef .tc main_arg6) = (m ((c.tc : Thread nD τ).loc main_arg6)) := rfl
theorem c0_arg7 : W0 m ρ c (Proc.devRef .tc main_arg7) = (m ((c.tc : Thread nD τ).loc main_arg7)) := rfl
theorem c0_arg8 : W0 m ρ c (Proc.devRef .tc main_arg8) = (m ((c.tc : Thread nD τ).loc main_arg8)) := rfl
theorem c0_arg9 : W0 m ρ c (Proc.devRef .tc main_arg9) = (m ((c.tc : Thread nD τ).loc main_arg9)) := rfl
theorem c0_arg10 : W0 m ρ c (Proc.devRef .tc main_arg10) = (m ((c.tc : Thread nD τ).loc main_arg10)) := rfl

/-! ## Boundary 1 -/
theorem c1_arg0 : W1 m ρ c (Proc.devRef .tc main_arg0) = (m ((c.tc : Thread nD τ).loc main_arg0)) :=
  (host0_keep (W0 m ρ c) main_arg0 (by decide)).trans (c0_arg0 H m ρ c)
theorem c1_arg2 : W1 m ρ c (Proc.devRef .tc main_arg2) = (m ((c.tc : Thread nD τ).loc main_arg2)) :=
  (host0_keep (W0 m ρ c) main_arg2 (by decide)).trans (c0_arg2 H m ρ c)
theorem c1_arg3 : W1 m ρ c (Proc.devRef .tc main_arg3) = (m ((c.tc : Thread nD τ).loc main_arg3)) :=
  (host0_keep (W0 m ρ c) main_arg3 (by decide)).trans (c0_arg3 H m ρ c)
theorem c1_arg4 : W1 m ρ c (Proc.devRef .tc main_arg4) = (m ((c.tc : Thread nD τ).loc main_arg4)) :=
  (host0_keep (W0 m ρ c) main_arg4 (by decide)).trans (c0_arg4 H m ρ c)
theorem c1_arg5 : W1 m ρ c (Proc.devRef .tc main_arg5) = (m ((c.tc : Thread nD τ).loc main_arg5)) :=
  (host0_keep (W0 m ρ c) main_arg5 (by decide)).trans (c0_arg5 H m ρ c)
theorem c1_arg6 : W1 m ρ c (Proc.devRef .tc main_arg6) = (m ((c.tc : Thread nD τ).loc main_arg6)) :=
  (host0_keep (W0 m ρ c) main_arg6 (by decide)).trans (c0_arg6 H m ρ c)
theorem c1_arg7 : W1 m ρ c (Proc.devRef .tc main_arg7) = (m ((c.tc : Thread nD τ).loc main_arg7)) :=
  (host0_keep (W0 m ρ c) main_arg7 (by decide)).trans (c0_arg7 H m ρ c)
theorem c1_arg8 : W1 m ρ c (Proc.devRef .tc main_arg8) = (m ((c.tc : Thread nD τ).loc main_arg8)) :=
  (host0_keep (W0 m ρ c) main_arg8 (by decide)).trans (c0_arg8 H m ρ c)
theorem c1_arg9 : W1 m ρ c (Proc.devRef .tc main_arg9) = (m ((c.tc : Thread nD τ).loc main_arg9)) :=
  (host0_keep (W0 m ρ c) main_arg9 (by decide)).trans (c0_arg9 H m ρ c)
theorem c1_arg10 : W1 m ρ c (Proc.devRef .tc main_arg10) = (m ((c.tc : Thread nD τ).loc main_arg10)) :=
  (host0_keep (W0 m ρ c) main_arg10 (by decide)).trans (c0_arg10 H m ρ c)
theorem c1_v1 : W1 m ρ c (Proc.devRef .tc main_v1) = (Val.row (m ((c.tc : Thread nD τ).loc main_arg1))) :=
  (host0_v1 (W0 m ρ c)).trans (congrArg (Val.row (F := Ideal)) (c0_arg1 H m ρ c))
theorem c1_v3 : W1 m ρ c (Proc.devRef .tc main_v3) = (Val.col (m ((c.tc : Thread nD τ).loc main_arg1))) :=
  (host0_v3 (W0 m ρ c)).trans (congrArg (Val.col (F := Ideal)) (c0_arg1 H m ρ c))
theorem c1_v13 : W1 m ρ c (Proc.devRef .tc main_v13) = (Val.dinv (F := Ideal) (m ((c.tc : Thread nD τ).loc main_arg1))) :=
  (host0_v13 (W0 m ρ c)).trans (congrArg (Val.dinv (F := Ideal)) (c0_arg1 H m ρ c))

/-! ## Boundary 2 -/
theorem c2_v1 : W2 m ρ c (Proc.devRef .tc main_v1) = (Val.row (m ((c.tc : Thread nD τ).loc main_arg1))) :=
  (W2_of_ne m ρ c main_v1 (by decide)).trans (c1_v1 H m ρ c)
theorem c2_v3 : W2 m ρ c (Proc.devRef .tc main_v3) = (Val.col (m ((c.tc : Thread nD τ).loc main_arg1))) :=
  (W2_of_ne m ρ c main_v3 (by decide)).trans (c1_v3 H m ρ c)
theorem c2_v13 : W2 m ρ c (Proc.devRef .tc main_v13) = (Val.dinv (F := Ideal) (m ((c.tc : Thread nD τ).loc main_arg1))) :=
  ((W2_arr m ρ c 2).trans (((dat0 (V1 m ρ) c).arrAt_in 2 rfl _).trans (A_eq0 (V1 m ρ) c 2))).trans (c1_v13 H m ρ c)
theorem c2_arg2 : W2 m ρ c (Proc.devRef .tc main_arg2) = (m ((c.tc : Thread nD τ).loc main_arg2)) :=
  (W2_of_ne m ρ c main_arg2 (by decide)).trans (c1_arg2 H m ρ c)
theorem c2_arg4 : W2 m ρ c (Proc.devRef .tc main_arg4) = (m ((c.tc : Thread nD τ).loc main_arg4)) :=
  (W2_of_ne m ρ c main_arg4 (by decide)).trans (c1_arg4 H m ρ c)
theorem c2_arg5 : W2 m ρ c (Proc.devRef .tc main_arg5) = (m ((c.tc : Thread nD τ).loc main_arg5)) :=
  (W2_of_ne m ρ c main_arg5 (by decide)).trans (c1_arg5 H m ρ c)
theorem c2_arg6 : W2 m ρ c (Proc.devRef .tc main_arg6) = (m ((c.tc : Thread nD τ).loc main_arg6)) :=
  (W2_of_ne m ρ c main_arg6 (by decide)).trans (c1_arg6 H m ρ c)
theorem c2_arg7 : W2 m ρ c (Proc.devRef .tc main_arg7) = (m ((c.tc : Thread nD τ).loc main_arg7)) :=
  (W2_of_ne m ρ c main_arg7 (by decide)).trans (c1_arg7 H m ρ c)
theorem c2_arg8 : W2 m ρ c (Proc.devRef .tc main_arg8) = (m ((c.tc : Thread nD τ).loc main_arg8)) :=
  (W2_of_ne m ρ c main_arg8 (by decide)).trans (c1_arg8 H m ρ c)
theorem c2_arg9 : W2 m ρ c (Proc.devRef .tc main_arg9) = (m ((c.tc : Thread nD τ).loc main_arg9)) :=
  (W2_of_ne m ρ c main_arg9 (by decide)).trans (c1_arg9 H m ρ c)
theorem c2_arg10 : W2 m ρ c (Proc.devRef .tc main_arg10) = (m ((c.tc : Thread nD τ).loc main_arg10)) :=
  (W2_of_ne m ρ c main_arg10 (by decide)).trans (c1_arg10 H m ρ c)
theorem c2_v14 : W2 m ρ c (Proc.devRef .tc main_v14) = (Cert.Gcn.matScale (m ((c.tc : Thread nD τ).loc main_arg0)) (m ((c.tc : Thread nD τ).loc main_arg3)) (Val.dinv (F := Ideal) (m ((c.tc : Thread nD τ).loc main_arg1)))) :=
  (W2_arr m ρ c 3).trans ((H.out0 (V1 m ρ) c).trans (matScale_congr (c1_arg0 H m ρ c) (c1_arg3 H m ρ c) (c1_v13 H m ρ c)))

/-! ## Boundary 3 -/
theorem c3_v1 : W3 m ρ c (Proc.devRef .tc main_v1) = (Val.row (m ((c.tc : Thread nD τ).loc main_arg1))) :=
  (host1_keep (W2 m ρ c) main_v1 (by decide)).trans (c2_v1 H m ρ c)
theorem c3_v3 : W3 m ρ c (Proc.devRef .tc main_v3) = (Val.col (m ((c.tc : Thread nD τ).loc main_arg1))) :=
  (host1_keep (W2 m ρ c) main_v3 (by decide)).trans (c2_v3 H m ρ c)
theorem c3_v13 : W3 m ρ c (Proc.devRef .tc main_v13) = (Val.dinv (F := Ideal) (m ((c.tc : Thread nD τ).loc main_arg1))) :=
  (host1_keep (W2 m ρ c) main_v13 (by decide)).trans (c2_v13 H m ρ c)
theorem c3_v14 : W3 m ρ c (Proc.devRef .tc main_v14) = (Cert.Gcn.matScale (m ((c.tc : Thread nD τ).loc main_arg0)) (m ((c.tc : Thread nD τ).loc main_arg3)) (Val.dinv (F := Ideal) (m ((c.tc : Thread nD τ).loc main_arg1)))) :=
  (host1_keep (W2 m ρ c) main_v14 (by decide)).trans (c2_v14 H m ρ c)
theorem c3_arg2 : W3 m ρ c (Proc.devRef .tc main_arg2) = (m ((c.tc : Thread nD τ).loc main_arg2)) :=
  (host1_keep (W2 m ρ c) main_arg2 (by decide)).trans (c2_arg2 H m ρ c)
theorem c3_arg4 : W3 m ρ c (Proc.devRef .tc main_arg4) = (m ((c.tc : Thread nD τ).loc main_arg4)) :=
  (host1_keep (W2 m ρ c) main_arg4 (by decide)).trans (c2_arg4 H m ρ c)
theorem c3_arg5 : W3 m ρ c (Proc.devRef .tc main_arg5) = (m ((c.tc : Thread nD τ).loc main_arg5)) :=
  (host1_keep (W2 m ρ c) main_arg5 (by decide)).trans (c2_arg5 H m ρ c)
theorem c3_arg6 : W3 m ρ c (Proc.devRef .tc main_arg6) = (m ((c.tc : Thread nD τ).loc main_arg6)) :=
  (host1_keep (W2 m ρ c) main_arg6 (by decide)).trans (c2_arg6 H m ρ c)
theorem c3_arg7 : W3 m ρ c (Proc.devRef .tc main_arg7) = (m ((c.tc : Thread nD τ).loc main_arg7)) :=
  (host1_keep (W2 m ρ c) main_arg7 (by decide)).trans (c2_arg7 H m ρ c)
theorem c3_arg8 : W3 m ρ c (Proc.devRef .tc main_arg8) = (m ((c.tc : Thread nD τ).loc main_arg8)) :=
  (host1_keep (W2 m ρ c) main_arg8 (by decide)).trans (c2_arg8 H m ρ c)
theorem c3_arg9 : W3 m ρ c (Proc.devRef .tc main_arg9) = (m ((c.tc : Thread nD τ).loc main_arg9)) :=
  (host1_keep (W2 m ρ c) main_arg9 (by decide)).trans (c2_arg9 H m ρ c)
theorem c3_arg10 : W3 m ρ c (Proc.devRef .tc main_arg10) = (m ((c.tc : Thread nD τ).loc main_arg10)) :=
  (host1_keep (W2 m ρ c) main_arg10 (by decide)).trans (c2_arg10 H m ρ c)
theorem c3_v24 : W3 m ρ c (Proc.devRef .tc main_v24) = (Val.agg (F := Ideal) (m ((c.tc : Thread nD τ).loc main_arg1)) (Cert.Gcn.matScale (m ((c.tc : Thread nD τ).loc main_arg0)) (m ((c.tc : Thread nD τ).loc main_arg3)) (Val.dinv (F := Ideal) (m ((c.tc : Thread nD τ).loc main_arg1))))) :=
  (host1_v24 (W2 m ρ c)).trans ((aggOf_congr (c2_v1 H m ρ c) (c2_v3 H m ρ c) (c2_v14 H m ρ c)).trans (agg_eq _ _).symm)

/-! ## Boundary 4 -/
theorem c4_v1 : W4 m ρ c (Proc.devRef .tc main_v1) = (Val.row (m ((c.tc : Thread nD τ).loc main_arg1))) :=
  (W4_of_ne m ρ c main_v1 (by decide)).trans (c3_v1 H m ρ c)
theorem c4_v3 : W4 m ρ c (Proc.devRef .tc main_v3) = (Val.col (m ((c.tc : Thread nD τ).loc main_arg1))) :=
  (W4_of_ne m ρ c main_v3 (by decide)).trans (c3_v3 H m ρ c)
theorem c4_v13 : W4 m ρ c (Proc.devRef .tc main_v13) = (Val.dinv (F := Ideal) (m ((c.tc : Thread nD τ).loc main_arg1))) :=
  ((W4_arr m ρ c 2).trans (((dat1 (V3 m ρ) c).arrAt_in 2 rfl _).trans (A_eq1 (V3 m ρ) c 2))).trans (c3_v13 H m ρ c)
theorem c4_arg2 : W4 m ρ c (Proc.devRef .tc main_arg2) = (m ((c.tc : Thread nD τ).loc main_arg2)) :=
  (W4_of_ne m ρ c main_arg2 (by decide)).trans (c3_arg2 H m ρ c)
theorem c4_arg5 : W4 m ρ c (Proc.devRef .tc main_arg5) = (m ((c.tc : Thread nD τ).loc main_arg5)) :=
  (W4_of_ne m ρ c main_arg5 (by decide)).trans (c3_arg5 H m ρ c)
theorem c4_arg6 : W4 m ρ c (Proc.devRef .tc main_arg6) = (m ((c.tc : Thread nD τ).loc main_arg6)) :=
  (W4_of_ne m ρ c main_arg6 (by decide)).trans (c3_arg6 H m ρ c)
theorem c4_arg7 : W4 m ρ c (Proc.devRef .tc main_arg7) = (m ((c.tc : Thread nD τ).loc main_arg7)) :=
  (W4_of_ne m ρ c main_arg7 (by decide)).trans (c3_arg7 H m ρ c)
theorem c4_arg8 : W4 m ρ c (Proc.devRef .tc main_arg8) = (m ((c.tc : Thread nD τ).loc main_arg8)) :=
  (W4_of_ne m ρ c main_arg8 (by decide)).trans (c3_arg8 H m ρ c)
theorem c4_arg9 : W4 m ρ c (Proc.devRef .tc main_arg9) = (m ((c.tc : Thread nD τ).loc main_arg9)) :=
  (W4_of_ne m ρ c main_arg9 (by decide)).trans (c3_arg9 H m ρ c)
theorem c4_arg10 : W4 m ρ c (Proc.devRef .tc main_arg10) = (m ((c.tc : Thread nD τ).loc main_arg10)) :=
  (W4_of_ne m ρ c main_arg10 (by decide)).trans (c3_arg10 H m ρ c)
theorem c4_v25 : W4 m ρ c (Proc.devRef .tc main_v25) = (Val.layer (m ((c.tc : Thread nD τ).loc main_arg1)) (m ((c.tc : Thread nD τ).loc main_arg0)) (m ((c.tc : Thread nD τ).loc main_arg3)) (m ((c.tc : Thread nD τ).loc main_arg4))) :=
  (W4_arr m ρ c 4).trans ((H.out1 (V3 m ρ) c).trans (combine_congr (c3_v24 H m ρ c) (c3_v14 H m ρ c) (c3_v13 H m ρ c) (c3_arg4 H m ρ c)))

/-! ## Boundary 5 -/
theorem c5_v1 : W5 m ρ c (Proc.devRef .tc main_v1) = (Val.row (m ((c.tc : Thread nD τ).loc main_arg1))) :=
  (W5_of_ne m ρ c main_v1 (by decide)).trans (c4_v1 H m ρ c)
theorem c5_v3 : W5 m ρ c (Proc.devRef .tc main_v3) = (Val.col (m ((c.tc : Thread nD τ).loc main_arg1))) :=
  (W5_of_ne m ρ c main_v3 (by decide)).trans (c4_v3 H m ρ c)
theorem c5_v13 : W5 m ρ c (Proc.devRef .tc main_v13) = (Val.dinv (F := Ideal) (m ((c.tc : Thread nD τ).loc main_arg1))) :=
  ((W5_arr m ρ c 2).trans (((dat2 (V4 m ρ) c).arrAt_in 2 rfl _).trans (A_eq2 (V4 m ρ) c 2))).trans (c4_v13 H m ρ c)
theorem c5_arg2 : W5 m ρ c (Proc.devRef .tc main_arg2) = (m ((c.tc : Thread nD τ).loc main_arg2)) :=
  (W5_of_ne m ρ c main_arg2 (by decide)).trans (c4_arg2 H m ρ c)
theorem c5_arg6 : W5 m ρ c (Proc.devRef .tc main_arg6) = (m ((c.tc : Thread nD τ).loc main_arg6)) :=
  (W5_of_ne m ρ c main_arg6 (by decide)).trans (c4_arg6 H m ρ c)
theorem c5_arg7 : W5 m ρ c (Proc.devRef .tc main_arg7) = (m ((c.tc : Thread nD τ).loc main_arg7)) :=
  (W5_of_ne m ρ c main_arg7 (by decide)).trans (c4_arg7 H m ρ c)
theorem c5_arg8 : W5 m ρ c (Proc.devRef .tc main_arg8) = (m ((c.tc : Thread nD τ).loc main_arg8)) :=
  (W5_of_ne m ρ c main_arg8 (by decide)).trans (c4_arg8 H m ρ c)
theorem c5_arg9 : W5 m ρ c (Proc.devRef .tc main_arg9) = (m ((c.tc : Thread nD τ).loc main_arg9)) :=
  (W5_of_ne m ρ c main_arg9 (by decide)).trans (c4_arg9 H m ρ c)
theorem c5_arg10 : W5 m ρ c (Proc.devRef .tc main_arg10) = (m ((c.tc : Thread nD τ).loc main_arg10)) :=
  (W5_of_ne m ρ c main_arg10 (by decide)).trans (c4_arg10 H m ρ c)
theorem c5_v26 : W5 m ρ c (Proc.devRef .tc main_v26) = (Cert.Gcn.matScale (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (Val.dinv (F := Ideal) (m ((c.tc : Thread nD τ).loc main_arg1)))) :=
  (W5_arr m ρ c 3).trans ((H.out2 (V4 m ρ) c).trans (matScale_congr (c4_v25 H m ρ c) (c4_arg5 H m ρ c) (c4_v13 H m ρ c)))

/-! ## Boundary 6 -/
theorem c6_v1 : W6 m ρ c (Proc.devRef .tc main_v1) = (Val.row (m ((c.tc : Thread nD τ).loc main_arg1))) :=
  (host3_keep (W5 m ρ c) main_v1 (by decide)).trans (c5_v1 H m ρ c)
theorem c6_v3 : W6 m ρ c (Proc.devRef .tc main_v3) = (Val.col (m ((c.tc : Thread nD τ).loc main_arg1))) :=
  (host3_keep (W5 m ρ c) main_v3 (by decide)).trans (c5_v3 H m ρ c)
theorem c6_v13 : W6 m ρ c (Proc.devRef .tc main_v13) = (Val.dinv (F := Ideal) (m ((c.tc : Thread nD τ).loc main_arg1))) :=
  (host3_keep (W5 m ρ c) main_v13 (by decide)).trans (c5_v13 H m ρ c)
theorem c6_v26 : W6 m ρ c (Proc.devRef .tc main_v26) = (Cert.Gcn.matScale (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (Val.dinv (F := Ideal) (m ((c.tc : Thread nD τ).loc main_arg1)))) :=
  (host3_keep (W5 m ρ c) main_v26 (by decide)).trans (c5_v26 H m ρ c)
theorem c6_arg2 : W6 m ρ c (Proc.devRef .tc main_arg2) = (m ((c.tc : Thread nD τ).loc main_arg2)) :=
  (host3_keep (W5 m ρ c) main_arg2 (by decide)).trans (c5_arg2 H m ρ c)
theorem c6_arg6 : W6 m ρ c (Proc.devRef .tc main_arg6) = (m ((c.tc : Thread nD τ).loc main_arg6)) :=
  (host3_keep (W5 m ρ c) main_arg6 (by decide)).trans (c5_arg6 H m ρ c)
theorem c6_arg7 : W6 m ρ c (Proc.devRef .tc main_arg7) = (m ((c.tc : Thread nD τ).loc main_arg7)) :=
  (host3_keep (W5 m ρ c) main_arg7 (by decide)).trans (c5_arg7 H m ρ c)
theorem c6_arg8 : W6 m ρ c (Proc.devRef .tc main_arg8) = (m ((c.tc : Thread nD τ).loc main_arg8)) :=
  (host3_keep (W5 m ρ c) main_arg8 (by decide)).trans (c5_arg8 H m ρ c)
theorem c6_arg9 : W6 m ρ c (Proc.devRef .tc main_arg9) = (m ((c.tc : Thread nD τ).loc main_arg9)) :=
  (host3_keep (W5 m ρ c) main_arg9 (by decide)).trans (c5_arg9 H m ρ c)
theorem c6_arg10 : W6 m ρ c (Proc.devRef .tc main_arg10) = (m ((c.tc : Thread nD τ).loc main_arg10)) :=
  (host3_keep (W5 m ρ c) main_arg10 (by decide)).trans (c5_arg10 H m ρ c)
theorem c6_v36 : W6 m ρ c (Proc.devRef .tc main_v36) = (Val.agg (F := Ideal) (m ((c.tc : Thread nD τ).loc main_arg1)) (Cert.Gcn.matScale (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (Val.dinv (F := Ideal) (m ((c.tc : Thread nD τ).loc main_arg1))))) :=
  (host3_v36 (W5 m ρ c)).trans ((aggOf_congr (c5_v1 H m ρ c) (c5_v3 H m ρ c) (c5_v26 H m ρ c)).trans (agg_eq _ _).symm)

end Chain

end Cert.KernelIdeal.Val

end
-- ==== Proof.KRun.lean ====
/-
  The kernel program's run, keeping the result buffer: from any launch memory with zero counters every weakly
  fair execution of the program on the TensorCores terminates, and in every final state the result buffer holds
  what the fold of the program's segments leaves there, while the eleven argument arrays are as launched.
-/
import proofs.«170848_j50586124812352_1_alg».proof.Proof.Gen.KernelIdeal.Frame
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every final state holds, in the result buffer, the last boundary's contents of that buffer, and the argument
    arrays as launched. -/
theorem run_W12 : θ_run defs (onTc (τ := τ) (main (F := Ideal))) ⟨m, fun _ => 0, ρ⟩ (fun r => ∀ c : Dev nD,
      r.2.mem ((c.tc : Thread nD τ).loc main_v62) = Gen.W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Val

end
-- ==== Proof.KChain.lean ====
/-
  The result buffer of the kernel program in closed form.

  The second half of the walk along the run: from the contents after the second layer's edge aggregation through
  that layer's combine stage, the third layer, the per-graph mean and the classifier head.  Composing the written values gives three
  layers, the mean and the head applied to the eleven arguments, and the run of the program then holds that value
  in the result buffer.
-/
import proofs.«170848_j50586124812352_1_alg».proof.Proof.KChain1
import proofs.«170848_j50586124812352_1_alg».proof.Proof.KRun

set_option maxRecDepth 16384

noncomputable section

namespace Cert.KernelIdeal.Val

open Cert.KernelIdeal Cert.KernelIdeal.Gen
open Idealize.ShloMosaic Idealize.ShloMosaic.TcCoe Idealize.ShloMosaic.Tactic

section Chain

variable (H : RegionOuts) (m : (ℓ : Loc nD τ sig) → Buf (Elt Ideal) ℓ) (ρ : Dev nD → PrngReg) (c : Dev nD)
include H

/-! ## Boundary 7 -/
theorem c7_v1 : W7 m ρ c (Proc.devRef .tc main_v1) = (Val.row (m ((c.tc : Thread nD τ).loc main_arg1))) :=
  (W7_of_ne m ρ c main_v1 (by decide)).trans (c6_v1 H m ρ c)
theorem c7_v3 : W7 m ρ c (Proc.devRef .tc main_v3) = (Val.col (m ((c.tc : Thread nD τ).loc main_arg1))) :=
  (W7_of_ne m ρ c main_v3 (by decide)).trans (c6_v3 H m ρ c)
theorem c7_v13 : W7 m ρ c (Proc.devRef .tc main_v13) = (Val.dinv (F := Ideal) (m ((c.tc : Thread nD τ).loc main_arg1))) :=
  ((W7_arr m ρ c 2).trans (((dat3 (V6 m ρ) c).arrAt_in 2 rfl _).trans (A_eq3 (V6 m ρ) c 2))).trans (c6_v13 H m ρ c)
theorem c7_arg2 : W7 m ρ c (Proc.devRef .tc main_arg2) = (m ((c.tc : Thread nD τ).loc main_arg2)) :=
  (W7_of_ne m ρ c main_arg2 (by decide)).trans (c6_arg2 H m ρ c)
theorem c7_arg7 : W7 m ρ c (Proc.devRef .tc main_arg7) = (m ((c.tc : Thread nD τ).loc main_arg7)) :=
  (W7_of_ne m ρ c main_arg7 (by decide)).trans (c6_arg7 H m ρ c)
theorem c7_arg8 : W7 m ρ c (Proc.devRef .tc main_arg8) = (m ((c.tc : Thread nD τ).loc main_arg8)) :=
  (W7_of_ne m ρ c main_arg8 (by decide)).trans (c6_arg8 H m ρ c)
theorem c7_arg9 : W7 m ρ c (Proc.devRef .tc main_arg9) = (m ((c.tc : Thread nD τ).loc main_arg9)) :=
  (W7_of_ne m ρ c main_arg9 (by decide)).trans (c6_arg9 H m ρ c)
theorem c7_arg10 : W7 m ρ c (Proc.devRef .tc main_arg10) = (m ((c.tc : Thread nD τ).loc main_arg10)) :=
  (W7_of_ne m ρ c main_arg10 (by decide)).trans (c6_arg10 H m ρ c)
theorem c7_v37 : W7 m ρ c (Proc.devRef .tc main_v37) = (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) :=
  (W7_arr m ρ c 4).trans ((H.out3 (V6 m ρ) c).trans (combine_congr (c6_v36 H m ρ c) (c6_v26 H m ρ c) (c6_v13 H m ρ c) (c6_arg6 H m ρ c)))

/-! ## Boundary 8 -/
theorem c8_v1 : W8 m ρ c (Proc.devRef .tc main_v1) = (Val.row (m ((c.tc : Thread nD τ).loc main_arg1))) :=
  (W8_of_ne m ρ c main_v1 (by decide)).trans (c7_v1 H m ρ c)
theorem c8_v3 : W8 m ρ c (Proc.devRef .tc main_v3) = (Val.col (m ((c.tc : Thread nD τ).loc main_arg1))) :=
  (W8_of_ne m ρ c main_v3 (by decide)).trans (c7_v3 H m ρ c)
theorem c8_v13 : W8 m ρ c (Proc.devRef .tc main_v13) = (Val.dinv (F := Ideal) (m ((c.tc : Thread nD τ).loc main_arg1))) :=
  ((W8_arr m ρ c 2).trans (((dat4 (V7 m ρ) c).arrAt_in 2 rfl _).trans (A_eq4 (V7 m ρ) c 2))).trans (c7_v13 H m ρ c)
theorem c8_arg2 : W8 m ρ c (Proc.devRef .tc main_arg2) = (m ((c.tc : Thread nD τ).loc main_arg2)) :=
  (W8_of_ne m ρ c main_arg2 (by decide)).trans (c7_arg2 H m ρ c)
theorem c8_arg8 : W8 m ρ c (Proc.devRef .tc main_arg8) = (m ((c.tc : Thread nD τ).loc main_arg8)) :=
  (W8_of_ne m ρ c main_arg8 (by decide)).trans (c7_arg8 H m ρ c)
theorem c8_arg9 : W8 m ρ c (Proc.devRef .tc main_arg9) = (m ((c.tc : Thread nD τ).loc main_arg9)) :=
  (W8_of_ne m ρ c main_arg9 (by decide)).trans (c7_arg9 H m ρ c)
theorem c8_arg10 : W8 m ρ c (Proc.devRef .tc main_arg10) = (m ((c.tc : Thread nD τ).loc main_arg10)) :=
  (W8_of_ne m ρ c main_arg10 (by decide)).trans (c7_arg10 H m ρ c)
theorem c8_v38 : W8 m ρ c (Proc.devRef .tc main_v38) = (Cert.Gcn.matScale (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (Val.dinv (F := Ideal) (m ((c.tc : Thread nD τ).loc main_arg1)))) :=
  (W8_arr m ρ c 3).trans ((H.out4 (V7 m ρ) c).trans (matScale_congr (c7_v37 H m ρ c) (c7_arg7 H m ρ c) (c7_v13 H m ρ c)))

/-! ## Boundary 9 -/
theorem c9_v13 : W9 m ρ c (Proc.devRef .tc main_v13) = (Val.dinv (F := Ideal) (m ((c.tc : Thread nD τ).loc main_arg1))) :=
  (host5_keep (W8 m ρ c) main_v13 (by decide)).trans (c8_v13 H m ρ c)
theorem c9_v38 : W9 m ρ c (Proc.devRef .tc main_v38) = (Cert.Gcn.matScale (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (Val.dinv (F := Ideal) (m ((c.tc : Thread nD τ).loc main_arg1)))) :=
  (host5_keep (W8 m ρ c) main_v38 (by decide)).trans (c8_v38 H m ρ c)
theorem c9_arg2 : W9 m ρ c (Proc.devRef .tc main_arg2) = (m ((c.tc : Thread nD τ).loc main_arg2)) :=
  (host5_keep (W8 m ρ c) main_arg2 (by decide)).trans (c8_arg2 H m ρ c)
theorem c9_arg8 : W9 m ρ c (Proc.devRef .tc main_arg8) = (m ((c.tc : Thread nD τ).loc main_arg8)) :=
  (host5_keep (W8 m ρ c) main_arg8 (by decide)).trans (c8_arg8 H m ρ c)
theorem c9_arg9 : W9 m ρ c (Proc.devRef .tc main_arg9) = (m ((c.tc : Thread nD τ).loc main_arg9)) :=
  (host5_keep (W8 m ρ c) main_arg9 (by decide)).trans (c8_arg9 H m ρ c)
theorem c9_arg10 : W9 m ρ c (Proc.devRef .tc main_arg10) = (m ((c.tc : Thread nD τ).loc main_arg10)) :=
  (host5_keep (W8 m ρ c) main_arg10 (by decide)).trans (c8_arg10 H m ρ c)
theorem c9_v48 : W9 m ρ c (Proc.devRef .tc main_v48) = (Val.agg (F := Ideal) (m ((c.tc : Thread nD τ).loc main_arg1)) (Cert.Gcn.matScale (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (Val.dinv (F := Ideal) (m ((c.tc : Thread nD τ).loc main_arg1))))) :=
  (host5_v48 (W8 m ρ c)).trans ((aggOf_congr (c8_v1 H m ρ c) (c8_v3 H m ρ c) (c8_v38 H m ρ c)).trans (agg_eq _ _).symm)

/-! ## Boundary 10 -/
theorem c10_arg2 : W10 m ρ c (Proc.devRef .tc main_arg2) = (m ((c.tc : Thread nD τ).loc main_arg2)) :=
  (W10_of_ne m ρ c main_arg2 (by decide)).trans (c9_arg2 H m ρ c)
theorem c10_arg9 : W10 m ρ c (Proc.devRef .tc main_arg9) = (m ((c.tc : Thread nD τ).loc main_arg9)) :=
  (W10_of_ne m ρ c main_arg9 (by decide)).trans (c9_arg9 H m ρ c)
theorem c10_arg10 : W10 m ρ c (Proc.devRef .tc main_arg10) = (m ((c.tc : Thread nD τ).loc main_arg10)) :=
  (W10_of_ne m ρ c main_arg10 (by decide)).trans (c9_arg10 H m ρ c)
theorem c10_v49 : W10 m ρ c (Proc.devRef .tc main_v49) = (Val.layer (m ((c.tc : Thread nD τ).loc main_arg1)) (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8))) :=
  (W10_arr m ρ c 4).trans ((H.out5 (V9 m ρ) c).trans (combine_congr (c9_v48 H m ρ c) (c9_v38 H m ρ c) (c9_v13 H m ρ c) (c9_arg8 H m ρ c)))

/-! ## Boundary 11 -/
theorem c11_arg9 : W11 m ρ c (Proc.devRef .tc main_arg9) = (m ((c.tc : Thread nD τ).loc main_arg9)) :=
  (host6_keep (W10 m ρ c) main_arg9 (by decide)).trans (c10_arg9 H m ρ c)
theorem c11_arg10 : W11 m ρ c (Proc.devRef .tc main_arg10) = (m ((c.tc : Thread nD τ).loc main_arg10)) :=
  (host6_keep (W10 m ρ c) main_arg10 (by decide)).trans (c10_arg10 H m ρ c)
theorem c11_v61 : W11 m ρ c (Proc.devRef .tc main_v61) = (Val.pool (F := Ideal) (m ((c.tc : Thread nD τ).loc main_arg2)) (Val.layer (m ((c.tc : Thread nD τ).loc main_arg1)) (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8)))) :=
  (host6_v61 (W10 m ρ c)).trans (pool_congr (c10_arg2 H m ρ c) (c10_v49 H m ρ c))

/-! ## The result buffer -/

theorem c12_v62 : W12 m ρ c (Proc.devRef .tc main_v62) = Cert.Gcn.classify (Val.pool (F := Ideal) (m ((c.tc : Thread nD τ).loc main_arg2)) (Val.layer (m ((c.tc : Thread nD τ).loc main_arg1)) (Val.layer (m ((c.tc : Thread nD τ).loc main_arg1)) (Val.layer (m ((c.tc : Thread nD τ).loc main_arg1)) (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) (m ((c.tc : Thread nD τ).loc main_arg8)))) (m ((c.tc : Thread nD τ).loc main_arg9)) (m ((c.tc : Thread nD τ).loc main_arg10)) :=
  (W12_arr m ρ c 3).trans ((H.out6 (V11 m ρ) c).trans (classify_congr (c11_v61 H m ρ c) (c11_arg9 H m ρ c) (c11_arg10 H m ρ c)))

end Chain

/-- The result buffer at the end of the run is the program's result function of the eleven launch arguments. -/
theorem W12_out (H : RegionOuts) (m : (ℓ : Loc nD τ sig) → Buf (Elt Ideal) ℓ) (ρ : Dev nD → PrngReg) (c : Dev nD) :
    Gen.W12 (F := Ideal) m ρ c (Proc.devRef .tc main_v62)
      = Val.out (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10)) :=
  c12_v62 H m ρ c

/-- The run of the kernel program with the result buffer in closed form: every weakly fair execution terminates,
    the result buffer holds the result function of the launch arguments, and the arguments are as launched. -/
theorem kernel_run (H : RegionOuts) (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v62)
        = Val.out (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W12_out H m ρ c), (h c).2⟩) (run_W12 m ρ)

end Cert.KernelIdeal.Val

end
-- ==== Proof.RefStages.lean ====
/-
  The reference program's result, cut into the same stages as the kernel's: three layers, the
  per-graph mean, the head.  A reference layer multiplies the features by the weights, gathers for
  every edge of the extended edge list (the given edges followed by one loop per node) the source's
  row, scales it by the product of the two end nodes' factors, adds it onto the target's row, adds
  the bias and clips below at zero.
-/
import proofs.«170848_j50586124812352_1_alg».proof.Proof.Gen.ReferenceIdeal.Read

noncomputable section

namespace Cert.ReferenceIdeal.RefVal

open Cert.ReferenceIdeal Cert.ReferenceIdeal.Gen Cert.ReferenceIdeal.Read Idealize.ShloMosaic Idealize.ShloMosaic.TcCoe

section Stages
variable {F : FTy → Type} [FloatOps F]

/-- one reference layer, as a function of the gather's start indices `gi`, the edge weights `nrm`
    and the scatter's indices `si` (all three computed from the edge list alone) -/
def layer (gi : (⟨S1700000x1, .i32⟩ : BufTy).Contents (Elt F)) (nrm : (⟨S1700000x128, .f32⟩ : BufTy).Contents (Elt F)) (si : (⟨S1700000x1, .i32⟩ : BufTy).Contents (Elt F))
    (h : (⟨S100000x128, .f32⟩ : BufTy).Contents (Elt F)) (W : (⟨S128x128, .f32⟩ : BufTy).Contents (Elt F)) (b : (⟨S128, .f32⟩ : BufTy).Contents (Elt F)) : (⟨S100000x128, .f32⟩ : BufTy).Contents (Elt F) :=
  maximumf (F := F)
    (addf
      (Host.scatterAdd (F := F) scatter_S100000x128_S1700000x1_S1700000x128_1_0_0_1
        (broadcastInDim S100000x128 ![] bcast_S_S100000x128 (constant (F := F) S_ .f32 0x00000000#32)) si
        (mulf (Host.gather gather_S100000x128_S1700000x1_S1700000x128_1_0_n_n_0_1_1128
          (Host.dotGeneral (F := F) dot_S100000x128_S128x128_S100000x128_1_0_0_1_n_n none h W) gi) nrm))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- the mean of the node rows of every graph -/
def pool (x2 : (⟨S100000, .i32⟩ : BufTy).Contents (Elt F)) (h : (⟨S100000x128, .f32⟩ : BufTy).Contents (Elt F)) : (⟨S512x128, .f32⟩ : BufTy).Contents (Elt F) :=
  Host.divf (F := F)
    (Host.scatterAdd (F := F) scatter_S512x128_S100000x1_S100000x128_1_0_0_1
      (broadcastInDim S512x128 ![] bcast_S_S512x128 (constant (F := F) S_ .f32 0x00000000#32))
      (broadcastInDim S100000x1 ![0] bcast_S100000_S100000x1_0 x2) h)
    (broadcastInDim S512x128 ![0, 1] bcast_S512x1_S512x128_0_1
      (broadcastInDim S512x1 ![0] bcast_S512_S512x1_0
        (maximumf
          (Host.scatterAdd (F := F) scatter_S512_S100000x1_S100000_n_0_0_1
            (broadcastInDim S512 ![] bcast_S_S512 (constant (F := F) S_ .f32 0x00000000#32))
            (broadcastInDim S100000x1 ![0] bcast_S100000_S100000x1_0 x2)
            (broadcastInDim S100000 ![] bcast_S_S100000 (constant (F := F) S_ .f32 0x3F800000#32)))
          (broadcastInDim S512 ![] bcast_S_S512 (constant (F := F) S_ .f32 0x3F800000#32)))))

/-- the head: the pooled rows times the head's weights, plus its bias -/
def head (p : (⟨S512x128, .f32⟩ : BufTy).Contents (Elt F)) (W : (⟨S128x10, .f32⟩ : BufTy).Contents (Elt F)) (b : (⟨S10, .f32⟩ : BufTy).Contents (Elt F)) : (⟨S512x10, .f32⟩ : BufTy).Contents (Elt F) :=
  addf (Host.dotGeneral (F := F) dot_S512x128_S128x10_S512x10_1_0_0_1_n_n none p W)
    (broadcastInDim S512x10 ![0, 1] bcast_S1x10_S512x10_0_1 (broadcastInDim S1x10 ![1] bcast_S10_S1x10_1 b))

end Stages

/-- The reference's result term is the composition of its stages; the three layers use the same
    three index arrays (they are recomputed per layer by the same operations of the edge list). -/
theorem val_out_eq (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal)) :
    val_main_v98 (F := Ideal) x0 x1 x2 x3 x4 x5 x6 x7 x8 x9 x10
      = head (F := Ideal) (pool (F := Ideal) x2 (layer (F := Ideal) (val_main_v35 (F := Ideal) x1) (val_main_v38 (F := Ideal) x1) (val_main_v41 (F := Ideal) x1)
          (layer (F := Ideal) (val_main_v35 (F := Ideal) x1) (val_main_v38 (F := Ideal) x1) (val_main_v41 (F := Ideal) x1)
            (layer (F := Ideal) (val_main_v35 (F := Ideal) x1) (val_main_v38 (F := Ideal) x1) (val_main_v41 (F := Ideal) x1) x0 x3 x4) x5 x6) x7 x8)) x9 x10 := rfl

end Cert.ReferenceIdeal.RefVal

end
-- ==== Proof.BridgeTail.lean ====
/-
  The two stages after the layers agree between the programs.

  The per-graph mean is computed by the same host operations in both programs, so the two terms
  are one function of the batch vector and the node features.  The head's product read at an entry
  is the sum over the contracted coordinate, in the kernel (a matrix product into a zero
  accumulator, read off its blocks) and in the reference (the host's contraction) alike, and both
  add the bias entry of the column.
-/
import proofs.«170848_j50586124812352_1_alg».proof.Proof.KSpec
import proofs.«170848_j50586124812352_1_alg».proof.Proof.RefStages

noncomputable section

namespace Cert.Bridge

open Idealize.ShloMosaic Idealize.ShloMosaic.TcCoe Idealize.ShloMosaic.ValueIdx
open Cert.ReferenceIdeal Cert.ReferenceIdeal.Gen Cert.ReferenceIdeal.Read

/-- A bias row broadcast over the rows of an array, read at an entry: the bias entry of the column. -/
theorem bias_row_apply {α : Type} {R C : Nat} (h1 : (⟨1, ![C]⟩ : Shape).BroadcastsInDim ⟨2, ![1, C]⟩ ![1])
    (h2 : (⟨2, ![1, C]⟩ : Shape).BroadcastsInDim ⟨2, ![R, C]⟩ ![0, 1]) (hC : C ≠ 1)
    (b : (⟨1, ![C]⟩ : Shape).Idx → α) (r : Fin R) (c : Fin C) :
    broadcastInDim ⟨2, ![R, C]⟩ ![0, 1] h2 (broadcastInDim ⟨2, ![1, C]⟩ ![1] h1 b) (ix2 r c) = b (ix1 c) := by
  rw [broadcastInDim_apply ![0, 1] h2 _ (ix2 r c) (ix2 (0 : Fin 1) c) (fun a => by
        match a with
        | ⟨0, _⟩ => simp [Shape.size]
        | ⟨1, _⟩ => simp [Shape.size, hC] <;> rfl),
    broadcastInDim_apply ![1] h1 b (ix2 (0 : Fin 1) c) (ix1 c) (fun a => by
        match a with
        | ⟨0, _⟩ => simp [Shape.size, hC] <;> rfl)]

/-- The host's contraction of a 100000×128 array with a 128×128 matrix, read at an entry. -/
theorem dot_layer_apply (h : FVec Ideal S100000x128 .f32) (W : FVec Ideal S128x128 .f32)
    (j : Fin 100000) (f : Fin 128) :
    Host.dotGeneral (F := Ideal) dot_S100000x128_S128x128_S100000x128_1_0_0_1_n_n none h W (ix2 j f)
      = ∑ k : Fin 128, h (ix2 j k) * W (ix2 k f) := by
  have e := val_main_v29_apply h W (ix2 j f)
  unfold val_main_v29 at e
  rw [e]
  refine Finset.sum_congr rfl fun k _ => ?_
  have el : lidx_main_v29 (ix2 j f) k = ix2 j k := funext fun a => by
    match a with
    | ⟨0, _⟩ => rfl
    | ⟨1, _⟩ => rfl
  have er : ridx_main_v29 (ix2 j f) k = ix2 k f := funext fun a => by
    match a with
    | ⟨0, _⟩ => rfl
    | ⟨1, _⟩ => rfl
  rw [el, er]

/-- The head's contraction of the pooled 512×128 array with the 128×10 matrix, read at an entry. -/
theorem dot_head_apply (p : FVec Ideal S512x128 .f32) (W : FVec Ideal S128x10 .f32)
    (g : Fin 512) (c : Fin 10) :
    Host.dotGeneral (F := Ideal) dot_S512x128_S128x10_S512x10_1_0_0_1_n_n none p W (ix2 g c)
      = ∑ k : Fin 128, p (ix2 g k) * W (ix2 k c) := by
  simp only [Host.dotGeneral]
  rw [Ideal.dotGeneral_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 g c) ((ValueIdx.contrEquiv1 dot_S512x128_S128x10_S512x10_1_0_0_1_n_n 128 rfl rfl).symm k) = ix2 g k := funext fun a => Fin.ext (by
    match a with
    | ⟨0, _⟩ => exact lhs_main_v95_0 _ _
    | ⟨1, _⟩ => exact (lhs_main_v95_1 _ _).trans hk)
  have er : dot_S512x128_S128x10_S512x10_1_0_0_1_n_n.rhsIdx (ix2 g c) ((ValueIdx.contrEquiv1 dot_S512x128_S128x10_S512x10_1_0_0_1_n_n 128 rfl rfl).symm k) = ix2 k c := funext fun a => Fin.ext (by
    match a with
    | ⟨0, _⟩ => exact (rhs_main_v95_0 _ _).trans hk
    | ⟨1, _⟩ => exact rhs_main_v95_1 _ _)
  rw [el, er]

/-- The per-graph mean: the two programs apply the same operations to the batch vector and the
    node features. -/
theorem pool_eq (x2 : IVec S100000 32) (h : FVec Ideal S100000x128 .f32) :
    Cert.KernelIdeal.Val.pool (F := Ideal) x2 h = Cert.ReferenceIdeal.RefVal.pool (F := Ideal) x2 h := rfl

/-- The head: the closed form of the kernel's last region is the reference's product plus bias. -/
theorem head_eq (p : FVec Ideal S512x128 .f32) (W : FVec Ideal S128x10 .f32)
    (b : FVec Ideal S10 .f32) :
    Cert.Gcn.classify p W b = Cert.ReferenceIdeal.RefVal.head (F := Ideal) p W b := by
  funext i
  obtain ⟨g, c, rfl⟩ : ∃ (g : Fin 512) (c : Fin 10), i = ix2 g c := ⟨i 0, i 1, eq_ix2 i⟩
  unfold Cert.Gcn.classify Cert.ReferenceIdeal.RefVal.head
  show _ = Host.dotGeneral (F := Ideal) dot_S512x128_S128x10_S512x10_1_0_0_1_n_n none p W (ix2 g c) + _
  rw [dot_head_apply]
  exact congrArg (_ + ·) (bias_row_apply (R := 512) (C := 10) _ _ (by decide) b g c).symm

end Cert.Bridge

end
-- ==== Proof.GcnMath.lean ====
/-
  The algebra that joins the two programs, over the extended reals.

  The kernel adds up the scaled source rows of the edges ending at a node, adds the node's own
  scaled row, and multiplies the total by the node's factor δ; the reference scales every term by
  both factors first and sums over the edge list extended by one loop per node.  The two agree
  because multiplication by a factor that is nonnegative and not +∞ distributes over every sum
  of extended reals, and because the extended list's sum splits into the edges' part and the
  loops' part, of which only the node's own loop lands on it.
-/
import Mathlib.Data.EReal.Operations
import Mathlib.Data.EReal.Inv
import Mathlib.Algebra.BigOperators.Fin

namespace Cert.GcnMath

open Finset

/-- A factor that is nonnegative and not `+∞` may be moved inside a guarded sum. -/
theorem sum_ite_mul {ι : Type} [Fintype ι] (p : ι → Prop) [DecidablePred p] (g : ι → EReal) (c : EReal)
    (h0 : 0 ≤ c) (ht : c ≠ ⊤) :
    (∑ e, if p e then g e else 0) * c = ∑ e, if p e then g e * c else 0 := by
  classical
  have key : ∀ s : Finset ι, (∑ e ∈ s, if p e then g e else 0) * c = ∑ e ∈ s, if p e then g e * c else 0 := by
    intro s
    induction s using Finset.induction_on with
    | empty => simp
    | insert a s ha ih =>
      rw [Finset.sum_insert ha, Finset.sum_insert ha, EReal.right_distrib_of_nonneg_of_ne_top h0 ht, ih]
      congr 1
      split <;> simp
  exact key Finset.univ

/-- The kernel's order of operations against the reference's: the edges' total plus the node's own
    row, times the node's factor, is the sum of the doubly scaled terms. -/
theorem kernel_side {ι : Type} [Fintype ι] (p : ι → Prop) [DecidablePred p] (A δs : ι → EReal) (An δ : EReal)
    (h0 : 0 ≤ δ) (ht : δ ≠ ⊤) :
    ((0 + ∑ e, if p e then A e * δs e else 0) + An * δ) * δ
      = (∑ e, if p e then A e * (δs e * δ) else 0) + An * (δ * δ) := by
  rw [zero_add, EReal.right_distrib_of_nonneg_of_ne_top h0 ht, sum_ite_mul p _ δ h0 ht]
  congr 1
  · refine Finset.sum_congr rfl fun e _ => ?_
    split
    · exact mul_assoc (A e) (δs e) δ
    · rfl
  · exact mul_assoc An δ δ

/-- A guarded sum over a list of `E` edges followed by `N` loops: the edges' part keeps its guard,
    and of the loops only the one at the node `n` passes the guard. -/
theorem ref_side {E N : ℕ} (p' : Fin (E + N) → Prop) [DecidablePred p'] (U : Fin (E + N) → EReal)
    (p : Fin E → Prop) [DecidablePred p] (V : Fin E → EReal) (n : Fin N) (T : EReal)
    (h1 : ∀ e, p' (Fin.castAdd N e) ↔ p e) (h2 : ∀ e, p e → U (Fin.castAdd N e) = V e)
    (h3 : ∀ j, p' (Fin.natAdd E j) ↔ j = n) (h4 : U (Fin.natAdd E n) = T) :
    (∑ e', if p' e' then U e' else 0) = (∑ e, if p e then V e else 0) + T := by
  rw [Fin.sum_univ_add]
  congr 1
  · refine Finset.sum_congr rfl fun e _ => ?_
    by_cases hp : p e
    · rw [if_pos ((h1 e).2 hp), if_pos hp, h2 e hp]
    · rw [if_neg (fun h => hp ((h1 e).1 h)), if_neg hp]
  · rw [Finset.sum_eq_single n]
    · rw [if_pos ((h3 n).2 rfl), h4]
    · intro j _ hj
      rw [if_neg (fun h => hj ((h3 j).1 h))]
    · intro h; exact absurd (Finset.mem_univ n) h

/-- The same with the extended list's length given as its own number `C = A + B`, the edge at
    position `e` and the loop of node `j` at position `A + j`. -/
theorem ref_side_lit {A B C : ℕ} (hC : C = A + B) (p' : Fin C → Prop) [DecidablePred p'] (U : Fin C → EReal)
    (p : Fin A → Prop) [DecidablePred p] (V : Fin A → EReal) (n : Fin B) (T : EReal)
    (h1 : ∀ e : Fin A, p' ⟨e.val, by omega⟩ ↔ p e) (h2 : ∀ e : Fin A, p e → U ⟨e.val, by omega⟩ = V e)
    (h3 : ∀ j : Fin B, p' ⟨A + j.val, by omega⟩ ↔ j = n) (h4 : U ⟨A + n.val, by omega⟩ = T) :
    (∑ e', if p' e' then U e' else 0) = (∑ e, if p e then V e else 0) + T := by
  subst hC
  exact ref_side p' U p V n T h1 h2 h3 h4

end Cert.GcnMath
-- ==== Proof.IndexOps.lean ====
import Idealize.ShloMosaic.PureOps.Ideal
import Idealize.ShloMosaic.PureOps.Ideal.Laws
import Idealize.ShloMosaic.Lib.ValueIdx
import Idealize.ShloMosaic.Lib.Pipeline.Value

/-!
# Gather, scatter-add and concatenate read at an index

Reading lemmas for the host's row gather, row scatter-add and rank-1 concatenate, generic in the
extents: `N` rows, `F` columns, `E` index entries.

* A scatter-add of update rows `upd : [E, F]` into `x : [N, F]` at row indices `idx : [E, 1]`:
  element `(n, f)` of the result is `x (n, f)` plus the sum of `upd (e, f)` over the entries `e`
  whose index, read as a signed integer and not clamped, equals `n`.  An entry whose index is
  negative or at least `N` lands nowhere.
* A gather of rows of `x : [N, F]` at `idx : [E, 1]`: element `(e, f)` of the result is
  `x (r, f)` with `r` the index of entry `e` read signed and clamped into `[0, N - 1]`.
* The rank-1 analogues of both, and the concatenation of two rank-1 arrays.
* Two facts on finite sums of extended reals.
-/

noncomputable section

open scoped BigOperators

namespace Cert.IndexOps

open Idealize.ShloMosaic Idealize.ShloMosaic.ValueIdx

/-! ## Where an update lands -/

/-- An update index `j` lands on operand index `i` exactly when, on every operand axis, the start
    (a signed integer) plus the window coordinate is the coordinate of `i`. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro he a
      have he' := congrFun (Option.some.inj he) a
      have hv : (d.start j idx a + (d.window j a : ℤ)).toNat = (i a).val := congrArg Fin.val he'
      have := (h a).1
      omega
    · intro hi
      congr 1
      funext a
      refine Fin.ext ?_
      show (d.start j idx a + (d.window j a : ℤ)).toNat = (i a).val
      have := hi a
      omega
  · rw [dif_neg h]
    constructor
    · intro he; exact absurd he (by simp)
    · intro hi
      exfalso
      apply h
      intro a
      have := hi a
      have := (i a).isLt
      omega

/-! ## Scatter-add of rows -/

section ScatterRows
variable {N F E w : Nat}

/-- An update element `(e, f')` of a row scatter lands on `(n, f)` exactly when entry `e`'s index,
    read signed, is `n` and the columns agree. -/
theorem scatterRows_resultIdx?_iff (d : ScatterDims ⟨2, ![N, F]⟩ ⟨2, ![E, 1]⟩ ⟨2, ![E, F]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (f' : Fin F) (n : Fin N) (f : Fin F) :
    d.resultIdx? (ix2 e f') idx = some (ix2 n f) ↔
      (idx (ix2 e 0)).toInt = (n.val : ℤ) ∧ f' = f := by
  obtain ⟨uw, iw, sd, iv, wf⟩ := d
  simp only at huw hiw hsd hiv
  subst huw hiw hsd hiv
  rw [resultIdx?_eq_some_iff]
  set D : ScatterDims ⟨2, ![N, F]⟩ ⟨2, ![E, 1]⟩ ⟨2, ![E, F]⟩ := ⟨[1], [0], [0], 1, wf⟩ with hD
  -- the four coordinates of the landing position
  have hs0 : D.start (ix2 e f') idx (0 : Fin 2) = (idx (ix2 e 0)).toInt := by
    unfold ScatterDims.start
    rw [dif_pos (List.mem_singleton.mpr rfl)]
    congr 2
    funext b; refine Fin.ext ?_
    match b with
    | ⟨0, _⟩ => rfl
    | ⟨1, _⟩ => rfl
  have hs1 : D.start (ix2 e f') idx (1 : Fin 2) = 0 := by
    unfold ScatterDims.start
    rw [dif_neg (show (1 : Fin 2) ∉ ([0] : List (Fin 2)) from by decide)]
  have hw0 : D.window (ix2 e f') (0 : Fin 2) = 0 := by
    unfold ScatterDims.window
    have hk : (0 : Fin 2) ∉ D.sKept := show (0 : Fin 2) ∉ ([1] : List (Fin 2)) from by decide
    rw [dif_neg hk]
  have hw1 : D.window (ix2 e f') (1 : Fin 2) = f'.val := by
    unfold ScatterDims.window
    have hk : (1 : Fin 2) ∈ D.sKept := show (1 : Fin 2) ∈ ([1] : List (Fin 2)) from by decide
    rw [dif_pos hk]
    rfl
  constructor
  · intro h
    have h0 := h (0 : Fin 2)
    have h1 := h (1 : Fin 2)
    rw [hs0, hw0] at h0
    rw [hs1, hw1] at h1
    refine ⟨?_, Fin.ext ?_⟩
    · have : ((ix2 n f (0 : Fin 2)).val : ℤ) = (n.val : ℤ) := rfl
      omega
    · have : ((ix2 n f (1 : Fin 2)).val : ℤ) = (f.val : ℤ) := rfl
      omega
  · rintro ⟨hn, rfl⟩ a
    match a with
    | ⟨0, _⟩ =>
      show D.start (ix2 e f') idx (0 : Fin 2) + ((D.window (ix2 e f') (0 : Fin 2) : ℕ) : ℤ) = (n.val : ℤ)
      rw [hs0, hw0, hn]; simp
    | ⟨1, _⟩ =>
      show D.start (ix2 e f') idx (1 : Fin 2) + ((D.window (ix2 e f') (1 : Fin 2) : ℕ) : ℤ) = (f'.val : ℤ)
      rw [hs1, hw1]; simp

/-- THE ROW SCATTER-ADD READ AT `(n, f)`: the operand's element plus the sum of the update
    elements `(e, f)` over the entries `e` whose index, read signed and not clamped, is `n`. -/
theorem scatterRows_apply (d : ScatterDims ⟨2, ![N, F]⟩ ⟨2, ![E, 1]⟩ ⟨2, ![E, F]⟩)
    (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f) =
      x (ix2 n f) + ∑ e : Fin E, if (idx (ix2 e 0)).toInt = (n.val : ℤ) then upd (ix2 e f) else 0 := by
  unfold Ideal.hostScatterAdd
  congr 1
  rw [Finset.sum_filter, sum_idx2]
  refine Finset.sum_congr rfl fun e _ => ?_
  by_cases hA : (idx (ix2 e 0)).toInt = (n.val : ℤ)
  · rw [if_pos hA]
    rw [Finset.sum_eq_single f]
    · rw [if_pos ((scatterRows_resultIdx?_iff d huw hiw hsd hiv idx e f n f).2 ⟨hA, rfl⟩)]
    · intro b _ hb
      rw [if_neg fun h => hb ((scatterRows_resultIdx?_iff d huw hiw hsd hiv idx e b n f).1 h).2]
    · intro h; exact absurd (Finset.mem_univ f) h
  · rw [if_neg hA]
    refine Finset.sum_eq_zero fun b _ => ?_
    rw [if_neg fun h => hA ((scatterRows_resultIdx?_iff d huw hiw hsd hiv idx e b n f).1 h).1]

end ScatterRows

/-! ## A sum over a rank-1 index set -/

/-- A rank-1 index is its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scatter-add into a rank-1 array -/

section ScatterVec
variable {N E w : Nat}

/-- An update element `e'` of a rank-1 scatter lands on `n` exactly when its index, read signed,
    is `n`. -/
theorem scatterVec_resultIdx?_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at huw hiw hsd hiv
  subst huw hiw hsd hiv
  rw [resultIdx?_eq_some_iff]
  set D : ScatterDims ⟨1, ![N]⟩ ⟨2, ![E, 1]⟩ ⟨1, ![E]⟩ := ⟨[], [0], [0], 1, wf⟩ with hD
  have hs0 : D.start (ix1 e) idx (0 : Fin 1) = (idx (ix2 e 0)).toInt := by
    unfold ScatterDims.start
    rw [dif_pos (List.mem_singleton.mpr rfl)]
    congr 2
    funext b; refine Fin.ext ?_
    match b with
    | ⟨0, _⟩ => rfl
    | ⟨1, _⟩ => rfl
  have hw0 : D.window (ix1 e) (0 : Fin 1) = 0 := by
    unfold ScatterDims.window
    have hk : (0 : Fin 1) ∉ D.sKept := show (0 : Fin 1) ∉ ([] : List (Fin 1)) from List.not_mem_nil
    rw [dif_neg hk]
  constructor
  · intro h
    have h0 := h (0 : Fin 1)
    rw [hs0, hw0] at h0
    have : ((ix1 n (0 : Fin 1)).val : ℤ) = (n.val : ℤ) := rfl
    omega
  · intro hn a
    match a with
    | ⟨0, _⟩ =>
      show D.start (ix1 e) idx (0 : Fin 1) + ((D.window (ix1 e) (0 : Fin 1) : ℕ) : ℤ) = (n.val : ℤ)
      rw [hs0, hw0, hn]; simp

/-- THE RANK-1 SCATTER-ADD READ AT `n`: the operand's element plus the sum of the updates `e`
    whose index, read signed and not clamped, is `n`. -/
theorem scatterVec_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n) =
      x (ix1 n) + ∑ e : Fin E, if (idx (ix2 e 0)).toInt = (n.val : ℤ) then upd (ix1 e) else 0 := by
  unfold Ideal.hostScatterAdd
  congr 1
  rw [Finset.sum_filter, sum_idx1]
  refine Finset.sum_congr rfl fun e _ => ?_
  by_cases hA : (idx (ix2 e 0)).toInt = (n.val : ℤ)
  · rw [if_pos hA, if_pos ((scatterVec_resultIdx?_iff d huw hiw hsd hiv idx e n).2 hA)]
  · rw [if_neg hA, if_neg fun h => hA ((scatterVec_resultIdx?_iff d huw hiw hsd hiv idx e n).1 h)]

end ScatterVec

/-! ## Gather of rows -/

section Gather
variable {α : Type} {N F E w : Nat}

/-- THE ROW GATHER READ AT `(e, f)`: the operand at row `idx[e, 0]`, read signed and clamped
    into `[0, N - 1]`, and column `f`. -/
theorem gatherRows_apply (hN : 0 < N) (g : GatherDims ⟨2, ![N, F]⟩ ⟨2, ![E, 1]⟩ ⟨2, ![E, F]⟩)
    (hod : g.offsetDims = [1]) (hcs : g.collapsedSliceDims = [0]) (hob : g.operandBatchingDims = [])
    (hsb : g.startIndicesBatchingDims = []) (hsim : g.startIndexMap = [0]) (hiv : g.indexVectorDim = 1)
    (hss : g.sliceSizes = ![1, F])
    (x : (⟨2, ![N, F]⟩ : Shape).Idx → α) (idx : IVec ⟨2, ![E, 1]⟩ w) (e : Fin E) (f : Fin F) :
    Host.gather g x idx (ix2 e f) =
      x (ix2 ⟨min (idx (ix2 e 0)).toInt.toNat (N - 1), by omega⟩ f) := by
  obtain ⟨od, cs, ob, sb, sim, iv, ss, wf⟩ := g
  simp only at hod hcs hob hsb hsim hiv hss
  subst hod hcs hob hsb hsim hiv hss
  set G : GatherDims ⟨2, ![N, F]⟩ ⟨2, ![E, 1]⟩ ⟨2, ![E, F]⟩ := ⟨[1], [0], [], [], [0], 1, ![1, F], wf⟩ with hG
  unfold Host.gather
  congr 1
  funext a
  refine Fin.ext ?_
  match a with
  | ⟨0, _⟩ =>
    show G.start (ix2 e f) idx (0 : Fin 2) + G.batchCoord (ix2 e f) (0 : Fin 2) + G.offCoord (ix2 e f) (0 : Fin 2)
      = min (idx (ix2 e 0)).toInt.toNat (N - 1)
    have hk : (0 : Fin 2) ∉ G.sKept := show (0 : Fin 2) ∉ ([1] : List (Fin 2)) from by decide
    rw [GatherDims.batchCoord_eq_zero _ _ _ List.not_mem_nil, GatherDims.offCoord_eq_zero _ _ _ hk]
    simp only [Nat.add_zero]
    unfold GatherDims.start
    rw [dif_pos (show (0 : Fin 2) ∈ G.startIndexMap from List.mem_singleton.mpr rfl)]
    have hsi : G.siIdx (ix2 e f) ⟨List.idxOf (0 : Fin 2) G.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show G.start (ix2 e f) idx (1 : Fin 2) + G.batchCoord (ix2 e f) (1 : Fin 2) + G.offCoord (ix2 e f) (1 : Fin 2)
      = f.val
    have hk : (1 : Fin 2) ∈ G.sKept := show (1 : Fin 2) ∈ ([1] : List (Fin 2)) from by decide
    have hm : (1 : Fin 2) ∉ G.startIndexMap := show (1 : Fin 2) ∉ ([0] : List (Fin 2)) from by decide
    rw [GatherDims.batchCoord_eq_zero _ _ _ List.not_mem_nil]
    unfold GatherDims.start GatherDims.offCoord
    rw [dif_neg hm, dif_pos hk]
    simp only [Nat.add_zero, Nat.zero_add]
    rfl

/-- THE RANK-1 GATHER READ AT `e`: the operand at `idx[e, 0]`, read signed and clamped into
    `[0, N - 1]`. -/
theorem gatherVec_apply (hN : 0 < N) (g : GatherDims ⟨1, ![N]⟩ ⟨2, ![E, 1]⟩ ⟨1, ![E]⟩)
    (hod : g.offsetDims = []) (hcs : g.collapsedSliceDims = [0]) (hob : g.operandBatchingDims = [])
    (hsb : g.startIndicesBatchingDims = []) (hsim : g.startIndexMap = [0]) (hiv : g.indexVectorDim = 1)
    (hss : g.sliceSizes = ![1])
    (x : (⟨1, ![N]⟩ : Shape).Idx → α) (idx : IVec ⟨2, ![E, 1]⟩ w) (e : Fin E) :
    Host.gather g x idx (ix1 e) = x (ix1 ⟨min (idx (ix2 e 0)).toInt.toNat (N - 1), by omega⟩) := by
  obtain ⟨od, cs, ob, sb, sim, iv, ss, wf⟩ := g
  simp only at hod hcs hob hsb hsim hiv hss
  subst hod hcs hob hsb hsim hiv hss
  set G : GatherDims ⟨1, ![N]⟩ ⟨2, ![E, 1]⟩ ⟨1, ![E]⟩ := ⟨[], [0], [], [], [0], 1, ![1], wf⟩ with hG
  unfold Host.gather
  congr 1
  funext a
  obtain rfl : a = 0 := Subsingleton.elim _ _
  refine Fin.ext ?_
  show G.start (ix1 e) idx (0 : Fin 1) + G.batchCoord (ix1 e) (0 : Fin 1) + G.offCoord (ix1 e) (0 : Fin 1)
    = min (idx (ix2 e 0)).toInt.toNat (N - 1)
  have hk : (0 : Fin 1) ∉ G.sKept := show (0 : Fin 1) ∉ ([] : List (Fin 1)) from List.not_mem_nil
  rw [GatherDims.batchCoord_eq_zero _ _ _ List.not_mem_nil, GatherDims.offCoord_eq_zero _ _ _ hk]
  simp only [Nat.add_zero]
  unfold GatherDims.start
  rw [dif_pos (show (0 : Fin 1) ∈ G.startIndexMap from List.mem_singleton.mpr rfl)]
  have hsi : G.siIdx (ix1 e) ⟨List.idxOf (0 : Fin 1) G.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Concatenation of two rank-1 arrays -/

section Concat
variable {α : Type} {A B C : Nat}

/-- The concatenation of `a : [A]` and `b : [B]` read at `e`: `a` at `e` in front of `A`, `b` at
    `e - A` from `A` on. The result's extent `C` is `A + B` by the concatenation's condition. -/
theorem concat_apply (a : (⟨1, ![A]⟩ : Shape).Idx → α) (b : (⟨1, ![B]⟩ : Shape).Idx → α)
    (h : Shape.Concatenates [⟨1, ![A]⟩, ⟨1, ![B]⟩] ⟨1, ![C]⟩ (0 : Fin 1)) (e : Fin C) :
    concatenate ⟨1, ![C]⟩ (0 : Fin 1) [⟨⟨1, ![A]⟩, a⟩, ⟨⟨1, ![B]⟩, b⟩] h (ix1 e) =
      if he : e.val < A then a (ix1 ⟨e.val, he⟩)
      else b (ix1 ⟨e.val - A, by
        have hs : A + (B + 0) = C := h.2.2
        have := e.isLt
        omega⟩) := by
  have hs : A + (B + 0) = C := h.2.2
  by_cases he : e.val < A
  · rw [dif_pos he]
    exact concatenate_pair_apply_left (0 : Fin 1) a b h (ix1 e) rfl (ix1 ⟨e.val, he⟩)
      (fun c => by match c with | ⟨0, _⟩ => rfl)
  · rw [dif_neg he]
    have hb : e.val - A < B := by have := e.isLt; omega
    refine concatenate_pair_apply_right (0 : Fin 1) a b h (ix1 e) rfl rfl (ix1 ⟨e.val - A, hb⟩)
      (fun c hc => absurd (Subsingleton.elim _ _) hc) ?_
    show e.val - A + A = e.val
    omega

/-- The same in front of `A`. -/
theorem concat_apply_left (a : (⟨1, ![A]⟩ : Shape).Idx → α) (b : (⟨1, ![B]⟩ : Shape).Idx → α)
    (h : Shape.Concatenates [⟨1, ![A]⟩, ⟨1, ![B]⟩] ⟨1, ![C]⟩ (0 : Fin 1)) (e : Fin C) (he : e.val < A) :
    concatenate ⟨1, ![C]⟩ (0 : Fin 1) [⟨⟨1, ![A]⟩, a⟩, ⟨⟨1, ![B]⟩, b⟩] h (ix1 e) = a (ix1 ⟨e.val, he⟩) := by
  rw [concat_apply, dif_pos he]

/-- The same from `A` on, the position written `A + k`. -/
theorem concat_apply_right (a : (⟨1, ![A]⟩ : Shape).Idx → α) (b : (⟨1, ![B]⟩ : Shape).Idx → α)
    (h : Shape.Concatenates [⟨1, ![A]⟩, ⟨1, ![B]⟩] ⟨1, ![C]⟩ (0 : Fin 1)) (k : Fin B) (hk : A + k.val < C) :
    concatenate ⟨1, ![C]⟩ (0 : Fin 1) [⟨⟨1, ![A]⟩, a⟩, ⟨⟨1, ![B]⟩, b⟩] h (ix1 ⟨A + k.val, hk⟩) = b (ix1 k) := by
  rw [concat_apply, dif_neg (by show ¬ A + k.val < A; omega)]
  congr 2
  refine Fin.ext ?_
  show A + k.val - A = k.val
  omega

end Concat

/-! ## Finite sums of extended reals -/

section Sums

/-- Multiplication by a finite nonnegative factor goes inside a finite sum of extended reals. -/
theorem sum_mul_of_nonneg_of_ne_top {ι : Type*} (s : Finset ι) (g : ι → EReal) {c : EReal} (hc : 0 ≤ c)
    (hc' : c ≠ ⊤) : (∑ e ∈ s, g e) * c = ∑ e ∈ s, g e * c := by
  classical
  induction s using Finset.induction_on with
  | empty => simp
  | insert a s ha ih =>
    rw [Finset.sum_insert ha, Finset.sum_insert ha, ← ih, EReal.right_distrib_of_nonneg_of_ne_top hc hc']

/-- The same with the factor on the left. -/
theorem mul_sum_of_nonneg_of_ne_top {ι : Type*} (s : Finset ι) (g : ι → EReal) {c : EReal} (hc : 0 ≤ c)
    (hc' : c ≠ ⊤) : c * (∑ e ∈ s, g e) = ∑ e ∈ s, c * g e := by
  rw [mul_comm, sum_mul_of_nonneg_of_ne_top s g hc hc']
  exact Finset.sum_congr rfl fun e _ => mul_comm _ _

/-- … and inside a sum of selected terms. -/
theorem sum_ite_mul_of_nonneg_of_ne_top {ι : Type*} (s : Finset ι) (p : ι → Prop) [DecidablePred p]
    (g : ι → EReal) {c : EReal} (hc : 0 ≤ c) (hc' : c ≠ ⊤) :
    (∑ e ∈ s, if p e then g e else 0) * c = ∑ e ∈ s, if p e then g e * c else 0 := by
  rw [sum_mul_of_nonneg_of_ne_top s _ hc hc']
  refine Finset.sum_congr rfl fun e _ => ?_
  rw [ite_mul, zero_mul]

/-- A sum over `Fin C` with `C = A + B` is the sum over the first `A` positions plus the sum over the
    last `B`. -/
theorem sum_fin_split {M : Type*} [AddCommMonoid M] {A B C : Nat} (hC : C = A + B) (f : Fin C → M) :
    ∑ e : Fin C, f e =
      (∑ i : Fin A, f ⟨i.val, by have := i.isLt; omega⟩) + ∑ k : Fin B, f ⟨A + k.val, by have := k.isLt; omega⟩ := by
  subst hC
  rw [Fin.sum_univ_add]
  rfl

end Sums

/-! ## Index words -/

section Words

/-- A 32-bit index that reads, signed, as `n` below `N` is not moved by the clamp into `[0, N - 1]`. -/
theorem clamp_eq_of_toInt_eq {N n : Nat} (b : BitVec 32) (hb : b.toInt = (n : ℤ)) (hn : n < N) :
    min b.toInt.toNat (N - 1) = n := by
  rw [hb, Int.toNat_natCast]
  omega

/-- The 32-bit word of a natural below `2 ^ 31` reads, signed, as that natural. -/
theorem toInt_ofNat_of_lt {j : Nat} (hj : j < 2 ^ 31) : (BitVec.ofNat 32 j).toInt = (j : ℤ) := by
  have hj' : j < 2147483648 := by norm_num at hj; exact hj
  have h1 : (BitVec.ofNat 32 j).toNat = j := by
    rw [BitVec.toNat_ofNat]; exact Nat.mod_eq_of_lt (by omega)
  rw [BitVec.toInt_eq_toNat_cond, h1]
  split
  · rfl
  · omega

end Words

/-! ## Gather at an index entry that is in range -/

section GatherInRange
variable {α : Type} {N F E w : Nat}

/-- The row gather at an entry whose index reads, signed, as a row `n` of the operand: row `n`. -/
theorem gatherRows_apply_of_toInt_eq (g : GatherDims ⟨2, ![N, F]⟩ ⟨2, ![E, 1]⟩ ⟨2, ![E, F]⟩)
    (hod : g.offsetDims = [1]) (hcs : g.collapsedSliceDims = [0]) (hob : g.operandBatchingDims = [])
    (hsb : g.startIndicesBatchingDims = []) (hsim : g.startIndexMap = [0]) (hiv : g.indexVectorDim = 1)
    (hss : g.sliceSizes = ![1, F])
    (x : (⟨2, ![N, F]⟩ : Shape).Idx → α) (idx : IVec ⟨2, ![E, 1]⟩ 32) (e : Fin E) (f : Fin F) (n : Fin N)
    (hn : (idx (ix2 e 0)).toInt = (n.val : ℤ)) :
    Host.gather g x idx (ix2 e f) = x (ix2 n f) := by
  rw [gatherRows_apply (Nat.lt_of_le_of_lt (Nat.zero_le _) n.isLt) g hod hcs hob hsb hsim hiv hss]
  exact congrArg (fun r => x (ix2 r f)) (Fin.ext (clamp_eq_of_toInt_eq _ hn n.isLt))

/-- The rank-1 gather at an entry whose index reads, signed, as a position `n` of the operand: the
    operand at `n`. -/
theorem gatherVec_apply_of_toInt_eq (g : GatherDims ⟨1, ![N]⟩ ⟨2, ![E, 1]⟩ ⟨1, ![E]⟩)
    (hod : g.offsetDims = []) (hcs : g.collapsedSliceDims = [0]) (hob : g.operandBatchingDims = [])
    (hsb : g.startIndicesBatchingDims = []) (hsim : g.startIndexMap = [0]) (hiv : g.indexVectorDim = 1)
    (hss : g.sliceSizes = ![1])
    (x : (⟨1, ![N]⟩ : Shape).Idx → α) (idx : IVec ⟨2, ![E, 1]⟩ 32) (e : Fin E) (n : Fin N)
    (hn : (idx (ix2 e 0)).toInt = (n.val : ℤ)) :
    Host.gather g x idx (ix1 e) = x (ix1 n) := by
  rw [gatherVec_apply (Nat.lt_of_le_of_lt (Nat.zero_le _) n.isLt) g hod hcs hob hsb hsim hiv hss]
  exact congrArg (fun r => x (ix1 r)) (Fin.ext (clamp_eq_of_toInt_eq _ hn n.isLt))

end GatherInRange

end Cert.IndexOps
-- ==== Proof.Scalars.lean ====
/-
  Scalar facts used at single edges and single nodes.

  * The gather's start index: a negative source index is shifted up by the number of nodes; a
    nonnegative one is kept.
  * The node factor is the reciprocal square root of a quantity that is at least one, so it is a
    nonnegative extended real different from +∞ — which is all that distributing it over a sum
    needs.
-/
import Idealize.ShloMosaic.PureOps.Ideal
import Idealize.ShloMosaic.Lib.ValueIdx
import proofs.«170848_j50586124812352_1_alg».proof.Proof.IndexOps

noncomputable section

namespace Cert.Scalars

open Idealize.ShloMosaic Idealize.ShloMosaic.ValueIdx

/-- the word of the float one denotes the real one -/
theorem ofBits_one : Ideal.ofBits .f32 0x3F800000#32 = 1 := by
  simp [Ideal.ofBits, Ideal.ieee, -EReal.coe_mul]; norm_num

/-- the start index computed from a source index: shifted up by 100000 when negative -/
def normIdx (b : BitVec 32) : BitVec 32 :=
  Scalar.select (IntOp.cmpi .slt b 0#32) (IntOp.addi b 100000#32) b

/-- a nonnegative index is kept -/
theorem normIdx_of_nonneg (b : BitVec 32) (h : 0 ≤ b.toInt) : normIdx b = b := by
  unfold normIdx
  have hs : IntOp.cmpi .slt b 0#32 = 0#1 := by
    show BitVec.ofBool (b.slt 0#32) = 0#1
    have : b.slt 0#32 = false := by
      rw [BitVec.slt]
      simp only [decide_eq_false_iff_not, not_lt]
      simpa using h
    rw [this]; rfl
  rw [hs, select_zero]

/-- the row a gather reads for a start index: the shifted index read as a signed integer and clamped
    into the node range -/
def clamp (b : BitVec 32) : Fin 100000 :=
  ⟨min (normIdx b).toInt.toNat (100000 - 1), by omega⟩

/-- an index that is a node's number reads that node's row -/
theorem clamp_of_toInt_eq (b : BitVec 32) (n : Fin 100000) (h : b.toInt = (n.val : ℤ)) : clamp b = n := by
  apply Fin.ext
  show min (normIdx b).toInt.toNat (100000 - 1) = n.val
  rw [normIdx_of_nonneg b (by rw [h]; exact Int.natCast_nonneg _)]
  exact Cert.IndexOps.clamp_eq_of_toInt_eq b h n.isLt

/-- the reciprocal square root of an extended real that is at least one is nonnegative and not +∞ -/
theorem rsqrt_ge_one (y : EReal) (h : 1 ≤ y) : 0 ≤ Ideal.rsqrt y ∧ Ideal.rsqrt y ≠ ⊤ := by
  induction y using EReal.rec with
  | bot => exact absurd (show ((1 : ℝ) : EReal) = ⊥ by exact_mod_cast le_bot_iff.mp h) (EReal.coe_ne_bot 1)
  | top => exact ⟨by simp [Ideal.rsqrt_top], by simp [Ideal.rsqrt_top]⟩
  | coe r =>
    have hr : (1 : ℝ) ≤ r := by exact_mod_cast h
    rw [Ideal.rsqrt_coe, if_neg (by linarith), if_neg (by linarith)]
    refine ⟨?_, EReal.coe_ne_top _⟩
    exact_mod_cast inv_nonneg.mpr (Real.sqrt_nonneg r)

end Cert.Scalars

end
-- ==== Proof.BridgeDeg.lean ====
/-
  The node factor agrees between the two programs.

  Both programs count, for every node, the entries of an index list that name it, take the count
  at least one, and take the reciprocal square root.  The kernel counts the edges that end at the
  node and adds one for the node's own loop afterwards; the reference appends one loop per node to
  the edge list first and counts over the extended list.  Of the appended loops exactly the node's
  own names it, so the two counts are the same extended real.  The count taken at least one has a
  reciprocal square root that is nonnegative and not +∞.
-/
import proofs.«170848_j50586124812352_1_alg».proof.Proof.KSpec
import proofs.«170848_j50586124812352_1_alg».proof.Proof.RefStages
import proofs.«170848_j50586124812352_1_alg».proof.Proof.GcnMath
import proofs.«170848_j50586124812352_1_alg».proof.Proof.Scalars
import proofs.«170848_j50586124812352_1_alg».proof.Proof.IndexOps

noncomputable section

open scoped BigOperators

namespace Cert.BridgeDeg

open Idealize.ShloMosaic Idealize.ShloMosaic.TcCoe Idealize.ShloMosaic.ValueIdx
open Cert.ReferenceIdeal Cert.ReferenceIdeal.Gen Cert.ReferenceIdeal.Read
open Cert.IndexOps

/-! ## Generic readings -/

/-- A scalar constant broadcast to any shape reads, everywhere, the extended real its word encodes. -/
theorem splat_apply {t : Shape} (h : (⟨0, ![]⟩ : Shape).BroadcastsInDim t (![] : Fin 0 → Fin t.rank)) (b : BitVec 32)
    (i : t.Idx) :
    broadcastInDim t ![] h (constant (F := Ideal) ⟨0, ![]⟩ .f32 b) i = Ideal.ofBits .f32 b :=
  broadcastInDim_apply _ h _ i (fun a => a.elim0) (fun a => a.elim0)

/-- The host's reciprocal square root of an array reads, at an index, that of the element. -/
theorem hostRsqrt_apply {s : Shape} (v : FVec Ideal s .f32) (i : s.Idx) :
    Host.rsqrt (F := Ideal) v i = Ideal.rsqrt (v i) := rfl

/-- A rank-1 array made a column reads, at `(e, 0)`, its entry `e`. -/
theorem column_apply {α : Type} {E : Nat} (hE : E ≠ 1)
    (h : (⟨1, ![E]⟩ : Shape).BroadcastsInDim ⟨2, ![E, 1]⟩ ![0]) (v : (⟨1, ![E]⟩ : Shape).Idx → α) (e : Fin E) :
    broadcastInDim ⟨2, ![E, 1]⟩ ![0] h v (ix2 e 0) = v (ix1 e) :=
  broadcastInDim_apply ![0] h v (ix2 e 0) (ix1 e) (fun a => match a with
    | ⟨0, _⟩ => by show e.val = if E = 1 then 0 else e.val; rw [if_neg hE])

/-- Counting by scatter-add: ones scattered into zeros at the indices `c` leave at `n` the number of
    entries of `c` that read, signed, as `n`. -/
theorem count_apply {N E : Nat} (hE : E ≠ 1) (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (hz : (⟨0, ![]⟩ : Shape).BroadcastsInDim ⟨1, ![N]⟩ ![]) (ho : (⟨0, ![]⟩ : Shape).BroadcastsInDim ⟨1, ![E]⟩ ![])
    (hb : (⟨1, ![E]⟩ : Shape).BroadcastsInDim ⟨2, ![E, 1]⟩ ![0]) (c : IVec ⟨1, ![E]⟩ 32) (n : Fin N) :
    Host.scatterAdd (F := Ideal) (φ := .f32) d
        (broadcastInDim ⟨1, ![N]⟩ ![] hz (constant (F := Ideal) ⟨0, ![]⟩ .f32 0x00000000#32))
        (broadcastInDim ⟨2, ![E, 1]⟩ ![0] hb c)
        (broadcastInDim ⟨1, ![E]⟩ ![] ho (constant (F := Ideal) ⟨0, ![]⟩ .f32 0x3F800000#32)) (ix1 n)
      = 0 + ∑ e : Fin E, if (c (ix1 e)).toInt = (n.val : ℤ) then (1 : EReal) else 0 := by
  refine (scatterVec_apply d huw hiw hsd hiv _ _ _ n).trans ?_
  rw [splat_apply, Ideal.ofBits_zero_f32]
  congr 1
  refine Finset.sum_congr rfl fun e _ => ?_
  rw [column_apply hE, splat_apply, Cert.Scalars.ofBits_one]

/-! ## The two counts -/

/-- The kernel's degree at a node: the number of edges that end at it, plus one. -/
theorem deg_apply (x1 : IVec S2x1600000 32) (n : Fin 100000) :
    Cert.KernelIdeal.Val.deg (F := Ideal) x1 (ix1 n)
      = (0 + ∑ e : Fin 1600000,
          if (Cert.KernelIdeal.Val.col (F := Ideal) x1 (ix1 e)).toInt = (n.val : ℤ) then (1 : EReal) else 0) + 1 := by
  unfold Cert.KernelIdeal.Val.deg
  rw [addf_apply]
  refine congrArg₂ (· + ·) ?_ ?_
  · exact count_apply (by decide) _ rfl rfl rfl rfl _ _ _ _ n
  · rw [splat_apply, Cert.Scalars.ofBits_one]

/-- The extended index list of the reference in front of the appended loops: the edge's target. -/
theorem v6_left (x1 : IVec S2x1600000 32) (e : Fin 1600000) :
    val_main_v6 (F := Ideal) x1 (ix1 ⟨e.val, by have := e.isLt; omega⟩)
      = Cert.KernelIdeal.Val.col (F := Ideal) x1 (ix1 e) := by
  unfold val_main_v6
  exact concat_apply_left (val_main_v5 (F := Ideal) x1) (val_main_v0 (F := Ideal))
    concatenates_S1600000_S100000_S1700000_d0 ⟨e.val, by have := e.isLt; omega⟩ e.isLt

/-- The extended index list of the reference at the loop appended for node `j`: the word of `j`. -/
theorem v6_right (x1 : IVec S2x1600000 32) (j : Fin 100000) :
    val_main_v6 (F := Ideal) x1 (ix1 ⟨1600000 + j.val, by have := j.isLt; omega⟩) = BitVec.ofNat 32 j.val := by
  unfold val_main_v6
  exact concat_apply_right (val_main_v5 (F := Ideal) x1) (val_main_v0 (F := Ideal))
    concatenates_S1600000_S100000_S1700000_d0 j (by have := j.isLt; omega)

/-- The reference's count at a node, over the extended list. -/
theorem v10_apply (x1 : IVec S2x1600000 32) (n : Fin 100000) :
    val_main_v10 (F := Ideal) x1 (ix1 n)
      = 0 + ∑ e' : Fin 1700000, if (val_main_v6 (F := Ideal) x1 (ix1 e')).toInt = (n.val : ℤ) then (1 : EReal) else 0 := by
  unfold val_main_v10 val_main_v9 val_main_v8 val_main_v7 val_main_cst val_main_cst_0
  exact count_apply (by decide) _ rfl rfl rfl rfl _ _ _ _ n

/-- The two counts agree: of the appended loops exactly the node's own names it. -/
theorem deg_eq (x1 : IVec S2x1600000 32) (n : Fin 100000) :
    Cert.KernelIdeal.Val.deg (F := Ideal) x1 (ix1 n) = val_main_v10 (F := Ideal) x1 (ix1 n) := by
  rw [deg_apply, v10_apply]
  rw [Cert.GcnMath.ref_side_lit (A := 1600000) (B := 100000) (C := 1700000) (by norm_num)
    (fun e' => (val_main_v6 (F := Ideal) x1 (ix1 e')).toInt = (n.val : ℤ)) (fun _ => (1 : EReal))
    (fun e => (Cert.KernelIdeal.Val.col (F := Ideal) x1 (ix1 e)).toInt = (n.val : ℤ)) (fun _ => (1 : EReal)) n 1
    (fun e => by rw [v6_left]) (fun _ _ => rfl)
    (fun j => by
      rw [v6_right, toInt_ofNat_of_lt (by have := j.isLt; omega)]
      constructor
      · intro h; exact Fin.ext (by exact_mod_cast h)
      · intro h; rw [h])
    rfl]
  rw [zero_add, zero_add]

/-! ## The node factor -/

/-- The kernel's node factor at a node: the reciprocal square root of its degree taken at least one. -/
theorem dinv_apply (x1 : IVec S2x1600000 32) (n : Fin 100000) :
    Cert.KernelIdeal.Val.dinv (F := Ideal) x1 (ix2 n 0)
      = Ideal.rsqrt (max (Cert.KernelIdeal.Val.deg (F := Ideal) x1 (ix1 n)) 1) := by
  unfold Cert.KernelIdeal.Val.dinv
  rw [shapeCast_apply _ _ (ix2 n 0) (ix1 n) (by
    rw [Shape.rowMajor_val_two, Shape.rowMajor_val_one]
    show n.val = n.val * 1 + 0
    omega)]
  rw [hostRsqrt_apply, maximumf_apply, splat_apply, Cert.Scalars.ofBits_one]

/-- The reference's node factor at a node: the reciprocal square root of its count taken at least one. -/
theorem v13_apply (x1 : IVec S2x1600000 32) (n : Fin 100000) :
    val_main_v13 (F := Ideal) x1 (ix1 n) = Ideal.rsqrt (max (val_main_v10 (F := Ideal) x1 (ix1 n)) 1) := by
  rw [val_main_v13_apply, val_main_v12_apply, Ideal.hostUnary_rsqrt_def, Ideal.maximumf_def]
  unfold val_main_v11 val_main_cst_1
  rw [splat_apply, Cert.Scalars.ofBits_one]

/-- THE NODE FACTOR IS THE SAME IN BOTH PROGRAMS. -/
theorem dinv_eq (x1 : IVec S2x1600000 32) (n : Fin 100000) :
    Cert.KernelIdeal.Val.dinv (F := Ideal) x1 (ix2 n 0) = val_main_v13 (F := Ideal) x1 (ix1 n) := by
  rw [dinv_apply, v13_apply, deg_eq]

/-- The node factor is nonnegative … -/
theorem dinv_nonneg (x1 : IVec S2x1600000 32) (n : Fin 100000) :
    0 ≤ val_main_v13 (F := Ideal) x1 (ix1 n) := by
  rw [v13_apply]
  exact (Cert.Scalars.rsqrt_ge_one _ (le_max_right _ _)).1

/-- … and not +∞. -/
theorem dinv_ne_top (x1 : IVec S2x1600000 32) (n : Fin 100000) :
    val_main_v13 (F := Ideal) x1 (ix1 n) ≠ ⊤ := by
  rw [v13_apply]
  exact (Cert.Scalars.rsqrt_ge_one _ (le_max_right _ _)).2

end Cert.BridgeDeg

end
-- ==== Proof.BridgeEdge.lean ====
/-
  Both programs' edge arrays read at one of the given edges.

  The kernel program adds, onto the row of every edge's target, the row of the edge's source: its
  aggregation at one entry is zero plus the sum, over the edges that end at that node, of the
  source row's entry.  The reference works on an extended edge list, the given edges followed by
  one loop per node, so position e below 1600000 is edge e.  At such a position the reference's
  scatter index is the edge's target and its gather index is the edge's source, shifted up by the
  number of nodes when negative — the same two numbers the kernel program uses.
-/
import proofs.«170848_j50586124812352_1_alg».proof.Proof.KSpec
import proofs.«170848_j50586124812352_1_alg».proof.Proof.RefStages
import proofs.«170848_j50586124812352_1_alg».proof.Proof.IndexOps
import proofs.«170848_j50586124812352_1_alg».proof.Proof.Scalars

noncomputable section

namespace Cert.BridgeEdge

open Idealize.ShloMosaic Idealize.ShloMosaic.ValueIdx
open Cert.KernelIdeal Cert.ReferenceIdeal.Read Cert.Scalars Cert.IndexOps

/-! ## Layout readings -/

/-- A list laid out as a column reads, at row `e`, the list's entry `e`. -/
theorem column_read {α : Type} {E : ℕ} (hE : E ≠ 1) (v : (⟨1, ![E]⟩ : Shape).Idx → α)
    (h : (⟨1, ![E]⟩ : Shape).BroadcastsInDim ⟨2, ![E, 1]⟩ ![0]) (e : Fin E) :
    broadcastInDim ⟨2, ![E, 1]⟩ ![0] h v (ix2 e 0) = v (ix1 e) :=
  broadcastInDim_apply ![0] h v (ix2 e 0) (ix1 e) fun a => match a with
    | ⟨0, _⟩ => by show e.val = if E = 1 then 0 else e.val; rw [if_neg hE]

/-- One value spread over an array reads that value everywhere. -/
theorem splat_read {α : Type} {t : Shape} (h : (⟨0, ![]⟩ : Shape).BroadcastsInDim t ![]) (v : (⟨0, ![]⟩ : Shape).Idx → α)
    (j : t.Idx) : broadcastInDim t ![] h v j = v ix0 :=
  broadcastInDim_apply ![] h v j ix0 fun a => a.elim0

/-! ## The kernel side -/

/-- The edge's source as the kernel's gather reads it: shifted up by the number of nodes when negative. -/
theorem rowIdx_apply (x1 : IVec S2x1600000 32) (e : Fin 1600000) :
    Val.rowIdx (F := Ideal) x1 (ix2 e 0) = normIdx (Val.row (F := Ideal) x1 (ix1 e)) := by
  unfold Val.rowIdx
  rw [column_read (by decide)]
  rfl

/-- Rows gathered and added onto rows: zeros, with row `ri[e]` (read signed, clamped into the row range) of `hs` added
    onto row `c[e]` for every entry `e`, read at row `n`, column `f` — the sum, over the entries whose target is `n`,
    of column `f` of the entry's source row. `src e` names the source row of entry `e`. -/
theorem rowsAgg_apply {N F E : ℕ} (hN : 0 < N) (hE : E ≠ 1)
    (d : ScatterDims ⟨2, ![N, F]⟩ ⟨2, ![E, 1]⟩ ⟨2, ![E, F]⟩)
    (huw : d.updateWindowDims = [1]) (hiw : d.insertedWindowDims = [0])
    (hsd : d.scatterDimsToOperandDims = [0]) (hiv : d.indexVectorDim = 1)
    (g : GatherDims ⟨2, ![N, F]⟩ ⟨2, ![E, 1]⟩ ⟨2, ![E, F]⟩)
    (hod : g.offsetDims = [1]) (hcs : g.collapsedSliceDims = [0]) (hob : g.operandBatchingDims = [])
    (hsb : g.startIndicesBatchingDims = []) (hsim : g.startIndexMap = [0]) (hgiv : g.indexVectorDim = 1)
    (hss : g.sliceSizes = ![1, F])
    (hz : (⟨0, ![]⟩ : Shape).BroadcastsInDim ⟨2, ![N, F]⟩ ![])
    (hb : (⟨1, ![E]⟩ : Shape).BroadcastsInDim ⟨2, ![E, 1]⟩ ![0])
    (c : IVec ⟨1, ![E]⟩ 32) (ri : IVec ⟨2, ![E, 1]⟩ 32) (hs : (⟨2, ![N, F]⟩ : Shape).Idx → EReal)
    (src : Fin E → Fin N)
    (hsrc : ∀ e : Fin E, min (ri (ix2 e 0)).toInt.toNat (N - 1) = (src e).val) (n : Fin N) (f : Fin F) :
    Host.scatterAdd (F := Ideal) (φ := .f32) d
        (broadcastInDim ⟨2, ![N, F]⟩ ![] hz (constant (F := Ideal) ⟨0, ![]⟩ .f32 0x00000000#32))
        (broadcastInDim ⟨2, ![E, 1]⟩ ![0] hb c)
        (Host.gather g hs ri) (ix2 n f)
      = 0 + ∑ e : Fin E, if (c (ix1 e)).toInt = (n.val : ℤ) then hs (ix2 (src e) f) else 0 := by
  refine (scatterRows_apply d huw hiw hsd hiv _ _ _ n f).trans ?_
  rw [splat_read, constant_apply, Ideal.ofBits_zero_f32]
  refine congrArg (fun s : EReal => 0 + s) (Finset.sum_congr rfl fun e _ => ?_)
  rw [column_read hE]
  refine if_congr Iff.rfl ?_ rfl
  rw [gatherRows_apply hN g hod hcs hob hsb hsim hgiv hss]
  exact congrArg (fun r : Fin N => hs (ix2 r f)) (Fin.ext (hsrc e))

/-- THE KERNEL'S AGGREGATION AT ONE ENTRY: zero plus, over the edges that end at node `n`, feature `f` of the
    source's row. -/
theorem agg_apply (x1 : IVec S2x1600000 32) (hs : FVec Ideal S100000x128 .f32) (n : Fin 100000) (f : Fin 128) :
    Val.agg (F := Ideal) x1 hs (ix2 n f) = 0 + ∑ e : Fin 1600000,
      if (Val.col (F := Ideal) x1 (ix1 e)).toInt = (n.val : ℤ) then hs (ix2 (clamp (Val.row (F := Ideal) x1 (ix1 e))) f) else 0 := by
  unfold Val.agg
  exact rowsAgg_apply (by decide) (by decide) _ rfl rfl rfl rfl _ rfl rfl rfl rfl rfl rfl rfl _ _
    (Val.col (F := Ideal) x1) (Val.rowIdx (F := Ideal) x1) hs (fun e => clamp (Val.row (F := Ideal) x1 (ix1 e)))
    (fun e => by
      show min (Val.rowIdx (F := Ideal) x1 (ix2 e 0)).toInt.toNat (100000 - 1)
        = min (normIdx (Val.row (F := Ideal) x1 (ix1 e))).toInt.toNat (100000 - 1)
      rw [rowIdx_apply]) n f

/-! ## The reference side at one of the given edges -/

/-- One integer spread over an array reads that integer everywhere. -/
theorem splatI_read {t : Shape} (h : (⟨0, ![]⟩ : Shape).BroadcastsInDim t (![] : Fin 0 → Fin t.rank)) (b : BitVec 32)
    (i : t.Idx) : broadcastInDim t ![] h (constantI ⟨0, ![]⟩ 32 b) i = b :=
  broadcastInDim_apply _ h _ i (fun a => a.elim0) (fun a => a.elim0)

/-- The extended source list at an edge's position is the edge's source. -/
theorem src_edge (x1 : IVec S2x1600000 32) (e : Fin 1600000) (he : e.val < 1700000) :
    val_main_v3 (F := Ideal) x1 (ix1 (⟨e.val, he⟩ : Fin 1700000)) = Val.row (F := Ideal) x1 (ix1 e) := by
  unfold val_main_v3
  exact concat_apply_left (val_main_v2 (F := Ideal) x1) (val_main_v0 (F := Ideal)) _ ⟨e.val, he⟩ e.isLt

/-- The extended target list at an edge's position is the edge's target. -/
theorem tgt_edge (x1 : IVec S2x1600000 32) (e : Fin 1600000) (he : e.val < 1700000) :
    val_main_v6 (F := Ideal) x1 (ix1 (⟨e.val, he⟩ : Fin 1700000)) = Val.col (F := Ideal) x1 (ix1 e) := by
  unfold val_main_v6
  exact concat_apply_left (val_main_v5 (F := Ideal) x1) (val_main_v0 (F := Ideal)) _ ⟨e.val, he⟩ e.isLt

/-- THE REFERENCE'S SCATTER INDEX AT AN EDGE: the edge's target. -/
theorem v41_edge (x1 : IVec S2x1600000 32) (e : Fin 1600000) :
    val_main_v41 (F := Ideal) x1 (ix2 (⟨e.val, by have := e.isLt; omega⟩ : Fin 1700000) 0)
      = Val.col (F := Ideal) x1 (ix1 e) := by
  unfold val_main_v41
  rw [column_read (by decide), tgt_edge]

/-- THE REFERENCE'S GATHER INDEX AT AN EDGE: the edge's source, shifted up by the number of nodes when negative. -/
theorem v35_edge (x1 : IVec S2x1600000 32) (e : Fin 1600000) :
    val_main_v35 (F := Ideal) x1 (ix2 (⟨e.val, by have := e.isLt; omega⟩ : Fin 1700000) 0)
      = normIdx (Val.row (F := Ideal) x1 (ix1 e)) := by
  unfold val_main_v35
  rw [column_read (by decide), val_main_v34_apply, val_main_v31_apply, val_main_v33_apply]
  unfold val_main_v30 val_main_v32 val_main_c_5 val_main_c_6
  rw [splatI_read, splatI_read, src_edge]
  rfl

end Cert.BridgeEdge

end
-- ==== Proof.BridgeNorm.lean ====
/-
  The reference's edge weight.

  For every entry of the extended edge list the reference gathers the node factor at the entry's
  source and at its target and multiplies the two; the product, repeated along the feature axis, is
  the entry's weight.  A gather reads its start index shifted up by the number of nodes when
  negative, then as a signed integer clamped into the node range.  At one of the given edges the
  source and the target are the edge list's two rows at that edge.
-/
import proofs.«170848_j50586124812352_1_alg».proof.Proof.BridgeDeg

noncomputable section

open scoped BigOperators

namespace Cert.BridgeEdge

open Idealize.ShloMosaic Idealize.ShloMosaic.TcCoe Idealize.ShloMosaic.ValueIdx
open Cert.ReferenceIdeal Cert.ReferenceIdeal.Gen Cert.ReferenceIdeal.Read
open Cert.IndexOps Cert.Scalars Cert.BridgeDeg

/-! ## The extended source list in front of the appended loops -/

/-- The extended source list in front of the appended loops: the edge's source. -/
theorem norm_v3_left (x1 : IVec S2x1600000 32) (e : Fin 1600000) :
    val_main_v3 (F := Ideal) x1 (ix1 ⟨e.val, by have := e.isLt; omega⟩)
      = Cert.KernelIdeal.Val.row (F := Ideal) x1 (ix1 e) := by
  unfold val_main_v3
  exact concat_apply_left (val_main_v2 (F := Ideal) x1) (val_main_v0 (F := Ideal))
    concatenates_S1600000_S100000_S1700000_d0 ⟨e.val, by have := e.isLt; omega⟩ e.isLt

/-- The extended source list at the loop appended for node `j`: the word of `j`. -/
theorem norm_v3_right (x1 : IVec S2x1600000 32) (j : Fin 100000) :
    val_main_v3 (F := Ideal) x1 (ix1 ⟨1600000 + j.val, by have := j.isLt; omega⟩) = BitVec.ofNat 32 j.val := by
  unfold val_main_v3
  exact concat_apply_right (val_main_v2 (F := Ideal) x1) (val_main_v0 (F := Ideal))
    concatenates_S1600000_S100000_S1700000_d0 j (by have := j.isLt; omega)

/-! ## The gathers' start indices -/

/-- A scalar integer constant broadcast to any shape reads, everywhere, its word. -/
theorem norm_splatI_apply {t : Shape} (h : (⟨0, ![]⟩ : Shape).BroadcastsInDim t (![] : Fin 0 → Fin t.rank))
    (b : BitVec 32) (i : t.Idx) :
    broadcastInDim t ![] h (constantI ⟨0, ![]⟩ 32 b) i = b :=
  broadcastInDim_apply _ h _ i (fun a => a.elim0) (fun a => a.elim0)

/-- The start index of the source gather at an entry: the entry's source, shifted up when negative. -/
theorem norm_v18 (x1 : IVec S2x1600000 32) (e' : Fin 1700000) :
    val_main_v18 (F := Ideal) x1 (ix1 e') = normIdx (val_main_v3 (F := Ideal) x1 (ix1 e')) := by
  rw [val_main_v18_apply, val_main_v15_apply, val_main_v17_apply]
  unfold val_main_v14 val_main_v16 val_main_c val_main_c_2
  rw [norm_splatI_apply, norm_splatI_apply]
  generalize val_main_v3 (F := Ideal) x1 (ix1 e') = b
  rfl

/-- The start index of the target gather at an entry: the entry's target, shifted up when negative. -/
theorem norm_v25 (x1 : IVec S2x1600000 32) (e' : Fin 1700000) :
    val_main_v25 (F := Ideal) x1 (ix1 e') = normIdx (val_main_v6 (F := Ideal) x1 (ix1 e')) := by
  rw [val_main_v25_apply, val_main_v22_apply, val_main_v24_apply]
  unfold val_main_v21 val_main_v23 val_main_c_3 val_main_c_4
  rw [norm_splatI_apply, norm_splatI_apply]
  generalize val_main_v6 (F := Ideal) x1 (ix1 e') = b
  rfl

/-! ## The gathered node factors and their product -/

/-- The node factor gathered at an entry's source. -/
theorem norm_v20 (x1 : IVec S2x1600000 32) (e' : Fin 1700000) :
    val_main_v20 (F := Ideal) x1 (ix1 e')
      = val_main_v13 (F := Ideal) x1 (ix1 (clamp (val_main_v3 (F := Ideal) x1 (ix1 e')))) := by
  unfold val_main_v20
  refine (gatherVec_apply (N := 100000) (by omega) gather_S100000_S1700000x1_S1700000_n_0_n_n_0_1_1
    rfl rfl rfl rfl rfl rfl rfl _ _ e').trans ?_
  refine congrArg (fun r => val_main_v13 (F := Ideal) x1 (ix1 r)) (Fin.ext ?_)
  show min (val_main_v19 (F := Ideal) x1 (ix2 e' 0)).toInt.toNat (100000 - 1) = _
  unfold val_main_v19
  rw [column_apply (by decide), norm_v18]
  rfl

/-- The node factor gathered at an entry's target. -/
theorem norm_v27 (x1 : IVec S2x1600000 32) (e' : Fin 1700000) :
    val_main_v27 (F := Ideal) x1 (ix1 e')
      = val_main_v13 (F := Ideal) x1 (ix1 (clamp (val_main_v6 (F := Ideal) x1 (ix1 e')))) := by
  unfold val_main_v27
  refine (gatherVec_apply (N := 100000) (by omega) gather_S100000_S1700000x1_S1700000_n_0_n_n_0_1_1
    rfl rfl rfl rfl rfl rfl rfl _ _ e').trans ?_
  refine congrArg (fun r => val_main_v13 (F := Ideal) x1 (ix1 r)) (Fin.ext ?_)
  show min (val_main_v26 (F := Ideal) x1 (ix2 e' 0)).toInt.toNat (100000 - 1) = _
  unfold val_main_v26
  rw [column_apply (by decide), norm_v25]
  rfl

/-- A column repeated along a second axis reads, at `(e, f)`, the column's entry `e`. -/
theorem norm_repeat_apply {α : Type} {E C : Nat} (hE : E ≠ 1)
    (h : (⟨2, ![E, 1]⟩ : Shape).BroadcastsInDim ⟨2, ![E, C]⟩ ![0, 1]) (v : (⟨2, ![E, 1]⟩ : Shape).Idx → α)
    (e : Fin E) (f : Fin C) :
    broadcastInDim ⟨2, ![E, C]⟩ ![0, 1] h v (ix2 e f) = v (ix2 e 0) :=
  broadcastInDim_apply ![0, 1] h v (ix2 e f) (ix2 e 0) (fun a => match a with
    | ⟨0, _⟩ => by show e.val = if E = 1 then 0 else e.val; rw [if_neg hE]
    | ⟨1, _⟩ => by show 0 = if (1 : Nat) = 1 then 0 else f.val; rw [if_pos rfl])

/-- THE WEIGHT OF AN ENTRY of the extended list: the product of the node factors at its source and
    at its target. -/
theorem norm_v38 (x1 : IVec S2x1600000 32) (e' : Fin 1700000) (f : Fin 128) :
    val_main_v38 (F := Ideal) x1 (ix2 e' f)
      = val_main_v13 (F := Ideal) x1 (ix1 (clamp (val_main_v3 (F := Ideal) x1 (ix1 e'))))
        * val_main_v13 (F := Ideal) x1 (ix1 (clamp (val_main_v6 (F := Ideal) x1 (ix1 e')))) := by
  unfold val_main_v38 val_main_v37
  rw [norm_repeat_apply (by decide), column_apply (by decide), val_main_v28_apply, Ideal.mulf_def,
    norm_v20, norm_v27]

/-- THE WEIGHT OF A GIVEN EDGE: the product of the node factors at the edge's source and target. -/
theorem v38_edge (x1 : IVec S2x1600000 32) (e : Fin 1600000) (f : Fin 128) :
    val_main_v38 (F := Ideal) x1 (ix2 (⟨e.val, by have := e.isLt; omega⟩ : Fin 1700000) f)
      = val_main_v13 (F := Ideal) x1 (ix1 (clamp (Cert.KernelIdeal.Val.row (F := Ideal) x1 (ix1 e))))
        * val_main_v13 (F := Ideal) x1 (ix1 (clamp (Cert.KernelIdeal.Val.col (F := Ideal) x1 (ix1 e)))) := by
  rw [norm_v38, norm_v3_left, v6_left]

end Cert.BridgeEdge

end
-- ==== Proof.BridgeLoop.lean ====
/-
  The reference program's edge index arrays at a loop entry.

  The reference extends the list of the 1600000 given edges by one loop per node: entry 1600000 + j of the extended list
  is the edge from node j to node j, both of its index words being the word of the number j.  Here the arrays the
  reference computes from the extended list are read at such an entry: the scatter's target index is the word of j,
  the gather's start index is that word after the shift of negative indices (which does nothing to it), and the edge's
  weight is the product of the factors of the edge's two end nodes, both node j.
-/
import proofs.«170848_j50586124812352_1_alg».proof.Proof.RefStages
import proofs.«170848_j50586124812352_1_alg».proof.Proof.IndexOps
import proofs.«170848_j50586124812352_1_alg».proof.Proof.Scalars

noncomputable section

namespace Cert.BridgeEdge

open Cert.ReferenceIdeal Cert.ReferenceIdeal.Read Cert.Scalars Idealize.ShloMosaic Idealize.ShloMosaic.ValueIdx

variable (x1 : IVec S2x1600000 32)

/-- The column form [E', 1] of an array over the extended list, read at (e, 0), reads the array at e. -/
theorem col_idx (e : Fin 1700000) : idx_main_v41 (ix2 e 0) = ix1 e :=
  funext fun a => by match a with | ⟨0, _⟩ => rfl

/-- The number of a node is below 2 ^ 31, so its 32-bit word reads, signed, as that number. -/
theorem toInt_node (j : Fin 100000) : (BitVec.ofNat 32 j.val).toInt = (j.val : ℤ) :=
  Cert.IndexOps.toInt_ofNat_of_lt (Nat.lt_trans j.isLt (by norm_num))

/-- The source indices of the extended list at node j's loop: the word of j. -/
theorem v3_loop (j : Fin 100000) :
    val_main_v3 (F := Ideal) x1 (ix1 (⟨1600000 + j.val, by omega⟩ : Fin 1700000)) = BitVec.ofNat 32 j.val := by
  unfold val_main_v3
  exact (Cert.IndexOps.concat_apply_right (A := 1600000) (B := 100000) (C := 1700000) (val_main_v2 (F := Ideal) x1)
    (val_main_v0 (F := Ideal)) _ j (by omega)).trans (val_main_v0_apply (F := Ideal) (ix1 j))

/-- The target indices of the extended list at node j's loop: the word of j. -/
theorem v6_loop (j : Fin 100000) :
    val_main_v6 (F := Ideal) x1 (ix1 (⟨1600000 + j.val, by omega⟩ : Fin 1700000)) = BitVec.ofNat 32 j.val := by
  unfold val_main_v6
  exact (Cert.IndexOps.concat_apply_right (A := 1600000) (B := 100000) (C := 1700000) (val_main_v5 (F := Ideal) x1)
    (val_main_v0 (F := Ideal)) _ j (by omega)).trans (val_main_v0_apply (F := Ideal) (ix1 j))

/-- The scatter's index column at node j's loop: the word of j. -/
theorem v41_loop (j : Fin 100000) :
    val_main_v41 (F := Ideal) x1 (ix2 (⟨1600000 + j.val, by omega⟩ : Fin 1700000) 0) = BitVec.ofNat 32 j.val := by
  rw [val_main_v41_apply, col_idx, v6_loop]

/-- The layer gather's start-index column at node j's loop: the word of j after the shift of negative indices. -/
theorem v35_loop (j : Fin 100000) :
    val_main_v35 (F := Ideal) x1 (ix2 (⟨1600000 + j.val, by omega⟩ : Fin 1700000) 0) = normIdx (BitVec.ofNat 32 j.val) := by
  rw [val_main_v35_apply]
  show val_main_v34 (F := Ideal) x1 (idx_main_v41 (ix2 _ 0)) = _
  rw [col_idx, val_main_v34_apply, val_main_v31_apply, val_main_v33_apply, val_main_v30_apply, val_main_v32_apply,
    val_main_c_5_apply, val_main_c_6_apply, v3_loop]
  rfl

/-- The factor gather's start-index column for the SOURCE end at node j's loop. -/
theorem v19_loop (j : Fin 100000) :
    val_main_v19 (F := Ideal) x1 (ix2 (⟨1600000 + j.val, by omega⟩ : Fin 1700000) 0) = normIdx (BitVec.ofNat 32 j.val) := by
  rw [val_main_v19_apply]
  show val_main_v18 (F := Ideal) x1 (idx_main_v41 (ix2 _ 0)) = _
  rw [col_idx, val_main_v18_apply, val_main_v15_apply, val_main_v17_apply, val_main_v14_apply, val_main_v16_apply,
    val_main_c_apply, val_main_c_2_apply, v3_loop]
  rfl

/-- The factor gather's start-index column for the TARGET end at node j's loop. -/
theorem v26_loop (j : Fin 100000) :
    val_main_v26 (F := Ideal) x1 (ix2 (⟨1600000 + j.val, by omega⟩ : Fin 1700000) 0) = normIdx (BitVec.ofNat 32 j.val) := by
  rw [val_main_v26_apply]
  show val_main_v25 (F := Ideal) x1 (idx_main_v41 (ix2 _ 0)) = _
  rw [col_idx, val_main_v25_apply, val_main_v22_apply, val_main_v24_apply, val_main_v21_apply, val_main_v23_apply,
    val_main_c_3_apply, val_main_c_4_apply, v6_loop]
  rfl

/-- The source end's factor at node j's loop: the factor array at the row the gather reads for the word of j. -/
theorem v20_loop (j : Fin 100000) :
    val_main_v20 (F := Ideal) x1 (ix1 (⟨1600000 + j.val, by omega⟩ : Fin 1700000))
      = val_main_v13 (F := Ideal) x1 (ix1 (clamp (BitVec.ofNat 32 j.val))) := by
  unfold val_main_v20
  rw [Cert.IndexOps.gatherVec_apply (by norm_num) gather_S100000_S1700000x1_S1700000_n_0_n_n_0_1_1 rfl rfl rfl rfl rfl rfl rfl]
  refine congrArg (fun r => val_main_v13 (F := Ideal) x1 (ix1 r)) (Fin.ext ?_)
  show min (val_main_v19 (F := Ideal) x1 (ix2 _ 0)).toInt.toNat (100000 - 1) = min (normIdx (BitVec.ofNat 32 j.val)).toInt.toNat (100000 - 1)
  rw [v19_loop]

/-- The target end's factor at node j's loop. -/
theorem v27_loop (j : Fin 100000) :
    val_main_v27 (F := Ideal) x1 (ix1 (⟨1600000 + j.val, by omega⟩ : Fin 1700000))
      = val_main_v13 (F := Ideal) x1 (ix1 (clamp (BitVec.ofNat 32 j.val))) := by
  unfold val_main_v27
  rw [Cert.IndexOps.gatherVec_apply (by norm_num) gather_S100000_S1700000x1_S1700000_n_0_n_n_0_1_1 rfl rfl rfl rfl rfl rfl rfl]
  refine congrArg (fun r => val_main_v13 (F := Ideal) x1 (ix1 r)) (Fin.ext ?_)
  show min (val_main_v26 (F := Ideal) x1 (ix2 _ 0)).toInt.toNat (100000 - 1) = min (normIdx (BitVec.ofNat 32 j.val)).toInt.toNat (100000 - 1)
  rw [v26_loop]

/-- The edge weight, spread over the 128 columns, at node j's loop: the product of the two ends' factors. -/
theorem v38_loop (j : Fin 100000) (f : Fin 128) :
    val_main_v38 (F := Ideal) x1 (ix2 (⟨1600000 + j.val, by omega⟩ : Fin 1700000) f)
      = val_main_v13 (F := Ideal) x1 (ix1 (clamp (BitVec.ofNat 32 j.val))) * val_main_v13 (F := Ideal) x1 (ix1 (clamp (BitVec.ofNat 32 j.val))) := by
  rw [val_main_v38_apply]
  have e1 : idx_main_v38 (ix2 (⟨1600000 + j.val, by omega⟩ : Fin 1700000) f) = ix2 (⟨1600000 + j.val, by omega⟩ : Fin 1700000) 0 :=
    funext fun a => by match a with | ⟨0, _⟩ => rfl | ⟨1, _⟩ => rfl
  rw [e1, val_main_v37_apply]
  show val_main_v28 (F := Ideal) x1 (idx_main_v41 (ix2 _ 0)) = _
  rw [col_idx, val_main_v28_apply, v20_loop, v27_loop]
  rfl

/-- The row the gather reads for the word of node j is row j. -/
theorem clamp_loop (j : Fin 100000) : clamp (BitVec.ofNat 32 j.val) = j :=
  clamp_of_toInt_eq _ j (toInt_node j)

/-- The word of node j reads, signed, as node n exactly when j = n. -/
theorem loop_iff (j n : Fin 100000) : (BitVec.ofNat 32 j.val).toInt = (n.val : ℤ) ↔ j = n := by
  rw [toInt_node]
  constructor
  · intro h; exact Fin.ext (by exact_mod_cast h)
  · rintro rfl; rfl

end Cert.BridgeEdge

end
-- ==== Proof.BridgeRef.lean ====
/-
  The reference's layer read at an entry.

  A reference layer multiplies the features by the weights, gathers for every entry of the extended
  edge list the product's row at the entry's source, scales it by the entry's weight, adds it onto
  the row of the entry's target, adds the bias and clips below at zero.  Read at node `n` and
  feature `f` this is the sum, over the entries whose target is `n`, of the product's element at the
  entry's source (read signed and clamped into the node range) times the entry's weight, plus the
  bias at `f`, the total taken at least zero.
-/
import proofs.«170848_j50586124812352_1_alg».proof.Proof.BridgeTail
import proofs.«170848_j50586124812352_1_alg».proof.Proof.RefStages
import proofs.«170848_j50586124812352_1_alg».proof.Proof.BridgeDeg

noncomputable section

open scoped BigOperators

namespace Cert.Bridge

open Idealize.ShloMosaic Idealize.ShloMosaic.TcCoe Idealize.ShloMosaic.ValueIdx
open Cert.ReferenceIdeal Cert.ReferenceIdeal.Gen Cert.ReferenceIdeal.Read

/-- entry `(j, f)` of the product of the features with the weights -/
def prodAt (h : FVec Ideal S100000x128 .f32) (W : FVec Ideal S128x128 .f32) (f : Fin 128) (j : Fin 100000) : EReal :=
  ∑ k : Fin 128, h (ix2 j k) * W (ix2 k f)

/-- The row scatter-add of the extended reals, spelt as the host operation: the operand's element
    plus the sum of the update elements over the entries whose index is the row. -/
theorem ref_scatterRows {N F E : Nat} (d : ScatterDims ⟨2, ![N, F]⟩ ⟨2, ![E, 1]⟩ ⟨2, ![E, F]⟩)
    (huw : d.updateWindowDims = [1]) (hiw : d.insertedWindowDims = [0])
    (hsd : d.scatterDimsToOperandDims = [0]) (hiv : d.indexVectorDim = 1)
    (x : FVec Ideal ⟨2, ![N, F]⟩ .f32) (idx : IVec ⟨2, ![E, 1]⟩ 32) (upd : FVec Ideal ⟨2, ![E, F]⟩ .f32)
    (n : Fin N) (f : Fin F) :
    Host.scatterAdd (F := Ideal) (φ := .f32) d x idx upd (ix2 n f)
      = x (ix2 n f) + ∑ e : Fin E, if (idx (ix2 e 0)).toInt = (n.val : ℤ) then upd (ix2 e f) else 0 :=
  Cert.IndexOps.scatterRows_apply d huw hiw hsd hiv x idx upd n f

/-- THE REFERENCE'S LAYER READ AT `(n, f)`. -/
theorem ref_layer_apply (gi : IVec S1700000x1 32) (nrm : FVec Ideal S1700000x128 .f32) (si : IVec S1700000x1 32)
    (h : FVec Ideal S100000x128 .f32) (W : FVec Ideal S128x128 .f32) (b : FVec Ideal S128 .f32)
    (n : Fin 100000) (f : Fin 128) :
    Cert.ReferenceIdeal.RefVal.layer (F := Ideal) gi nrm si h W b (ix2 n f)
      = max ((0 + ∑ e' : Fin 1700000, if (si (ix2 e' 0)).toInt = (n.val : ℤ)
          then prodAt h W f ⟨min (gi (ix2 e' 0)).toInt.toNat (100000 - 1), by omega⟩ * nrm (ix2 e' f) else 0)
        + b (ix1 f)) 0 := by
  unfold Cert.ReferenceIdeal.RefVal.layer
  rw [maximumf_apply, addf_apply, Cert.BridgeDeg.splat_apply, Ideal.ofBits_zero_f32,
    bias_row_apply (R := 100000) (C := 128) _ _ (by decide)]
  refine congrArg₂ max (congrArg₂ (· + ·) ?_ rfl) rfl
  refine (ref_scatterRows scatter_S100000x128_S1700000x1_S1700000x128_1_0_0_1 rfl rfl rfl rfl
    _ si _ n f).trans ?_
  rw [Cert.BridgeDeg.splat_apply, Ideal.ofBits_zero_f32]
  refine congrArg₂ (· + ·) rfl (Finset.sum_congr rfl fun e' _ => ?_)
  rw [mulf_apply, Cert.IndexOps.gatherRows_apply (by decide) gather_S100000x128_S1700000x1_S1700000x128_1_0_n_n_0_1_1128
    rfl rfl rfl rfl rfl rfl rfl, dot_layer_apply]
  rfl

end Cert.Bridge

end
-- ==== Proof.BridgeLayer.lean ====
/-
  One layer of the network agrees between the two programs.

  At a node `n` and a feature `f` the kernel computes
  `max ((Σ_e [edge e ends at n] A(src e)·δ(src e) + A(n)·δ(n)) · δ(n) + b f) 0`
  and the reference
  `max (Σ_e' [entry e' of the extended list ends at n] A(src e')·(δ(src e')·δ(tgt e')) + b f) 0`,
  where `A(j)` is entry `(j, f)` of the product of the features with the weights and `δ` the node
  factor.  The extended list is the edge list followed by one loop per node, so its sum is the
  edges' sum plus the single loop term at `n`; and `δ(n)`, nonnegative and not +∞, distributes
  over the kernel's sum.
-/
import proofs.«170848_j50586124812352_1_alg».proof.Proof.BridgeTail
import proofs.«170848_j50586124812352_1_alg».proof.Proof.GcnMath
import proofs.«170848_j50586124812352_1_alg».proof.Proof.Scalars
import proofs.«170848_j50586124812352_1_alg».proof.Proof.IndexOps
import proofs.«170848_j50586124812352_1_alg».proof.Proof.BridgeDeg
import proofs.«170848_j50586124812352_1_alg».proof.Proof.BridgeEdge
import proofs.«170848_j50586124812352_1_alg».proof.Proof.BridgeNorm
import proofs.«170848_j50586124812352_1_alg».proof.Proof.BridgeLoop
import proofs.«170848_j50586124812352_1_alg».proof.Proof.BridgeRef

noncomputable section

namespace Cert.Bridge

open Idealize.ShloMosaic Idealize.ShloMosaic.TcCoe Idealize.ShloMosaic.ValueIdx
open Cert.ReferenceIdeal Cert.ReferenceIdeal.Gen Cert.ReferenceIdeal.Read Cert.Scalars

/-- the combine stage at an entry -/
theorem combine_apply (S hs : Cert.Gcn.SNF.Idx → EReal) (d : Cert.Gcn.SN1.Idx → EReal) (b : Cert.Gcn.SF.Idx → EReal)
    (n : Fin 100000) (f : Fin 128) :
    Cert.Gcn.combine S hs d b (ix2 n f) = max ((S (ix2 n f) + hs (ix2 n f)) * d (ix2 n 0) + b (ix1 f)) 0 := rfl

/-- the scaled product at an entry -/
theorem matScale_apply (h : FVec Ideal S100000x128 .f32) (W : FVec Ideal S128x128 .f32) (d : Cert.Gcn.SN1.Idx → EReal)
    (j : Fin 100000) (f : Fin 128) :
    Cert.Gcn.matScale h W d (ix2 j f) = prodAt h W f j * d (ix2 j 0) := rfl

/-- The kernel's layer at an entry: the edges ending at node `n` contribute their sources' scaled
    product rows, the node adds its own, and the total is scaled by the node's factor. -/
theorem kernel_layer_apply (x1 : IVec S2x1600000 32) (h : FVec Ideal S100000x128 .f32) (W : FVec Ideal S128x128 .f32)
    (b : FVec Ideal S128 .f32) (n : Fin 100000) (f : Fin 128) :
    Cert.KernelIdeal.Val.layer x1 h W b (ix2 n f)
      = max (((0 + ∑ e : Fin 1600000, if (Cert.KernelIdeal.Val.col (F := Ideal) x1 (ix1 e)).toInt = (n.val : ℤ)
            then prodAt h W f (clamp (Cert.KernelIdeal.Val.row (F := Ideal) x1 (ix1 e))) * val_main_v13 (F := Ideal) x1 (ix1 (clamp (Cert.KernelIdeal.Val.row (F := Ideal) x1 (ix1 e)))) else 0)
          + prodAt h W f n * val_main_v13 (F := Ideal) x1 (ix1 n)) * val_main_v13 (F := Ideal) x1 (ix1 n) + b (ix1 f)) 0 := by
  unfold Cert.KernelIdeal.Val.layer
  rw [combine_apply, Cert.BridgeEdge.agg_apply]
  simp only [matScale_apply, Cert.BridgeDeg.dinv_eq]

/-- the row a gather reads, when its start index is the shifted form of `b` -/
theorem row_of_start (b0 b : BitVec 32) (hb : b0 = normIdx b) (hlt : min b0.toInt.toNat (100000 - 1) < 100000) :
    (⟨min b0.toInt.toNat (100000 - 1), hlt⟩ : Fin 100000) = clamp b := by
  subst hb; rfl

/-- One layer agrees between the programs: the kernel scales the aggregated rows once more by
    the target's factor after the sum, the reference scales every term by both factors before it,
    and the reference's extended edge list adds exactly the node's own loop. -/
theorem layer_eq (x1 : IVec S2x1600000 32) (h : FVec Ideal S100000x128 .f32) (W : FVec Ideal S128x128 .f32) (b : FVec Ideal S128 .f32) :
    Cert.KernelIdeal.Val.layer x1 h W b
      = Cert.ReferenceIdeal.RefVal.layer (F := Ideal) (val_main_v35 (F := Ideal) x1) (val_main_v38 (F := Ideal) x1)
          (val_main_v41 (F := Ideal) x1) h W b := by
  funext i
  obtain ⟨n, f, rfl⟩ : ∃ (n : Fin 100000) (f : Fin 128), i = ix2 n f := ⟨i 0, i 1, eq_ix2 i⟩
  rw [kernel_layer_apply, ref_layer_apply]
  have h0 := Cert.BridgeDeg.dinv_nonneg x1 n
  have ht := Cert.BridgeDeg.dinv_ne_top x1 n
  have hK := Cert.GcnMath.kernel_side
    (fun e : Fin 1600000 => (Cert.KernelIdeal.Val.col (F := Ideal) x1 (ix1 e)).toInt = (n.val : ℤ))
    (fun e => prodAt h W f (clamp (Cert.KernelIdeal.Val.row (F := Ideal) x1 (ix1 e))))
    (fun e => val_main_v13 (F := Ideal) x1 (ix1 (clamp (Cert.KernelIdeal.Val.row (F := Ideal) x1 (ix1 e)))))
    (prodAt h W f n) (val_main_v13 (F := Ideal) x1 (ix1 n)) h0 ht
  beta_reduce at hK
  rw [hK, zero_add]
  refine congrArg (fun t => max (t + b (ix1 f)) 0) ?_
  symm
  refine Cert.GcnMath.ref_side_lit (A := 1600000) (B := 100000) (C := 1700000) (by norm_num)
    (fun e' : Fin 1700000 => (val_main_v41 (F := Ideal) x1 (ix2 e' 0)).toInt = (n.val : ℤ))
    (fun e' : Fin 1700000 => prodAt h W f ⟨min (val_main_v35 (F := Ideal) x1 (ix2 e' 0)).toInt.toNat (100000 - 1), by omega⟩
        * val_main_v38 (F := Ideal) x1 (ix2 e' f))
    (fun e : Fin 1600000 => (Cert.KernelIdeal.Val.col (F := Ideal) x1 (ix1 e)).toInt = (n.val : ℤ))
    (fun e => prodAt h W f (clamp (Cert.KernelIdeal.Val.row (F := Ideal) x1 (ix1 e)))
        * (val_main_v13 (F := Ideal) x1 (ix1 (clamp (Cert.KernelIdeal.Val.row (F := Ideal) x1 (ix1 e)))) * val_main_v13 (F := Ideal) x1 (ix1 n)))
    n (prodAt h W f n * (val_main_v13 (F := Ideal) x1 (ix1 n) * val_main_v13 (F := Ideal) x1 (ix1 n))) ?_ ?_ ?_ ?_
  · intro e
    show (val_main_v41 (F := Ideal) x1 (ix2 (⟨e.val, _⟩ : Fin 1700000) 0)).toInt = _ ↔ _
    rw [Cert.BridgeEdge.v41_edge]
  · intro e he
    show prodAt h W f ⟨min (val_main_v35 (F := Ideal) x1 (ix2 (⟨e.val, _⟩ : Fin 1700000) 0)).toInt.toNat (100000 - 1), _⟩
        * val_main_v38 (F := Ideal) x1 (ix2 (⟨e.val, _⟩ : Fin 1700000) f) = _
    rw [Cert.BridgeEdge.v38_edge, row_of_start _ _ (Cert.BridgeEdge.v35_edge x1 e), clamp_of_toInt_eq _ n he]
  · intro j
    show (val_main_v41 (F := Ideal) x1 (ix2 (⟨1600000 + j.val, _⟩ : Fin 1700000) 0)).toInt = _ ↔ _
    rw [Cert.BridgeEdge.v41_loop]
    exact Cert.BridgeEdge.loop_iff j n
  · show prodAt h W f ⟨min (val_main_v35 (F := Ideal) x1 (ix2 (⟨1600000 + n.val, _⟩ : Fin 1700000) 0)).toInt.toNat (100000 - 1), _⟩
        * val_main_v38 (F := Ideal) x1 (ix2 (⟨1600000 + n.val, _⟩ : Fin 1700000) f) = _
    rw [Cert.BridgeEdge.v38_loop, row_of_start _ _ (Cert.BridgeEdge.v35_loop x1 n), Cert.BridgeEdge.clamp_loop]

end Cert.Bridge

end
-- ==== Proof.BridgeTop.lean ====
/-
  The kernel's result function is the reference's result term: three layers, each agreeing, then
  the same per-graph mean and the same head.
-/
import proofs.«170848_j50586124812352_1_alg».proof.Proof.BridgeLayer

noncomputable section

namespace Cert.Bridge

open Idealize.ShloMosaic Idealize.ShloMosaic.TcCoe Idealize.ShloMosaic.ValueIdx
open Cert.ReferenceIdeal Cert.ReferenceIdeal.Gen Cert.ReferenceIdeal.Read

/-- The kernel's closed form of its result is the reference's composed term, as functions of the
    eleven arguments. -/
theorem out_eq (x0 : FVec Ideal S100000x128 .f32) (x1 : IVec S2x1600000 32) (x2 : IVec S100000 32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x10 .f32) (x10 : FVec Ideal S10 .f32) :
    Cert.KernelIdeal.Val.out x0 x1 x2 x3 x4 x5 x6 x7 x8 x9 x10
      = val_main_v98 (F := Ideal) x0 x1 x2 x3 x4 x5 x6 x7 x8 x9 x10 := by
  rw [Cert.ReferenceIdeal.RefVal.val_out_eq]
  unfold Cert.KernelIdeal.Val.out
  rw [layer_eq, layer_eq, layer_eq, pool_eq, head_eq]

end Cert.Bridge

end
-- ==== Proof.lean ====
/-
  The certificate's claim: the three frames, the (empty) idealization ledger, and the equality of
  the idealized kernel's and the idealized reference's results over the extended reals.

  The network is three graph-convolution layers, a per-graph mean and a linear head.  The kernel
  runs seven dense regions with host gathers and scatter-adds between them; its result, read off
  the regions' blocks and the host stretches, is one closed function of the eleven arguments
  (`Cert.KernelIdeal.Val.out`).  The reference's generated run gives its result as the composed
  term of its operations.  The two are the same function: per layer the kernel's
  `(Σ_e A(src e)·δ(src e) + A(n)·δ(n))·δ(n)` is the reference's sum over the edge list extended by
  the loops of `A(src)·(δ(src)·δ(tgt))`, because the node factor `δ(n)` is nonnegative and finite
  and so distributes over every sum of extended reals; the mean and the head are the same
  operations in both programs.  No finiteness of the inputs is used.
-/
import proofs.«170848_j50586124812352_1_alg».proof.Defs
import proofs.«170848_j50586124812352_1_alg».proof.Proof.Gen.Kernel
import proofs.«170848_j50586124812352_1_alg».proof.Proof.Gen.Kernel.Frame
import proofs.«170848_j50586124812352_1_alg».proof.Proof.Gen.KernelIdeal
import proofs.«170848_j50586124812352_1_alg».proof.Proof.Gen.KernelIdeal.Frame
import proofs.«170848_j50586124812352_1_alg».proof.Proof.Gen.ReferenceIdeal
import proofs.«170848_j50586124812352_1_alg».proof.Proof.Gen.ReferenceIdeal.Run
import proofs.«170848_j50586124812352_1_alg».proof.Proof.Gen.ReferenceIdeal.Read
import proofs.«170848_j50586124812352_1_alg».proof.Proof.Gen.Pre_finite_inputs
import proofs.«170848_j50586124812352_1_alg».proof.Proof.RegMat
import proofs.«170848_j50586124812352_1_alg».proof.Proof.RegComb
import proofs.«170848_j50586124812352_1_alg».proof.Proof.KChain
import proofs.«170848_j50586124812352_1_alg».proof.Proof.BridgeTop
import Idealize.ShloMosaic.Adequacy
import Idealize.ShloMosaic.Init

noncomputable section

namespace Cert.Proof

open Idealize.ShloMosaic Idealize.SL.Sem

/-- the seven regions' arrays after their runs, as closed functions of the arrays they find -/
theorem regionOuts : Cert.KernelIdeal.Val.RegionOuts :=
  ⟨Cert.KernelIdeal.Val.out0, Cert.KernelIdeal.Val.out1, Cert.KernelIdeal.Val.out2, Cert.KernelIdeal.Val.out3,
    Cert.KernelIdeal.Val.out4, Cert.KernelIdeal.Val.out5, Cert.KernelIdeal.Val.out6⟩

theorem frame_k : Cert.frame_Kernel := fun m ρ _ => Cert.Kernel.Gen.frame m ρ
theorem frame_ki : Cert.frame_KernelIdeal := fun m ρ _ => Cert.KernelIdeal.Gen.frame m ρ
/-- the reference has no kernel: its frame is its run with the result dropped -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the kernel's closed form of the result, from memories that
    agree on the arguments. -/
theorem algebraic : Cert.algebraic_KernelIdeal_ReferenceIdeal := by
  intro m ρ m' ρ' _ hagree
  refine ⟨fun c => Cert.KernelIdeal.Val.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Val.kernel_run regionOuts m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
